-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x163 : Shape := ⟨2, ![100000, 163]⟩
abbrev S2x1000000 : Shape := ⟨2, ![2, 1000000]⟩
abbrev S100000 : Shape := ⟨1, ![100000]⟩
abbrev S163x64 : Shape := ⟨2, ![163, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x163 : S_.BroadcastsInDim S100000x163 (![] : Fin 0 → Fin S100000x163.rank)
  reducesTo_S100000x163_S_d0_1 : S100000x163.ReducesTo [0, 1] S_
  h_S_ : 0 < S_.numel
  bcast_S_S163x64 : S_.BroadcastsInDim S163x64 (![] : Fin 0 → Fin S163x64.rank)
  reducesTo_S163x64_S_d0_1 : S163x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x163 .f32) (main_arg1 : IVec S2x1000000 32) (main_arg2 : IVec S100000 32) (main_arg3 : FVec F S163x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S100000x163 .f32 := Host.absf main_arg0
  let main_cst : FVec F S_ .f32 := constant S_ .f32 0x7F800000#32
  let main_v1 : FVec F S100000x163 .f32 := broadcastInDim S100000x163 ![] bcast_S_S100000x163 main_cst
  let main_v2 : IVec S100000x163 1 := cmpf .olt main_v0 main_v1
  let main_c : IVec S_ 1 := constantI S_ 1 1#1
  let main_v3 : IVec S_ 1 := (fun x v => Host.reduce IntOp.andi x v reducesTo_S100000x163_S_d0_1 h_S_) main_v2 main_c
  let main_v4 : FVec F S163x64 .f32 := Host.absf main_arg3
  let main_cst_0 : FVec F S_ .f32 := constant S_ .f32 0x7F800000#32
  let main_v5 : FVec F S163x64 .f32 := broadcastInDim S163x64 ![] bcast_S_S163x64 main_cst_0
  let main_v6 : IVec S163x64 1 := cmpf .olt main_v4 main_v5
  let main_c_1 : IVec S_ 1 := constantI S_ 1 1#1
  let main_v7 : IVec S_ 1 := (fun x v => Host.reduce IntOp.andi x v reducesTo_S163x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x163 : Shape := ⟨2, ![100000, 163]⟩
abbrev S2x1000000 : Shape := ⟨2, ![2, 1000000]⟩
abbrev S100000 : Shape := ⟨1, ![100000]⟩
abbrev S163x64 : Shape := ⟨2, ![163, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S100000x64 : Shape := ⟨2, ![100000, 64]⟩
abbrev S10000x163 : Shape := ⟨2, ![10000, 163]⟩
abbrev S10000x64 : Shape := ⟨2, ![10000, 64]⟩
abbrev S1000000x64 : Shape := ⟨2, ![1000000, 64]⟩
abbrev S10000x1 : Shape := ⟨2, ![10000, 1]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩
abbrev S1x1 : Shape := ⟨2, ![1, 1]⟩

abbrev nBuf : Space → Nat
  | .hbm => 118
  | .vmem => 48
  | .smem => 0
  | _ => 0

abbrev bufTy : (tb : Table) → Fin (tcTables nBuf tb) → BufTy
  | .hbm, ⟨0, _⟩ => ⟨S100000x163, .f32⟩
  | .hbm, ⟨1, _⟩ => ⟨S2x1000000, .i32⟩
  | .hbm, ⟨2, _⟩ => ⟨S100000, .i32⟩
  | .hbm, ⟨3, _⟩ => ⟨S163x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .f32⟩
  | .hbm, ⟨18, _⟩ => ⟨S1000000, .f32⟩
  | .hbm, ⟨19, _⟩ => ⟨S_, .f32⟩
  | .hbm, ⟨20, _⟩ => ⟨S100000, .f32⟩
  | .hbm, ⟨21, _⟩ => ⟨S1000000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000, .f32⟩
  | .hbm, ⟨47, _⟩ => ⟨S1000000, .f32⟩
  | .hbm, ⟨48, _⟩ => ⟨S1000000x1, .f32⟩
  | .hbm, ⟨49, _⟩ => ⟨S100000x64, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x64, .f32⟩
  | .hbm, ⟨59, _⟩ => ⟨S1000000x64, .f32⟩
  | .hbm, ⟨60, _⟩ => ⟨S1000000x64, .f32⟩
  | .hbm, ⟨61, _⟩ => ⟨S_, .f32⟩
  | .hbm, ⟨62, _⟩ => ⟨S100000x64, .f32⟩
  | .hbm, ⟨63, _⟩ => ⟨S1000000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x64, .f32⟩
  | .hbm, ⟨76, _⟩ => ⟨S1000000x64, .f32⟩
  | .hbm, ⟨77, _⟩ => ⟨S1000000x64, .f32⟩
  | .hbm, ⟨78, _⟩ => ⟨S_, .f32⟩
  | .hbm, ⟨79, _⟩ => ⟨S100000x64, .f32⟩
  | .hbm, ⟨80, _⟩ => ⟨S1000000x1, .i32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .i32⟩
  | .hbm, ⟨85, _⟩ => ⟨S1000000, .i32⟩
  | .hbm, ⟨86, _⟩ => ⟨S1000000, .i1⟩
  | .hbm, ⟨87, _⟩ => ⟨S_, .i32⟩
  | .hbm, ⟨88, _⟩ => ⟨S1000000, .i32⟩
  | .hbm, ⟨89, _⟩ => ⟨S1000000, .i32⟩
  | .hbm, ⟨90, _⟩ => ⟨S1000000, .i32⟩
  | .hbm, ⟨91, _⟩ => ⟨S1000000x1, .i32⟩
  | .hbm, ⟨92, _⟩ => ⟨S1000000x64, .f32⟩
  | .hbm, ⟨93, _⟩ => ⟨S1000000x64, .f32⟩
  | .hbm, ⟨94, _⟩ => ⟨S1000000x64, .f32⟩
  | .hbm, ⟨95, _⟩ => ⟨S_, .f32⟩
  | .hbm, ⟨96, _⟩ => ⟨S100000x64, .f32⟩
  | .hbm, ⟨97, _⟩ => ⟨S1000000x1, .i32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S2000x64, .f32⟩
  | .hbm, ⟨102, _⟩ => ⟨S100000x1, .i32⟩
  | .hbm, ⟨103, _⟩ => ⟨S2000x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S2000, .f32⟩
  | .hbm, ⟨108, _⟩ => ⟨S100000x1, .i32⟩
  | .hbm, ⟨109, _⟩ => ⟨S2000, .f32⟩
  | .hbm, ⟨110, _⟩ => ⟨S_, .f32⟩
  | .hbm, ⟨111, _⟩ => ⟨S2000, .f32⟩
  | .hbm, ⟨112, _⟩ => ⟨S2000, .f32⟩
  | .hbm, ⟨113, _⟩ => ⟨S2000x1, .f32⟩
  | .hbm, ⟨114, _⟩ => ⟨S2000x64, .f32⟩
  | .hbm, ⟨115, _⟩ => ⟨S2000x64, .f32⟩
  | .hbm, ⟨116, _⟩ => ⟨S2000x1, .f32⟩
  | .hbm, ⟨117, _⟩ => ⟨S2000, .f32⟩
  | .local _ .vmem, ⟨0, _⟩ => ⟨S10000x163, .f32⟩
  | .local _ .vmem, ⟨1, _⟩ => ⟨S10000x163, .f32⟩
  | .local _ .vmem, ⟨2, _⟩ => ⟨S163x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S64, .f32⟩
  | .local _ .vmem, ⟨40, _⟩ => ⟨S10000x64, .f32⟩
  | .local _ .vmem, ⟨41, _⟩ => ⟨S10000x64, .f32⟩
  | .local _ .vmem, ⟨42, _⟩ => ⟨S2000x64, .f32⟩
  | .local _ .vmem, ⟨43, _⟩ => ⟨S64x64, .f32⟩
  | .local _ .vmem, ⟨44, _⟩ => ⟨S64, .f32⟩
  | .local _ .vmem, ⟨45, _⟩ => ⟨S64x1, .f32⟩
  | .local _ .vmem, ⟨46, _⟩ => ⟨S1, .f32⟩
  | .local _ .vmem, ⟨47, _⟩ => ⟨S2000x1, .f32⟩
  | _, _ => ⟨S100000x163, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x163 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S163x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2000x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2000x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S1000000_S1000000x1 : S1000000.ShapeCasts S1000000x1
  inb_S10000x163_S10000x163_0_0 : ∀ a, (![0, 0] : Fin 2 → Nat) a + S10000x163.size a ≤ S10000x163.size a
  h_S10000x163 : 0 < S10000x163.numel
  bitsLt_bf16_f32 : FTy.bits .bf16 < FTy.bits .f32
  inb_S163x64_S163x64_0_0 : ∀ a, (![0, 0] : Fin 2 → Nat) a + S163x64.size a ≤ S163x64.size a
  h_S163x64 : 0 < S163x64.numel
  inb_S10000x64_S10000x64_0_0 : ∀ a, (![0, 0] : Fin 2 → Nat) a + S10000x64.size a ≤ S10000x64.size a
  h_S10000x64 : 0 < S10000x64.numel
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S64_S64_0 : ∀ a, (![0] : Fin 1 → Nat) a + S64.size a ≤ S64.size a
  h_S64 : 0 < S64.numel
  broadcasts_S10000x1_S10000x64 : S10000x1.Broadcasts S10000x64
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S10000x163_S163x64_S10000x64_1_0_0_1_n_n_wf : DotDims.WF S10000x163 S163x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x163.size a ≤ S100000x163.size a
  hwx0_0 : ∀ i : grid0.Coords, EltTy.bits .f32 = 32 ∨ (Rect.block (s := S100000x163) S10000x163.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S163x64.size a ≤ S163x64.size a
  hwx0_1 : ∀ i : grid0.Coords, EltTy.bits .f32 = 32 ∨ (Rect.block (s := S163x64) S163x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S2000x64.size a
  hwx6_0 : ∀ i : grid6.Coords, EltTy.bits .f32 = 32 ∨ (Rect.block (s := S2000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S2000x1.size a
  hwx6_5 : ∀ i : grid6.Coords, EltTy.bits .f32 = 32 ∨ (Rect.block (s := S2000x1) S2000x1.size (cc6_transform_5 i) (hinb6_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S10000x163_S163x64_S10000x64_1_0_0_1_n_n : DotDims S10000x163 S163x64 S10000x64 where
  lhsContracting := [1]
  rhsContracting := [0]
  lhsNonContracting := [0]
  rhsNonContracting := [1]
  lhsBatch := []
  rhsBatch := []
  wf := dot_S10000x163_S163x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S10000x163.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S163x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v82) S2000x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg12) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v83) S2000x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x163 : Shape := ⟨2, ![100000, 163]⟩
abbrev S2x1000000 : Shape := ⟨2, ![2, 1000000]⟩
abbrev S100000 : Shape := ⟨1, ![100000]⟩
abbrev S163x64 : Shape := ⟨2, ![163, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x64 : Shape := ⟨2, ![100000, 64]⟩
abbrev S1000000x64 : Shape := ⟨2, ![1000000, 64]⟩
abbrev S100000x1 : Shape := ⟨2, ![100000, 1]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S100000x163, .f32⟩
  | 1 => ⟨S2x1000000, .i32⟩
  | 2 => ⟨S100000, .i32⟩
  | 3 => ⟨S163x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x1000000, .i32⟩
  | 14 => ⟨S1000000, .i32⟩
  | 15 => ⟨S1x1000000, .i32⟩
  | 16 => ⟨S1000000, .i32⟩
  | 17 => ⟨S_, .f32⟩
  | 18 => ⟨S1000000, .f32⟩
  | 19 => ⟨S_, .f32⟩
  | 20 => ⟨S100000, .f32⟩
  | 21 => ⟨S1000000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x64, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000, .f32⟩
  | 46 => ⟨S1000000, .f32⟩
  | 47 => ⟨S1000000x1, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x64, .f32⟩
  | 57 => ⟨S1000000x64, .f32⟩
  | 58 => ⟨S1000000x64, .f32⟩
  | 59 => ⟨S_, .f32⟩
  | 60 => ⟨S100000x64, .f32⟩
  | 61 => ⟨S1000000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S_, .f32⟩
  | 73 => ⟨S100000x64, .f32⟩
  | 74 => ⟨S100000x64, .i1⟩
  | 75 => ⟨S_, .f32⟩
  | 76 => ⟨S100000x64, .f32⟩
  | 77 => ⟨S100000x64, .f32⟩
  | 78 => ⟨S100000x64, .f32⟩
  | 79 => ⟨S100000x64, .f32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000, .f32⟩
  | 98 => ⟨S1000000, .f32⟩
  | 99 => ⟨S1000000x1, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x64, .f32⟩
  | 109 => ⟨S1000000x64, .f32⟩
  | 110 => ⟨S1000000x64, .f32⟩
  | 111 => ⟨S_, .f32⟩
  | 112 => ⟨S100000x64, .f32⟩
  | 113 => ⟨S1000000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S_, .f32⟩
  | 125 => ⟨S100000x64, .f32⟩
  | 126 => ⟨S100000x64, .i1⟩
  | 127 => ⟨S_, .f32⟩
  | _ => ⟨S100000x163, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000, .f32⟩
  | 22 => ⟨S1000000, .f32⟩
  | 23 => ⟨S1000000x1, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x64, .f32⟩
  | 33 => ⟨S1000000x64, .f32⟩
  | 34 => ⟨S1000000x64, .f32⟩
  | 35 => ⟨S_, .f32⟩
  | 36 => ⟨S100000x64, .f32⟩
  | 37 => ⟨S1000000x1, .i32⟩
  | 38 => ⟨S100000x64, .f32⟩
  | 39 => ⟨S100000, .f32⟩
  | 40 => ⟨S100000x1, .f32⟩
  | 41 => ⟨S100000x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S_, .f32⟩
  | 49 => ⟨S100000x64, .f32⟩
  | 50 => ⟨S100000x64, .i1⟩
  | 51 => ⟨S_, .f32⟩
  | 52 => ⟨S100000x64, .f32⟩
  | 53 => ⟨S100000x64, .f32⟩
  | 54 => ⟨S100000x64, .f32⟩
  | 55 => ⟨S_, .f32⟩
  | 56 => ⟨S2000x64, .f32⟩
  | 57 => ⟨S100000x1, .i32⟩
  | 58 => ⟨S2000x64, .f32⟩
  | 59 => ⟨S_, .f32⟩
  | 60 => ⟨S100000, .f32⟩
  | 61 => ⟨S_, .f32⟩
  | 62 => ⟨S2000, .f32⟩
  | 63 => ⟨S100000x1, .i32⟩
  | 64 => ⟨S2000, .f32⟩
  | 65 => ⟨S_, .f32⟩
  | 66 => ⟨S2000, .f32⟩
  | 67 => ⟨S2000, .f32⟩
  | 68 => ⟨S2000x1, .f32⟩
  | 69 => ⟨S2000x64, .f32⟩
  | 70 => ⟨S2000x64, .f32⟩
  | 71 => ⟨S2000x64, .f32⟩
  | 72 => ⟨S1x64, .f32⟩
  | 73 => ⟨S2000x64, .f32⟩
  | 74 => ⟨S2000x64, .f32⟩
  | 75 => ⟨S_, .f32⟩
  | 76 => ⟨S_, .f32⟩
  | 77 => ⟨S2000x64, .f32⟩
  | 78 => ⟨S2000x64, .i1⟩
  | 79 => ⟨S_, .f32⟩
  | 80 => ⟨S2000x64, .f32⟩
  | 81 => ⟨S2000x64, .f32⟩
  | 82 => ⟨S2000x64, .f32⟩
  | 83 => ⟨S2000x1, .f32⟩
  | 84 => ⟨S1x1, .f32⟩
  | 85 => ⟨S2000x1, .f32⟩
  | 86 => ⟨S2000x1, .f32⟩
  | 87 => ⟨S2000, .f32⟩
  | _ => ⟨S100000x163, .f32⟩

abbrev hbmTy (i : Nat) : BufTy := match i / 128 with
  | 0 => hbmTy0_0 i
  | 1 => hbmTy0_1 i
  | _ => ⟨S100000x163, .f32⟩

abbrev bufTy : (tb : Table) → Fin (tcTables nBuf tb) → BufTy
  | .hbm, ⟨i, _⟩ => hbmTy i
  | _, _ => ⟨S100000x163, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_13 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_call1_cst : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_v86 : Ref sig .tc := ⟨.hbm, 130, rfl⟩
abbrev main_v87 : Ref sig .tc := ⟨.hbm, 131, rfl⟩
abbrev main_c_17 : Ref sig .tc := ⟨.hbm, 132, rfl⟩
abbrev main_v88 : Ref sig .tc := ⟨.hbm, 133, rfl⟩
abbrev main_v89 : Ref sig .tc := ⟨.hbm, 134, rfl⟩
abbrev main_c_18 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_19 : Ref sig .tc := ⟨.hbm, 141, rfl⟩
abbrev main_v95 : Ref sig .tc := ⟨.hbm, 142, rfl⟩
abbrev main_v96 : Ref sig .tc := ⟨.hbm, 143, rfl⟩
abbrev main_c_20 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_c_21 : Ref sig .tc := ⟨.hbm, 152, rfl⟩
abbrev main_v104 : Ref sig .tc := ⟨.hbm, 153, rfl⟩
abbrev main_v105 : Ref sig .tc := ⟨.hbm, 154, rfl⟩
abbrev main_c_22 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_23 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_24 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_v124 : Ref sig .tc := ⟨.hbm, 182, rfl⟩
abbrev main_cst_25 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_26 : Ref sig .tc := ⟨.hbm, 187, rfl⟩
abbrev main_v128 : Ref sig .tc := ⟨.hbm, 188, rfl⟩
abbrev main_cst_27 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_28 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_29 : Ref sig .tc := ⟨.hbm, 203, rfl⟩
abbrev main_call3_cst : Ref sig .tc := ⟨.hbm, 204, rfl⟩
abbrev main_call3_v0 : Ref sig .tc := ⟨.hbm, 205, rfl⟩
abbrev main_call3_v1 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2000x64 : S_.BroadcastsInDim S2000x64 (![] : Fin 0 → Fin S2000x64.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  bcast_S1x64_S2000x64_0_1 : S1x64.BroadcastsInDim S2000x64 (![0, 1] : Fin 2 → Fin S2000x64.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  shapeCasts_S2000x1_S2000 : S2000x1.ShapeCasts S2000
  scatter_S100000_S1000000x1_S1000000_n_0_0_1_wf : ScatterDims.WF S100000 S1000000x1 S1000000 [] [0] [0] 1
  dot_S100000x163_S163x64_S100000x64_1_0_0_1_n_n_wf : DotDims.WF S100000x163 S163x64 S100000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x163_S163x64_S100000x64_1_0_0_1_n_n : DotDims S100000x163 S163x64 S100000x64 where
  lhsContracting := [1]
  rhsContracting := [0]
  lhsNonContracting := [0]
  rhsNonContracting := [1]
  lhsBatch := []
  rhsBatch := []
  wf := dot_S100000x163_S163x64_S100000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

class Facts : Prop extends Facts₀ where

variable [Facts]
-- ==== Proof.KRun.lean ====
/-
  The kernel program's run with its result named. Every weakly fair execution of the program — seven Pallas regions
  among stretches of host operations — terminates without a fault; at the end the result buffer holds what the last
  stretch of host operations leaves there (the contents `W13` at the last segment boundary: a fold, from the launch
  memory, of each host stretch's operations and of each region's write-backs), and the thirteen argument arrays are as
  launched. The segments, the contents at each boundary and the regions' obligations are the generated frame's; only
  the final state is read at one more buffer.
-/
import proofs.«112680_j2370821947637_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v84) = W13 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v84 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.KRun

end
-- ==== Proof.Spec.lean ====
/-
  The function both programs compute, as one composition of whole-array operations on the extended reals.

  A graph-convolution network over a graph of 100000 nodes and 1000000 directed edges (rows 0 and 1 of the edge
  list are the edges' sources and destinations):
  * `dis` is d^(-1/2), where d (v) is one plus the number of edges arriving at v;
  * a layer takes the projected features h = x · W and returns, at node v and channel c, the leaky ReLU (slope the
    binary32 nearest 0.01) of   Σ_{e : dst e = v} dis(src e) · dis(dst e) · h(src e, c)  +  dis(v)² · h(v, c)  +  b(c);
  * `pooled` is the per-graph mean of the node features (sum over the nodes of a graph divided by max(count, 1));
  * `head` is the two-layer perceptron  leakyReLU(p · w1 + c1) · w2 + c2  on the pooled features.
  Every definition is spelt with the host operations themselves (scatter-add, gather, dot_general, broadcasts), so that
  a program whose host operations are these reads back as these definitions by unfolding alone; what a Pallas region
  contributes is proved equal to `lin163` / `lin64` / `combine` / `head` index by index elsewhere.
-/
import proofs.«112680_j2370821947637_1_alg».proof.ReferenceIdeal

noncomputable section

namespace Cert.Gcn

open Idealize.ShloMosaic Cert.ReferenceIdeal Cert.ReferenceIdeal.Facts₀

variable [Cert.ReferenceIdeal.Facts] {F : FTy → Type} [FloatOps F]

/-- The arrays of a shape and element type, over the float values `F`. -/
abbrev Arr (F : FTy → Type) (S : Shape) (e : EltTy) : Type := (⟨S, e⟩ : BufTy).Contents (Elt F)

/-- The edges' sources: row 0 of the edge list, as a vector. -/
def srcOf (ei : Arr F S2x1000000 .i32) : Arr F S1000000 .i32 :=
  fun i => shapeCast S1000000 (extractStridedSlice S1x1000000 ![0, 0] ei slices_S2x1000000_S1x1000000_0_0) shapeCasts_S1x1000000_S1000000 i

/-- The edges' destinations: row 1 of the edge list, as a vector. -/
def dstOf (ei : Arr F S2x1000000 .i32) : Arr F S1000000 .i32 :=
  fun i => shapeCast S1000000 (extractStridedSlice S1x1000000 ![1, 0] ei slices_S2x1000000_S1x1000000_1_0) shapeCasts_S1x1000000_S1000000 i

/-- A vector of node numbers as the index column of a scatter. -/
def rawCol (v : Arr F S1000000 .i32) : Arr F S1000000x1 .i32 :=
  broadcastInDim S1000000x1 ![0] bcast_S1000000_S1000000x1_0 v

/-- A vector of node numbers as the index column of a gather: a negative number counts from the end (+100000). -/
def wrapCol (v : Arr F S1000000 .i32) : Arr F S1000000x1 .i32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- d^(-1/2): the reciprocal square root of one plus the number of edges arriving at each node. -/
def dis (dst : Arr F S1000000 .i32) : Arr F S100000 .f32 :=
  Host.rsqrt (addf
    (Host.scatterAdd scatter_S100000_S1000000x1_S1000000_n_0_0_1
      (broadcastInDim S100000 ![] bcast_S_S100000 (constant S_ .f32 0x00000000#32)) (rawCol dst)
      (broadcastInDim S1000000 ![] bcast_S_S1000000 (constant S_ .f32 0x3F800000#32)))
    (broadcastInDim S100000 ![] bcast_S_S100000 (constant S_ .f32 0x3F800000#32)))

/-- The edge weights dis(src e) · dis(dst e). -/
def normv (src dst : Arr F S1000000 .i32) (d : Arr F S100000 .f32) : Arr F S1000000 .f32 :=
  mulf (Host.gather gather_S100000_S1000000x1_S1000000_n_0_n_n_0_1_1 d (wrapCol src))
    (Host.gather gather_S100000_S1000000x1_S1000000_n_0_n_n_0_1_1 d (wrapCol dst))

/-- A vector over the edges as a column. -/
def colOfEdges (v : Arr F S1000000 .f32) : Arr F S1000000x1 .f32 :=
  broadcastInDim S1000000x1 ![0] bcast_S1000000_S1000000x1_0 v

/-- A vector over the nodes as a column. -/
def colOfNodes (v : Arr F S100000 .f32) : Arr F S100000x1 .f32 :=
  broadcastInDim S100000x1 ![0] bcast_S100000_S100000x1_0 v

/-- The weighted messages summed over each node's incoming edges: at (v, c) the sum over the edges e into v of
    w(e) · h(src e, c), the weights given as a column. -/
def agg (wcol : Arr F S1000000x1 .f32) (h : Arr F S100000x64 .f32) (src dst : Arr F S1000000 .i32) : Arr F S100000x64 .f32 :=
  Host.scatterAdd scatter_S100000x64_S1000000x1_S1000000x64_1_0_0_1
    (broadcastInDim S100000x64 ![] bcast_S_S100000x64 (constant S_ .f32 0x00000000#32)) (rawCol dst)
    (mulf (broadcastInDim S1000000x64 ![0, 1] bcast_S1000000x1_S1000000x64_0_1 wcol)
      (Host.gather gather_S100000x64_S1000000x1_S1000000x64_1_0_n_n_0_1_164 h (wrapCol src)))

/-- Leaky ReLU on the node features: x where x ≥ 0, slope · x elsewhere. -/
def lrelu (x : Arr F S100000x64 .f32) : Arr F S100000x64 .f32 :=
  select (cmpf .oge x (broadcastInDim S100000x64 ![] bcast_S_S100000x64 (constant S_ .f32 0x00000000#32))) x
    (mulf (broadcastInDim S100000x64 ![] bcast_S_S100000x64 (id (constant S_ .f32 0x3C23D70A#32))) x)

/-- A layer after its projection and message sum: leakyReLU(a + s · h + b), s a column over the nodes, b a row. -/
def combine (a h : Arr F S100000x64 .f32) (scol : Arr F S100000x1 .f32) (b : Arr F S64 .f32) : Arr F S100000x64 .f32 :=
  lrelu (addf (addf a (mulf (broadcastInDim S100000x64 ![0, 1] bcast_S100000x1_S100000x64_0_1 scol) h))
    (broadcastInDim S100000x64 ![0, 1] bcast_S1x64_S100000x64_0_1 (broadcastInDim S1x64 ![1] bcast_S64_S1x64_1 b)))

/-- The first projection, x · W with 163 input channels. -/
def lin163 (x : Arr F S100000x163 .f32) (W : Arr F S163x64 .f32) : Arr F S100000x64 .f32 :=
  Host.dotGeneral dot_S100000x163_S163x64_S100000x64_1_0_0_1_n_n none x W

/-- A later projection, h · W with 64 input channels. -/
def lin64 (h : Arr F S100000x64 .f32) (W : Arr F S64x64 .f32) : Arr F S100000x64 .f32 :=
  Host.dotGeneral dot_S100000x64_S64x64_S100000x64_1_0_0_1_n_n none h W

/-- One graph-convolution layer on projected features, the edge weights and the self-loop scales given as columns. -/
def layerWith (wcol : Arr F S1000000x1 .f32) (scol : Arr F S100000x1 .f32) (h : Arr F S100000x64 .f32) (src dst : Arr F S1000000 .i32)
    (b : Arr F S64 .f32) : Arr F S100000x64 .f32 :=
  combine (agg wcol h src dst) h scol b

/-- One graph-convolution layer on projected features. -/
def layer (h : Arr F S100000x64 .f32) (src dst : Arr F S1000000 .i32) (b : Arr F S64 .f32) : Arr F S100000x64 .f32 :=
  layerWith (colOfEdges (normv src dst (dis dst))) (colOfNodes (mulf (dis dst) (dis dst))) h src dst b

/-- The per-graph mean of the node features. -/
def pooled (h : Arr F S100000x64 .f32) (batch : Arr F S100000 .i32) : Arr F S2000x64 .f32 :=
  Host.divf
    (Host.scatterAdd scatter_S2000x64_S100000x1_S100000x64_1_0_0_1
      (broadcastInDim S2000x64 ![] bcast_S_S2000x64 (constant S_ .f32 0x00000000#32))
      (broadcastInDim S100000x1 ![0] bcast_S100000_S100000x1_0 batch) h)
    (broadcastInDim S2000x64 ![0, 1] bcast_S2000x1_S2000x64_0_1 (broadcastInDim S2000x1 ![0] bcast_S2000_S2000x1_0
      (maximumf
        (Host.scatterAdd scatter_S2000_S100000x1_S100000_n_0_0_1
          (broadcastInDim S2000 ![] bcast_S_S2000 (constant S_ .f32 0x00000000#32))
          (broadcastInDim S100000x1 ![0] bcast_S100000_S100000x1_0 batch)
          (broadcastInDim S100000 ![] bcast_S_S100000 (constant S_ .f32 0x3F800000#32)))
        (broadcastInDim S2000 ![] bcast_S_S2000 (constant S_ .f32 0x3F800000#32)))))

/-- Leaky ReLU on the pooled features. -/
def lreluG (x : Arr F S2000x64 .f32) : Arr F S2000x64 .f32 :=
  select (cmpf .oge x (broadcastInDim S2000x64 ![] bcast_S_S2000x64 (constant S_ .f32 0x00000000#32))) x
    (mulf (broadcastInDim S2000x64 ![] bcast_S_S2000x64 (id (constant S_ .f32 0x3C23D70A#32))) x)

/-- The two-layer head: leakyReLU(p · w1 + c1) · w2 + c2, a column over the graphs. -/
def head (p : Arr F S2000x64 .f32) (w1 : Arr F S64x64 .f32) (c1 : Arr F S64 .f32) (w2 : Arr F S64x1 .f32) (c2 : Arr F S1 .f32) :
    Arr F S2000x1 .f32 :=
  addf
    (Host.dotGeneral dot_S2000x64_S64x1_S2000x1_1_0_0_1_n_n none
      (lreluG (addf (Host.dotGeneral dot_S2000x64_S64x64_S2000x64_1_0_0_1_n_n none p w1)
        (broadcastInDim S2000x64 ![0, 1] bcast_S1x64_S2000x64_0_1 (broadcastInDim S1x64 ![1] bcast_S64_S1x64_1 c1)))) w2)
    (broadcastInDim S2000x1 ![0, 1] bcast_S1x1_S2000x1_0_1 (broadcastInDim S1x1 ![1] bcast_S1_S1x1_1 c2))

/-- The head's column as a vector over the graphs. -/
def flat (y : Arr F S2000x1 .f32) : Arr F S2000 .f32 :=
  fun i => shapeCast S2000 y shapeCasts_S2000x1_S2000 i

/-- The whole network, the edge weights and the self-loop scales given as columns. -/
def outWith (wcol : Arr F S1000000x1 .f32) (scol : Arr F S100000x1 .f32)
    (x : Arr F S100000x163 .f32) (src dst : Arr F S1000000 .i32) (batch : Arr F S100000 .i32)
    (W0 : Arr F S163x64 .f32) (b0 : Arr F S64 .f32) (W1 : Arr F S64x64 .f32) (b1 : Arr F S64 .f32) (W2 : Arr F S64x64 .f32) (b2 : Arr F S64 .f32)
    (w1 : Arr F S64x64 .f32) (c1 : Arr F S64 .f32) (w2 : Arr F S64x1 .f32) (c2 : Arr F S1 .f32) : Arr F S2000 .f32 :=
  flat (head (pooled
    (layerWith wcol scol (lin64 (layerWith wcol scol (lin64 (layerWith wcol scol (lin163 x W0) src dst b0) W1) src dst b1) W2)
      src dst b2) batch) w1 c1 w2 c2)

/-- The whole network. -/
def out (x : Arr F S100000x163 .f32) (ei : Arr F S2x1000000 .i32) (batch : Arr F S100000 .i32)
    (W0 : Arr F S163x64 .f32) (b0 : Arr F S64 .f32) (W1 : Arr F S64x64 .f32) (b1 : Arr F S64 .f32) (W2 : Arr F S64x64 .f32) (b2 : Arr F S64 .f32)
    (w1 : Arr F S64x64 .f32) (c1 : Arr F S64 .f32) (w2 : Arr F S64x1 .f32) (c2 : Arr F S1 .f32) : Arr F S2000 .f32 :=
  flat (head (pooled
    (layer (lin64 (layer (lin64 (layer (lin163 x W0) (srcOf ei) (dstOf ei) b0) W1) (srcOf ei) (dstOf ei) b1) W2)
      (srcOf ei) (dstOf ei) b2) batch) w1 c1 w2 c2)

/-- The network is `outWith` at the edge weights dis(src)·dis(dst) and the self-loop scales dis². -/
theorem out_eq_outWith (x : Arr F S100000x163 .f32) (ei : Arr F S2x1000000 .i32) (batch : Arr F S100000 .i32)
    (W0 : Arr F S163x64 .f32) (b0 : Arr F S64 .f32) (W1 : Arr F S64x64 .f32) (b1 : Arr F S64 .f32) (W2 : Arr F S64x64 .f32) (b2 : Arr F S64 .f32)
    (w1 : Arr F S64x64 .f32) (c1 : Arr F S64 .f32) (w2 : Arr F S64x1 .f32) (c2 : Arr F S1 .f32) :
    out x ei batch W0 b0 W1 b1 W2 b2 w1 c1 w2 c2
      = outWith (colOfEdges (normv (srcOf ei) (dstOf ei) (dis (dstOf ei)))) (colOfNodes (mulf (dis (dstOf ei)) (dis (dstOf ei))))
          x (srcOf ei) (dstOf ei) batch W0 b0 W1 b1 W2 b2 w1 c1 w2 c2 := rfl

end Cert.Gcn

end
-- ==== Proof.KHost.lean ====
/-
  The kernel program's stretches of host operations, read back as whole-array functions.

  Before the first region the host computes, from the edge list, the edges' sources and destinations, the degree
  normalisation d^(-1/2), the self-loop scales d^(-1) as a column over the nodes, and the edge weights
  dis(src e) · dis(dst e) as a column over the edges (both columns by a shape cast of the vector). Between a projection
  region and the region that finishes a layer it computes the weighted message sums: a gather of the projected rows at
  the edges' sources, the product with the edge weights, a scatter-add at the edges' destinations. After the third
  layer it computes the per-graph means, and after the head region it flattens the head's column. Each is stated for
  ANY contents `W` of the buffers when the stretch starts, as the corresponding function of the contents it reads;
  and a buffer the stretch does not write keeps its contents.
-/
import proofs.«112680_j2370821947637_1_alg».proof.Proof.Gen.KernelIdeal.Launch
import proofs.«112680_j2370821947637_1_alg».proof.Proof.Gen.ReferenceIdeal
import proofs.«112680_j2370821947637_1_alg».proof.Proof.Spec
import Idealize.ShloMosaic.Lib.StableHlo.Run

noncomputable section

namespace Cert.KernelIdeal.KHost

open Cert.KernelIdeal Cert.KernelIdeal.Gen Cert.KernelIdeal.Facts₀
open Idealize.ShloMosaic Idealize.ShloMosaic.TcCoe Idealize.SL.Sem Idealize.ShloMosaic.StableHlo

variable {F : FTy → Type} [FloatOps F]

/-- A vector over the nodes as a column, by a shape cast. -/
def castColNodes (v : Cert.Gcn.Arr F S100000 .f32) : Cert.Gcn.Arr F S100000x1 .f32 :=
  fun i => shapeCast S100000x1 v Gen.shapeCasts_S100000_S100000x1 i

/-- A vector over the edges as a column, by a shape cast. -/
def castColEdges (v : Cert.Gcn.Arr F S1000000 .f32) : Cert.Gcn.Arr F S1000000x1 .f32 :=
  fun i => shapeCast S1000000x1 v Gen.shapeCasts_S1000000_S1000000x1 i

/-! ## Before the first region -/

theorem host0_v1 (W : Valuation τ sig (Elt F)) :
    after hostOps0 W (Proc.devRef .tc main_v1) = Cert.Gcn.srcOf (W (Proc.devRef .tc main_arg1)) := by
  after_results_simp; rfl

theorem host0_v3 (W : Valuation τ sig (Elt F)) :
    after hostOps0 W (Proc.devRef .tc main_v3) = Cert.Gcn.dstOf (W (Proc.devRef .tc main_arg1)) := by
  after_results_simp; rfl

theorem host0_v12 (W : Valuation τ sig (Elt F)) :
    after hostOps0 W (Proc.devRef .tc main_v12)
      = castColNodes (mulf (Cert.Gcn.dis (Cert.Gcn.dstOf (W (Proc.devRef .tc main_arg1))))
          (Cert.Gcn.dis (Cert.Gcn.dstOf (W (Proc.devRef .tc main_arg1))))) := by
  after_results_simp; rfl

theorem host0_v28 (W : Valuation τ sig (Elt F)) :
    after hostOps0 W (Proc.devRef .tc main_v28)
      = castColEdges (Cert.Gcn.normv (Cert.Gcn.srcOf (W (Proc.devRef .tc main_arg1))) (Cert.Gcn.dstOf (W (Proc.devRef .tc main_arg1)))
          (Cert.Gcn.dis (Cert.Gcn.dstOf (W (Proc.devRef .tc main_arg1))))) := by
  after_results_simp; rfl

/-- A buffer that none of the 36 operations of this stretch writes keeps its contents. -/
theorem keep0 (W : Valuation τ sig (Elt F)) (b : Ref sig .tc)
    (hb : ∀ y ∈ ([main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28] : List (Ref sig .tc)), b ≠ y) :
    after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

/-! ## The message sums of the three layers -/

theorem host1_v41 (W : Valuation τ sig (Elt F)) :
    after hostOps1 W (Proc.devRef .tc main_v41)
      = Cert.Gcn.agg (W (Proc.devRef .tc main_v28)) (W (Proc.devRef .tc main_v29)) (W (Proc.devRef .tc main_v1)) (W (Proc.devRef .tc main_v3)) := by
  after_results; rfl

/-- A buffer that none of the 15 operations of this stretch writes keeps its contents. -/
theorem keep1 (W : Valuation τ sig (Elt F)) (b : Ref sig .tc)
    (hb : ∀ y ∈ ([main_c_5, main_v30, main_v31, main_c_6, main_v32, main_v33, main_v34, main_v35, main_v36, main_v37, main_v38, main_cst_7, main_v39, main_v40, main_v41] : List (Ref sig .tc)), b ≠ y) :
    after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem host3_v55 (W : Valuation τ sig (Elt F)) :
    after hostOps3 W (Proc.devRef .tc main_v55)
      = Cert.Gcn.agg (W (Proc.devRef .tc main_v28)) (W (Proc.devRef .tc main_v43)) (W (Proc.devRef .tc main_v1)) (W (Proc.devRef .tc main_v3)) := by
  after_results; rfl

/-- A buffer that none of the 15 operations of this stretch writes keeps its contents. -/
theorem keep3 (W : Valuation τ sig (Elt F)) (b : Ref sig .tc)
    (hb : ∀ y ∈ ([main_c_8, main_v44, main_v45, main_c_9, main_v46, main_v47, main_v48, main_v49, main_v50, main_v51, main_v52, main_cst_10, main_v53, main_v54, main_v55] : List (Ref sig .tc)), b ≠ y) :
    after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem host5_v69 (W : Valuation τ sig (Elt F)) :
    after hostOps5 W (Proc.devRef .tc main_v69)
      = Cert.Gcn.agg (W (Proc.devRef .tc main_v28)) (W (Proc.devRef .tc main_v57)) (W (Proc.devRef .tc main_v1)) (W (Proc.devRef .tc main_v3)) := by
  after_results; rfl

/-- A buffer that none of the 15 operations of this stretch writes keeps its contents. -/
theorem keep5 (W : Valuation τ sig (Elt F)) (b : Ref sig .tc)
    (hb : ∀ y ∈ ([main_c_11, main_v58, main_v59, main_c_12, main_v60, main_v61, main_v62, main_v63, main_v64, main_v65, main_v66, main_cst_13, main_v67, main_v68, main_v69] : List (Ref sig .tc)), b ≠ y) :
    after hostOps5 W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

/-! ## The per-graph means, and the result's flattening -/

theorem host6_v82 (W : Valuation τ sig (Elt F)) :
    after hostOps6 W (Proc.devRef .tc main_v82)
      = Cert.Gcn.pooled (W (Proc.devRef .tc main_v70)) (W (Proc.devRef .tc main_arg2)) := by
  after_results; rfl

/-- A buffer that none of the 16 operations of this stretch writes keeps its contents. -/
theorem keep6 (W : Valuation τ sig (Elt F)) (b : Ref sig .tc)
    (hb : ∀ y ∈ ([main_cst_14, main_v71, main_v72, main_v73, main_cst_15, main_v74, main_cst_16, main_v75, main_v76, main_v77, main_cst_17, main_v78, main_v79, main_v80, main_v81, main_v82] : List (Ref sig .tc)), b ≠ y) :
    after hostOps6 W (Proc.devRef .tc b) = W (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

theorem host7_v84 (W : Valuation τ sig (Elt F)) :
    after hostOps7 W (Proc.devRef .tc main_v84) = Cert.Gcn.flat (W (Proc.devRef .tc main_v83)) := by
  after_results; rfl

end Cert.KernelIdeal.KHost

end
-- ==== Proof.KVal.lean ====
/-
  The kernel program's result as one function of its arguments.

  The run passes thirteen segment boundaries (a stretch of host operations or a Pallas region lies between two of
  them); the contents of the buffers at boundary k are `Wk`. Read backwards from the result: the result is the
  flattened output of the head region, which reads the per-graph means of the third layer's output, which the third
  combine region wrote from the third message sums, the third projection, the self-loop scales and the bias, and so on
  down to the first projection of the input features. Each step is one of three kinds: a host stretch read back as a
  whole-array function of what it reads (KHost), a region's output array as a whole-array function of its input arrays
  (the closed forms `RegionForms`, proved region by region elsewhere), or a buffer that a segment does not touch
  keeping its contents. The edges' sources and destinations, the edge-weight column and the self-loop-scale column are
  computed once, before the first region, and read by every layer.
-/
import proofs.«112680_j2370821947637_1_alg».proof.Proof.Gen.KernelIdeal.Frame
import proofs.«112680_j2370821947637_1_alg».proof.Proof.KHost
import Idealize.ShloMosaic.PureOps.Ideal

set_option maxRecDepth 16384

noncomputable section

namespace Cert.KernelIdeal.KVal

open Cert.KernelIdeal Cert.KernelIdeal.Gen Cert.KernelIdeal.KHost
open Idealize.ShloMosaic Idealize.ShloMosaic.TcCoe Idealize.SL.Sem Idealize.ShloMosaic.StableHlo
open Idealize.ShloMosaic.Pipeline (Dat)

/-- The regions' closed forms: each region's output array, after the region, is the whole-array function of the
    arrays the region reads, whatever the buffers hold when the region is entered. -/
structure RegionForms : Prop where
  lin0 : ∀ (V : (c : Dev nD) → (b : Ref sig .tc) → Buf (Elt Ideal) ((c : Thread nD τ).loc b)) (c : Dev nD),
    (dat0 (F := Ideal) V c).arrAt 2 cfg0.N = Cert.Gcn.lin163 (F := Ideal) (V c main_arg0) (V c main_arg3)
  comb1 : ∀ (V : (c : Dev nD) → (b : Ref sig .tc) → Buf (Elt Ideal) ((c : Thread nD τ).loc b)) (c : Dev nD),
    (dat1 (F := Ideal) V c).arrAt 4 cfg1.N = Cert.Gcn.combine (F := Ideal) (V c main_v41) (V c main_v29) (V c main_v12) (V c main_arg4)
  lin2 : ∀ (V : (c : Dev nD) → (b : Ref sig .tc) → Buf (Elt Ideal) ((c : Thread nD τ).loc b)) (c : Dev nD),
    (dat2 (F := Ideal) V c).arrAt 2 cfg2.N = Cert.Gcn.lin64 (F := Ideal) (V c main_v42) (V c main_arg5)
  comb3 : ∀ (V : (c : Dev nD) → (b : Ref sig .tc) → Buf (Elt Ideal) ((c : Thread nD τ).loc b)) (c : Dev nD),
    (dat3 (F := Ideal) V c).arrAt 4 cfg3.N = Cert.Gcn.combine (F := Ideal) (V c main_v55) (V c main_v43) (V c main_v12) (V c main_arg6)
  lin4 : ∀ (V : (c : Dev nD) → (b : Ref sig .tc) → Buf (Elt Ideal) ((c : Thread nD τ).loc b)) (c : Dev nD),
    (dat4 (F := Ideal) V c).arrAt 2 cfg4.N = Cert.Gcn.lin64 (F := Ideal) (V c main_v56) (V c main_arg7)
  comb5 : ∀ (V : (c : Dev nD) → (b : Ref sig .tc) → Buf (Elt Ideal) ((c : Thread nD τ).loc b)) (c : Dev nD),
    (dat5 (F := Ideal) V c).arrAt 4 cfg5.N = Cert.Gcn.combine (F := Ideal) (V c main_v69) (V c main_v57) (V c main_v12) (V c main_arg8)
  head6 : ∀ (V : (c : Dev nD) → (b : Ref sig .tc) → Buf (Elt Ideal) ((c : Thread nD τ).loc b)) (c : Dev nD),
    (dat6 (F := Ideal) V c).arrAt 5 cfg6.N = Cert.Gcn.head (F := Ideal) (V c main_v82) (V c main_arg9) (V c main_arg10) (V c main_arg11) (V c main_arg12)

variable (m : (ℓ : Loc nD τ sig) → Buf (Elt Ideal) ℓ) (ρ : Dev nD → PrngReg) (c : Dev nD)

/-! ## A buffer that the segments so far do not touch

`Uk b` says that no segment between boundary 1 and boundary k touches the buffer `b`: no host operation of a stretch
writes it and it is no window's array of a region. -/

abbrev U2 (b : Ref sig .tc) : Prop := ∀ w, Pipeline.arrRef spec0 w ≠ b
abbrev U3 (b : Ref sig .tc) : Prop := (∀ y ∈ ([main_c_5, main_v30, main_v31, main_c_6, main_v32, main_v33, main_v34, main_v35, main_v36, main_v37, main_v38, main_cst_7, main_v39, main_v40, main_v41] : List (Ref sig .tc)), b ≠ y) ∧ U2 b
abbrev U4 (b : Ref sig .tc) : Prop := (∀ w, Pipeline.arrRef spec1 w ≠ b) ∧ U3 b
abbrev U5 (b : Ref sig .tc) : Prop := (∀ w, Pipeline.arrRef spec2 w ≠ b) ∧ U4 b
abbrev U6 (b : Ref sig .tc) : Prop := (∀ y ∈ ([main_c_8, main_v44, main_v45, main_c_9, main_v46, main_v47, main_v48, main_v49, main_v50, main_v51, main_v52, main_cst_10, main_v53, main_v54, main_v55] : List (Ref sig .tc)), b ≠ y) ∧ U5 b
abbrev U7 (b : Ref sig .tc) : Prop := (∀ w, Pipeline.arrRef spec3 w ≠ b) ∧ U6 b
abbrev U8 (b : Ref sig .tc) : Prop := (∀ w, Pipeline.arrRef spec4 w ≠ b) ∧ U7 b
abbrev U9 (b : Ref sig .tc) : Prop := (∀ y ∈ ([main_c_11, main_v58, main_v59, main_c_12, main_v60, main_v61, main_v62, main_v63, main_v64, main_v65, main_v66, main_cst_13, main_v67, main_v68, main_v69] : List (Ref sig .tc)), b ≠ y) ∧ U8 b
abbrev U10 (b : Ref sig .tc) : Prop := (∀ w, Pipeline.arrRef spec5 w ≠ b) ∧ U9 b
abbrev U11 (b : Ref sig .tc) : Prop := (∀ y ∈ ([main_cst_14, main_v71, main_v72, main_v73, main_cst_15, main_v74, main_cst_16, main_v75, main_v76, main_v77, main_cst_17, main_v78, main_v79, main_v80, main_v81, main_v82] : List (Ref sig .tc)), b ≠ y) ∧ U10 b

/-- Untouched by the first stretch: as launched. -/
theorem W1_launch (b : Ref sig .tc) (h : ∀ y ∈ ([main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28] : List (Ref sig .tc)), b ≠ y) :
    W1 m ρ c (Proc.devRef .tc b) = m ((c : Thread nD τ).loc b) :=
  (keep0 (W0 m ρ c) b h).trans rfl

theorem W2_eq_W1 (b : Ref sig .tc) (h : U2 b) : W2 m ρ c (Proc.devRef .tc b) = W1 m ρ c (Proc.devRef .tc b) := W2_of_ne m ρ c b h
theorem W3_eq_W1 (b : Ref sig .tc) (h : U3 b) : W3 m ρ c (Proc.devRef .tc b) = W1 m ρ c (Proc.devRef .tc b) :=
  (keep1 (W2 m ρ c) b h.1).trans (W2_eq_W1 m ρ c b h.2)
theorem W4_eq_W1 (b : Ref sig .tc) (h : U4 b) : W4 m ρ c (Proc.devRef .tc b) = W1 m ρ c (Proc.devRef .tc b) :=
  (W4_of_ne m ρ c b h.1).trans (W3_eq_W1 m ρ c b h.2)
theorem W5_eq_W1 (b : Ref sig .tc) (h : U5 b) : W5 m ρ c (Proc.devRef .tc b) = W1 m ρ c (Proc.devRef .tc b) :=
  (W5_of_ne m ρ c b h.1).trans (W4_eq_W1 m ρ c b h.2)
theorem W6_eq_W1 (b : Ref sig .tc) (h : U6 b) : W6 m ρ c (Proc.devRef .tc b) = W1 m ρ c (Proc.devRef .tc b) :=
  (keep3 (W5 m ρ c) b h.1).trans (W5_eq_W1 m ρ c b h.2)
theorem W7_eq_W1 (b : Ref sig .tc) (h : U7 b) : W7 m ρ c (Proc.devRef .tc b) = W1 m ρ c (Proc.devRef .tc b) :=
  (W7_of_ne m ρ c b h.1).trans (W6_eq_W1 m ρ c b h.2)
theorem W8_eq_W1 (b : Ref sig .tc) (h : U8 b) : W8 m ρ c (Proc.devRef .tc b) = W1 m ρ c (Proc.devRef .tc b) :=
  (W8_of_ne m ρ c b h.1).trans (W7_eq_W1 m ρ c b h.2)
theorem W9_eq_W1 (b : Ref sig .tc) (h : U9 b) : W9 m ρ c (Proc.devRef .tc b) = W1 m ρ c (Proc.devRef .tc b) :=
  (keep5 (W8 m ρ c) b h.1).trans (W8_eq_W1 m ρ c b h.2)
theorem W10_eq_W1 (b : Ref sig .tc) (h : U10 b) : W10 m ρ c (Proc.devRef .tc b) = W1 m ρ c (Proc.devRef .tc b) :=
  (W10_of_ne m ρ c b h.1).trans (W9_eq_W1 m ρ c b h.2)
theorem W11_eq_W1 (b : Ref sig .tc) (h : U11 b) : W11 m ρ c (Proc.devRef .tc b) = W1 m ρ c (Proc.devRef .tc b) :=
  (keep6 (W10 m ρ c) b h.1).trans (W10_eq_W1 m ρ c b h.2)

/-! ## What is computed once, before the first region -/

/-- The edges' sources. -/
abbrev SRC : Cert.Gcn.Arr Ideal Cert.ReferenceIdeal.S1000000 .i32 := Cert.Gcn.srcOf (m ((c : Thread nD τ).loc main_arg1))
/-- The edges' destinations. -/
abbrev DST : Cert.Gcn.Arr Ideal Cert.ReferenceIdeal.S1000000 .i32 := Cert.Gcn.dstOf (m ((c : Thread nD τ).loc main_arg1))
/-- The edge weights dis(src e) · dis(dst e), as a column. -/
abbrev WCOL : Cert.Gcn.Arr Ideal Cert.ReferenceIdeal.S1000000x1 .f32 :=
  castColEdges (Cert.Gcn.normv (SRC m c) (DST m c) (Cert.Gcn.dis (DST m c)))
/-- The self-loop scales dis(v)², as a column. -/
abbrev SCOL : Cert.Gcn.Arr Ideal Cert.ReferenceIdeal.S100000x1 .f32 :=
  castColNodes (mulf (Cert.Gcn.dis (DST m c)) (Cert.Gcn.dis (DST m c)))

theorem W1_v1 : W1 m ρ c (Proc.devRef .tc main_v1) = SRC m c := (host0_v1 (W0 m ρ c)).trans rfl
theorem W1_v3 : W1 m ρ c (Proc.devRef .tc main_v3) = DST m c := (host0_v3 (W0 m ρ c)).trans rfl
theorem W1_v12 : W1 m ρ c (Proc.devRef .tc main_v12) = SCOL m c := (host0_v12 (W0 m ρ c)).trans rfl
theorem W1_v28 : W1 m ρ c (Proc.devRef .tc main_v28) = WCOL m c := (host0_v28 (W0 m ρ c)).trans rfl

/-! ## The layers -/

/-- The projections and the layers' outputs, as functions of the arguments. -/
abbrev P0 : Cert.Gcn.Arr Ideal Cert.ReferenceIdeal.S100000x64 .f32 := Cert.Gcn.lin163 (m ((c : Thread nD τ).loc main_arg0)) (m ((c : Thread nD τ).loc main_arg3))
abbrev H1 : Cert.Gcn.Arr Ideal Cert.ReferenceIdeal.S100000x64 .f32 :=
  Cert.Gcn.layerWith (WCOL m c) (SCOL m c) (P0 m c) (SRC m c) (DST m c) (m ((c : Thread nD τ).loc main_arg4))
abbrev P1 : Cert.Gcn.Arr Ideal Cert.ReferenceIdeal.S100000x64 .f32 := Cert.Gcn.lin64 (H1 m c) (m ((c : Thread nD τ).loc main_arg5))
abbrev H2 : Cert.Gcn.Arr Ideal Cert.ReferenceIdeal.S100000x64 .f32 :=
  Cert.Gcn.layerWith (WCOL m c) (SCOL m c) (P1 m c) (SRC m c) (DST m c) (m ((c : Thread nD τ).loc main_arg6))
abbrev P2 : Cert.Gcn.Arr Ideal Cert.ReferenceIdeal.S100000x64 .f32 := Cert.Gcn.lin64 (H2 m c) (m ((c : Thread nD τ).loc main_arg7))
abbrev H3 : Cert.Gcn.Arr Ideal Cert.ReferenceIdeal.S100000x64 .f32 :=
  Cert.Gcn.layerWith (WCOL m c) (SCOL m c) (P2 m c) (SRC m c) (DST m c) (m ((c : Thread nD τ).loc main_arg8))

section
variable (R : RegionForms)
include R

/-- The first projection. -/
theorem W2_v29 : W2 m ρ c (Proc.devRef .tc main_v29) = P0 m c :=
  (W2_arr m ρ c 2).trans ((R.lin0 (V1 m ρ) c).trans
    (congr (congrArg Cert.Gcn.lin163 (W1_launch m ρ c main_arg0 (by decide))) (W1_launch m ρ c main_arg3 (by decide))))

/-- The first message sums. -/
theorem W3_v41 : W3 m ρ c (Proc.devRef .tc main_v41) = Cert.Gcn.agg (WCOL m c) (P0 m c) (SRC m c) (DST m c) :=
  (host1_v41 (W2 m ρ c)).trans
    (congr (congr (congr (congrArg Cert.Gcn.agg ((W2_eq_W1 m ρ c main_v28 (by decide)).trans (W1_v28 m ρ c)))
      (W2_v29 m ρ c R)) ((W2_eq_W1 m ρ c main_v1 (by decide)).trans (W1_v1 m ρ c)))
      ((W2_eq_W1 m ρ c main_v3 (by decide)).trans (W1_v3 m ρ c)))

/-- The first layer's output. -/
theorem W4_v42 : W4 m ρ c (Proc.devRef .tc main_v42) = H1 m c :=
  (W4_arr m ρ c 4).trans ((R.comb1 (V3 m ρ) c).trans
    (congr (congr (congr (congrArg Cert.Gcn.combine (W3_v41 m ρ c R))
      ((keep1 (W2 m ρ c) main_v29 (by decide)).trans (W2_v29 m ρ c R)))
      ((W3_eq_W1 m ρ c main_v12 (by decide)).trans (W1_v12 m ρ c)))
      ((W3_eq_W1 m ρ c main_arg4 (by decide)).trans (W1_launch m ρ c main_arg4 (by decide)))))

/-- The self-loop scales, past the region that read them. -/
theorem W4_v12 : W4 m ρ c (Proc.devRef .tc main_v12) = SCOL m c :=
  ((W4_arr m ρ c 2).trans (((dat1 (V3 m ρ) c).arrAt_in 2 rfl _).trans (A_eq1 (V3 m ρ) c 2))).trans
    ((W3_eq_W1 m ρ c main_v12 (by decide)).trans (W1_v12 m ρ c))

/-- The second projection. -/
theorem W5_v43 : W5 m ρ c (Proc.devRef .tc main_v43) = P1 m c :=
  (W5_arr m ρ c 2).trans ((R.lin2 (V4 m ρ) c).trans
    (congr (congrArg Cert.Gcn.lin64 (W4_v42 m ρ c R))
      ((W4_eq_W1 m ρ c main_arg5 (by decide)).trans (W1_launch m ρ c main_arg5 (by decide)))))

/-- The second message sums. -/
theorem W6_v55 : W6 m ρ c (Proc.devRef .tc main_v55) = Cert.Gcn.agg (WCOL m c) (P1 m c) (SRC m c) (DST m c) :=
  (host3_v55 (W5 m ρ c)).trans
    (congr (congr (congr (congrArg Cert.Gcn.agg ((W5_eq_W1 m ρ c main_v28 (by decide)).trans (W1_v28 m ρ c)))
      (W5_v43 m ρ c R)) ((W5_eq_W1 m ρ c main_v1 (by decide)).trans (W1_v1 m ρ c)))
      ((W5_eq_W1 m ρ c main_v3 (by decide)).trans (W1_v3 m ρ c)))

theorem W6_v12 : W6 m ρ c (Proc.devRef .tc main_v12) = SCOL m c :=
  (keep3 (W5 m ρ c) main_v12 (by decide)).trans ((W5_of_ne m ρ c main_v12 (by decide)).trans (W4_v12 m ρ c R))

/-- The second layer's output. -/
theorem W7_v56 : W7 m ρ c (Proc.devRef .tc main_v56) = H2 m c :=
  (W7_arr m ρ c 4).trans ((R.comb3 (V6 m ρ) c).trans
    (congr (congr (congr (congrArg Cert.Gcn.combine (W6_v55 m ρ c R))
      ((keep3 (W5 m ρ c) main_v43 (by decide)).trans (W5_v43 m ρ c R)))
      (W6_v12 m ρ c R))
      ((W6_eq_W1 m ρ c main_arg6 (by decide)).trans (W1_launch m ρ c main_arg6 (by decide)))))

theorem W7_v12 : W7 m ρ c (Proc.devRef .tc main_v12) = SCOL m c :=
  ((W7_arr m ρ c 2).trans (((dat3 (V6 m ρ) c).arrAt_in 2 rfl _).trans (A_eq3 (V6 m ρ) c 2))).trans (W6_v12 m ρ c R)

/-- The third projection. -/
theorem W8_v57 : W8 m ρ c (Proc.devRef .tc main_v57) = P2 m c :=
  (W8_arr m ρ c 2).trans ((R.lin4 (V7 m ρ) c).trans
    (congr (congrArg Cert.Gcn.lin64 (W7_v56 m ρ c R))
      ((W7_eq_W1 m ρ c main_arg7 (by decide)).trans (W1_launch m ρ c main_arg7 (by decide)))))

/-- The third message sums. -/
theorem W9_v69 : W9 m ρ c (Proc.devRef .tc main_v69) = Cert.Gcn.agg (WCOL m c) (P2 m c) (SRC m c) (DST m c) :=
  (host5_v69 (W8 m ρ c)).trans
    (congr (congr (congr (congrArg Cert.Gcn.agg ((W8_eq_W1 m ρ c main_v28 (by decide)).trans (W1_v28 m ρ c)))
      (W8_v57 m ρ c R)) ((W8_eq_W1 m ρ c main_v1 (by decide)).trans (W1_v1 m ρ c)))
      ((W8_eq_W1 m ρ c main_v3 (by decide)).trans (W1_v3 m ρ c)))

theorem W9_v12 : W9 m ρ c (Proc.devRef .tc main_v12) = SCOL m c :=
  (keep5 (W8 m ρ c) main_v12 (by decide)).trans ((W8_of_ne m ρ c main_v12 (by decide)).trans (W7_v12 m ρ c R))

/-- The third layer's output. -/
theorem W10_v70 : W10 m ρ c (Proc.devRef .tc main_v70) = H3 m c :=
  (W10_arr m ρ c 4).trans ((R.comb5 (V9 m ρ) c).trans
    (congr (congr (congr (congrArg Cert.Gcn.combine (W9_v69 m ρ c R))
      ((keep5 (W8 m ρ c) main_v57 (by decide)).trans (W8_v57 m ρ c R)))
      (W9_v12 m ρ c R))
      ((W9_eq_W1 m ρ c main_arg8 (by decide)).trans (W1_launch m ρ c main_arg8 (by decide)))))

/-! ## The per-graph means, the head, the result -/

theorem W11_v82 : W11 m ρ c (Proc.devRef .tc main_v82) = Cert.Gcn.pooled (H3 m c) (m ((c : Thread nD τ).loc main_arg2)) :=
  (host6_v82 (W10 m ρ c)).trans
    (congr (congrArg Cert.Gcn.pooled (W10_v70 m ρ c R))
      ((W10_eq_W1 m ρ c main_arg2 (by decide)).trans (W1_launch m ρ c main_arg2 (by decide))))

theorem W12_v83 : W12 m ρ c (Proc.devRef .tc main_v83)
    = Cert.Gcn.head (Cert.Gcn.pooled (H3 m c) (m ((c : Thread nD τ).loc main_arg2))) (m ((c : Thread nD τ).loc main_arg9)) (m ((c : Thread nD τ).loc main_arg10)) (m ((c : Thread nD τ).loc main_arg11)) (m ((c : Thread nD τ).loc main_arg12)) :=
  (W12_arr m ρ c 5).trans ((R.head6 (V11 m ρ) c).trans
    (congr (congr (congr (congr (congrArg Cert.Gcn.head (W11_v82 m ρ c R))
      ((W11_eq_W1 m ρ c main_arg9 (by decide)).trans (W1_launch m ρ c main_arg9 (by decide))))
      ((W11_eq_W1 m ρ c main_arg10 (by decide)).trans (W1_launch m ρ c main_arg10 (by decide))))
      ((W11_eq_W1 m ρ c main_arg11 (by decide)).trans (W1_launch m ρ c main_arg11 (by decide))))
      ((W11_eq_W1 m ρ c main_arg12 (by decide)).trans (W1_launch m ρ c main_arg12 (by decide)))))

/-- The kernel program's result: the network at the edge-weight and self-loop-scale columns the host made by shape
    casts. -/
theorem result : W13 m ρ c (Proc.devRef .tc main_v84)
    = Cert.Gcn.outWith (WCOL m c) (SCOL m c) (m ((c : Thread nD τ).loc main_arg0)) (SRC m c) (DST m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) :=
  (host7_v84 (W12 m ρ c)).trans (congrArg Cert.Gcn.flat (W12_v83 m ρ c R))

end

end Cert.KernelIdeal.KVal

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.KOut.lean ====
/-
  The kernel program's result is the network `Cert.Gcn.out` of its arguments.

  The kernel's host makes the edge-weight column and the self-loop-scale column by shape casts of the vectors, the
  specification by broadcasts along axis 0: a vector [a] cast to [a, 1] and the same vector broadcast to [a, 1] are one
  array (entry (p, 0) is the vector's entry p either way). With the two columns identified, the kernel's composition of
  regions and host stretches is the specification's composition, term by term.
-/
import proofs.«112680_j2370821947637_1_alg».proof.Proof.KVal
import proofs.«112680_j2370821947637_1_alg».proof.Proof.LibVectorColumn

set_option maxRecDepth 16384

noncomputable section

namespace Cert.KernelIdeal.KVal

open Cert.KernelIdeal Cert.KernelIdeal.Gen Cert.KernelIdeal.KHost
open Idealize.ShloMosaic Idealize.ShloMosaic.TcCoe Idealize.SL.Sem Idealize.ShloMosaic.StableHlo

/-- The self-loop-scale column: the shape cast of a vector over the nodes is its broadcast along axis 0. -/
theorem castColNodes_eq (v : Cert.Gcn.Arr Ideal S100000 .f32) : castColNodes v = Cert.Gcn.colOfNodes v :=
  Cert.LibVectorColumn.shapeCast_eq_broadcastInDim (a := 100000) v _ _

/-- The edge-weight column: the shape cast of a vector over the edges is its broadcast along axis 0. -/
theorem castColEdges_eq (v : Cert.Gcn.Arr Ideal S1000000 .f32) : castColEdges v = Cert.Gcn.colOfEdges v :=
  Cert.LibVectorColumn.shapeCast_eq_broadcastInDim (a := 1000000) v _ _

variable (m : (ℓ : Loc nD τ sig) → Buf (Elt Ideal) ℓ) (ρ : Dev nD → PrngReg) (c : Dev nD)

/-- The result buffer at the last boundary is the network of the arguments as launched. -/
theorem kernel_value (R : RegionForms) : W13 m ρ c (Proc.devRef .tc main_v84)
    = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) := by
  rw [result m ρ c R, Cert.Gcn.out_eq_outWith]
  simp only [WCOL, SCOL, SRC, DST, castColEdges_eq, castColNodes_eq]

end Cert.KernelIdeal.KVal

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«112680_j2370821947637_1_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.RegionLin0.lean ====
/-
  The projection of the first layer, as one whole-array function of its two input arrays, at the exact extended reals.

  The region multiplies its first operand `X` — one row of 163 channels per node, 100000 nodes: the network's input features — by a weight array `W` (163 × 64). Its grid has
  ten points; point `t` reads rows `10000 t … 10000 t + 9999` of `X` and all of `W`, forms the 10000 × 64 product of that
  block of rows with `W` into a zero accumulator, and writes it to rows `10000 t … 10000 t + 9999` of the output array.
  The narrowing of the factors to a shorter format before the product is the identity on the extended reals.

  Entry `(p, q)` of the block product is `Σ_e X (10000 t + p, e) · W (e, q)`, which is entry `(10000 t + p, q)` of the
  whole product `X · W`: what point `t` writes is the restriction of the ONE array `X · W` to its block of rows. Row `r`
  lies in the block of point `r / 10000`, so the ten blocks cover the output array, and the array ends holding `X · W`:
  the reference's `lin163` of the two arrays as the region finds them.
-/
import proofs.«112680_j2370821947637_1_alg».proof.Proof.Gen.KernelIdeal.Frame
import proofs.«112680_j2370821947637_1_alg».proof.Proof.Gen.ReferenceIdeal
import proofs.«112680_j2370821947637_1_alg».proof.Proof.Spec
import proofs.«112680_j2370821947637_1_alg».proof.Proof.LibDotNN
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## Where the blocks sit -/

/-- The index maps at point `t`: the feature block and the output block are block `t` along the rows and block 0 along
    the channels; the weight block is block (0, 0), the whole weight array. Decided over the ten points. -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t`, read at `(p, e)`, is the feature array at row `10000 t + p`, channel `e`. -/
theorem lin0_in0 (c : Dev nD) (t : Fin cfg0.N) (p : Fin 10000) (e : Fin 163) (r : Fin 100000)
    (hr : r.val = t.val * 10000 + p.val) :
    (iblk0 V c 0 t : Vec F S10000x163 .f32) (ix2 p e) = (V c main_arg0 : Vec F S100000x163 .f32) (ix2 r e) := by
  obtain ⟨e0, e1, -⟩ := lin0_idx t
  unfold iblk0
  rw [View.read_apply]
  show V c main_arg0 _ = V c main_arg0 _
  congr 1
  funext a
  apply Fin.ext
  match a with
  | ⟨0, _⟩ => show win0_0.index t 0 * 10000 + 1 * p.val = r.val; rw [e0, hr]; omega
  | ⟨1, _⟩ => show win0_0.index t 1 * 163 + 1 * e.val = e.val; rw [e1]; omega

/-- The weight block at any point is the whole weight array. -/
theorem lin0_in1 (c : Dev nD) (t : Fin cfg0.N) (e : Fin 163) (q : Fin 64) :
    (iblk0 V c 1 t : Vec F S163x64 .f32) (ix2 e q) = (V c main_arg3 : Vec F S163x64 .f32) (ix2 e q) := by
  obtain ⟨-, -, e0, e1, -⟩ := lin0_idx t
  unfold iblk0
  rw [View.read_apply]
  show V c main_arg3 _ = V c main_arg3 _
  congr 1
  funext a
  apply Fin.ext
  match a with
  | ⟨0, _⟩ => show win0_1.index t 0 * 163 + 1 * e.val = e.val; rw [e0]; omega
  | ⟨1, _⟩ => show win0_1.index t 1 * 64 + 1 * q.val = q.val; rw [e1]; omega

/-- Entry `(p, q)` of the output block at point `t` sits in the output array at row `10000 t + p`, channel `q`. -/
theorem lin0_emb (t : Fin cfg0.N) (p : Fin 10000) (q : Fin 64) (r : Fin 100000) (hr : r.val = t.val * 10000 + p.val) :
    ((cfg0.win 2).blk t).view.emb (ix2 p q : S10000x64.Idx) = (ix2 r q : S100000x64.Idx) := by
  obtain ⟨-, -, -, -, e0, e1⟩ := lin0_idx t
  funext a
  apply Fin.ext
  match a with
  | ⟨0, _⟩ => show win0_2.index t 0 * 10000 + 1 * p.val = r.val; rw [e0, hr]; omega
  | ⟨1, _⟩ => show win0_2.index t 1 * 64 + 1 * q.val = q.val; rw [e1]; omega

/-! ## The two products at an entry -/

/-- Entry `(p, q)` of what the body computes from a block of rows `x` and the weights `w`: row `p` of `x` against
    column `q` of `w`. -/
theorem lin0_pay (x : Vec Ideal S10000x163 .f32) (w : Vec Ideal S163x64 .f32) (p : Fin 10000) (q : Fin 64) :
    k0_pay1 (F := Ideal) x w (ix2 p q) = ∑ e : Fin 163, x (ix2 p e) * w (ix2 e q) := by
  unfold k0_pay1
  exact Cert.LibMatmulNN.matmul_zero_apply (dot_S10000x163_S163x64_S10000x64_1_0_0_1_n_n).wf none _ _ p q

/-- Entry `(r, q)` of the whole product: row `r` of `X` against column `q` of `W`. -/
theorem lin0_ref (X : Vec Ideal Cert.ReferenceIdeal.S100000x163 .f32) (W : Vec Ideal Cert.ReferenceIdeal.S163x64 .f32)
    (r : Fin 100000) (q : Fin 64) :
    Cert.Gcn.lin163 (F := Ideal) X W (ix2 r q) = ∑ e : Fin 163, X (ix2 r e) * W (ix2 e q) := by
  unfold Cert.Gcn.lin163
  exact Cert.LibDotNN.dotGeneral_apply (Cert.ReferenceIdeal.dot_S100000x163_S163x64_S100000x64_1_0_0_1_n_n).wf none _ X W r q

/-! ## From the blocks to the array -/

/-- The zero offsets of the body's loads and of its store. -/
theorem lin0_off : (![0, 0] : Fin 2 → Nat) = fun _ => 0 := funext fun a => by fin_cases a <;> rfl

/-- What point `t` writes back is block `t` of the whole product of the two arrays as the region finds them. -/
theorem lin0_flushed (V : (c : Dev nD) → (b : Ref sig .tc) → Buf (Elt Ideal) ((c : Thread nD τ).loc b)) (c : Dev nD)
    (t : Fin cfg0.N) :
    (dat0 V c).flushed 2 t = ((cfg0.win 2).blk t).view.read (Elt Ideal)
      (Cert.Gcn.lin163 (F := Ideal) (V c main_arg0) (V c main_arg3)) := by
  show (cfg0.win 2).cut (grid0.coords t) ((dat0 V c).after 2 t) = _
  rw [after0_2]
  unfold out0_2
  rw [View.canon_unit_zero lin0_off]
  simp only [View.ld_unit_zero (S := S10000x163) lin0_off, View.ld_unit_zero (S := S163x64) lin0_off]
  funext j
  obtain ⟨p, q, rfl⟩ : ∃ (p : Fin 10000) (q : Fin 64), j = ix2 p q := ⟨j 0, j 1, eq_ix2 j⟩
  have hN : cfg0.N = 10 := N_0
  have ht : t.val < 10 := hN ▸ t.isLt
  rw [View.read_apply, lin0_emb t p q ⟨t.val * 10000 + p.val, by omega⟩ rfl, lin0_ref]
  show k0_pay1 (F := Ideal) (iblk0 V c 0 t) (iblk0 V c 1 t) (ix2 p q) = _
  rw [lin0_pay]
  refine Finset.sum_congr rfl fun e _ => ?_
  rw [lin0_in0 V c t p e ⟨t.val * 10000 + p.val, by omega⟩ rfl, lin0_in1 V c t e q]

/-- An index of the output array is in point `t`'s block iff each coordinate is in the block's range on its axis. -/
theorem lin0_mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the output array is in the block of the point `row / 10000`, which writes back. -/
theorem lin0_cover (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  refine ⟨⟨(i 0).val / 10000, by rw [hN]; omega⟩, flush0_2 _, ?_⟩
  rw [lin0_mem_blk]
  obtain ⟨-, -, -, -, e0, e1⟩ := lin0_idx ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e1]; omega

/-- THE REGION'S OUTPUT ARRAY after the region: the whole product of the feature array and the weight array as the
    region finds them. -/
theorem lin0 (V : (c : Dev nD) → (b : Ref sig .tc) → Buf (Elt Ideal) ((c : Thread nD τ).loc b)) (c : Dev nD) :
    (dat0 (F := Ideal) V c).arrAt 2 cfg0.N = Cert.Gcn.lin163 (F := Ideal) (V c main_arg0) (V c main_arg3) :=
  (dat0 V c).arrAt_eq_of_cover 2 (Cert.Gcn.lin163 (F := Ideal) (V c main_arg0) (V c main_arg3))
    (fun t _ => lin0_flushed V c t) lin0_cover

end Cert.KernelIdeal.Regions

end
-- ==== Proof.RegionLin2.lean ====
/-
  The projection of the second layer, as one whole-array function of its two input arrays, at the exact extended reals.

  The region multiplies its first operand `X` — one row of 64 channels per node, 100000 nodes: the node features the region finds,
  which in the network are what the previous layer produced — by a weight array `W` (64 × 64). Its grid has
  ten points; point `t` reads rows `10000 t … 10000 t + 9999` of `X` and all of `W`, forms the 10000 × 64 product of that
  block of rows with `W` into a zero accumulator (after a reshape of the block to its own shape, which changes nothing), and writes it to rows `10000 t … 10000 t + 9999` of the output array.
  The narrowing of the factors to a shorter format before the product is the identity on the extended reals.

  Entry `(p, q)` of the block product is `Σ_e X (10000 t + p, e) · W (e, q)`, which is entry `(10000 t + p, q)` of the
  whole product `X · W`: what point `t` writes is the restriction of the ONE array `X · W` to its block of rows. Row `r`
  lies in the block of point `r / 10000`, so the ten blocks cover the output array, and the array ends holding `X · W`:
  the reference's `lin64` of the two arrays as the region finds them.
-/
import proofs.«112680_j2370821947637_1_alg».proof.Proof.Gen.KernelIdeal.Frame
import proofs.«112680_j2370821947637_1_alg».proof.Proof.Gen.ReferenceIdeal
import proofs.«112680_j2370821947637_1_alg».proof.Proof.Spec
import proofs.«112680_j2370821947637_1_alg».proof.Proof.LibDotNN
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## Where the blocks sit -/

/-- The index maps at point `t`: the feature block and the output block are block `t` along the rows and block 0 along
    the channels; the weight block is block (0, 0), the whole weight array. Decided over the ten points. -/
theorem lin2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t`, read at `(p, e)`, is the feature array at row `10000 t + p`, channel `e`. -/
theorem lin2_in0 (c : Dev nD) (t : Fin cfg2.N) (p : Fin 10000) (e : Fin 64) (r : Fin 100000)
    (hr : r.val = t.val * 10000 + p.val) :
    (iblk2 V c 0 t : Vec F S10000x64 .f32) (ix2 p e) = (V c main_v42 : Vec F S100000x64 .f32) (ix2 r e) := by
  obtain ⟨e0, e1, -⟩ := lin2_idx t
  unfold iblk2
  rw [View.read_apply]
  show V c main_v42 _ = V c main_v42 _
  congr 1
  funext a
  apply Fin.ext
  match a with
  | ⟨0, _⟩ => show win2_0.index t 0 * 10000 + 1 * p.val = r.val; rw [e0, hr]; omega
  | ⟨1, _⟩ => show win2_0.index t 1 * 64 + 1 * e.val = e.val; rw [e1]; omega

/-- The weight block at any point is the whole weight array. -/
theorem lin2_in1 (c : Dev nD) (t : Fin cfg2.N) (e : Fin 64) (q : Fin 64) :
    (iblk2 V c 1 t : Vec F S64x64 .f32) (ix2 e q) = (V c main_arg5 : Vec F S64x64 .f32) (ix2 e q) := by
  obtain ⟨-, -, e0, e1, -⟩ := lin2_idx t
  unfold iblk2
  rw [View.read_apply]
  show V c main_arg5 _ = V c main_arg5 _
  congr 1
  funext a
  apply Fin.ext
  match a with
  | ⟨0, _⟩ => show win2_1.index t 0 * 64 + 1 * e.val = e.val; rw [e0]; omega
  | ⟨1, _⟩ => show win2_1.index t 1 * 64 + 1 * q.val = q.val; rw [e1]; omega

/-- Entry `(p, q)` of the output block at point `t` sits in the output array at row `10000 t + p`, channel `q`. -/
theorem lin2_emb (t : Fin cfg2.N) (p : Fin 10000) (q : Fin 64) (r : Fin 100000) (hr : r.val = t.val * 10000 + p.val) :
    ((cfg2.win 2).blk t).view.emb (ix2 p q : S10000x64.Idx) = (ix2 r q : S100000x64.Idx) := by
  obtain ⟨-, -, -, -, e0, e1⟩ := lin2_idx t
  funext a
  apply Fin.ext
  match a with
  | ⟨0, _⟩ => show win2_2.index t 0 * 10000 + 1 * p.val = r.val; rw [e0, hr]; omega
  | ⟨1, _⟩ => show win2_2.index t 1 * 64 + 1 * q.val = q.val; rw [e1]; omega

/-! ## The two products at an entry -/

/-- Entry `(p, q)` of what the body computes from a block of rows `x` and the weights `w`: row `p` of `x` against
    column `q` of `w`. -/
theorem lin2_pay (x : Vec Ideal S10000x64 .f32) (w : Vec Ideal S64x64 .f32) (p : Fin 10000) (q : Fin 64) :
    k2_pay1 (F := Ideal) x w (ix2 p q) = ∑ e : Fin 64, x (ix2 p e) * w (ix2 e q) := by
  unfold k2_pay1
  refine (Cert.LibMatmulNN.matmul_zero_apply (dot_S10000x64_S64x64_S10000x64_1_0_0_1_n_n).wf none _ _ p q).trans ?_
  refine Finset.sum_congr rfl fun e _ => ?_
  show shapeCast S10000x64 x shapeCasts_S10000x64_S10000x64 (ix2 p e) * w (ix2 e q) = _
  rw [shapeCast_self]

/-- Entry `(r, q)` of the whole product: row `r` of `X` against column `q` of `W`. -/
theorem lin2_ref (X : Vec Ideal Cert.ReferenceIdeal.S100000x64 .f32) (W : Vec Ideal Cert.ReferenceIdeal.S64x64 .f32)
    (r : Fin 100000) (q : Fin 64) :
    Cert.Gcn.lin64 (F := Ideal) X W (ix2 r q) = ∑ e : Fin 64, X (ix2 r e) * W (ix2 e q) := by
  unfold Cert.Gcn.lin64
  exact Cert.LibDotNN.dotGeneral_apply (Cert.ReferenceIdeal.dot_S100000x64_S64x64_S100000x64_1_0_0_1_n_n).wf none _ X W r q

/-! ## From the blocks to the array -/

/-- The zero offsets of the body's loads and of its store. -/
theorem lin2_off : (![0, 0] : Fin 2 → Nat) = fun _ => 0 := funext fun a => by fin_cases a <;> rfl

/-- What point `t` writes back is block `t` of the whole product of the two arrays as the region finds them. -/
theorem lin2_flushed (V : (c : Dev nD) → (b : Ref sig .tc) → Buf (Elt Ideal) ((c : Thread nD τ).loc b)) (c : Dev nD)
    (t : Fin cfg2.N) :
    (dat2 V c).flushed 2 t = ((cfg2.win 2).blk t).view.read (Elt Ideal)
      (Cert.Gcn.lin64 (F := Ideal) (V c main_v42) (V c main_arg5)) := by
  show (cfg2.win 2).cut (grid2.coords t) ((dat2 V c).after 2 t) = _
  rw [after2_2]
  unfold out2_2
  rw [View.canon_unit_zero lin2_off]
  simp only [View.ld_unit_zero (S := S10000x64) lin2_off, View.ld_unit_zero (S := S64x64) lin2_off]
  funext j
  obtain ⟨p, q, rfl⟩ : ∃ (p : Fin 10000) (q : Fin 64), j = ix2 p q := ⟨j 0, j 1, eq_ix2 j⟩
  have hN : cfg2.N = 10 := N_2
  have ht : t.val < 10 := hN ▸ t.isLt
  rw [View.read_apply, lin2_emb t p q ⟨t.val * 10000 + p.val, by omega⟩ rfl, lin2_ref]
  show k2_pay1 (F := Ideal) (iblk2 V c 0 t) (iblk2 V c 1 t) (ix2 p q) = _
  rw [lin2_pay]
  refine Finset.sum_congr rfl fun e _ => ?_
  rw [lin2_in0 V c t p e ⟨t.val * 10000 + p.val, by omega⟩ rfl, lin2_in1 V c t e q]

/-- An index of the output array is in point `t`'s block iff each coordinate is in the block's range on its axis. -/
theorem lin2_mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- Every index of the output array is in the block of the point `row / 10000`, which writes back. -/
theorem lin2_cover (i : S100000x64.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 64 := (i 1).isLt
  refine ⟨⟨(i 0).val / 10000, by rw [hN]; omega⟩, flush2_2 _, ?_⟩
  rw [lin2_mem_blk]
  obtain ⟨-, -, -, -, e0, e1⟩ := lin2_idx ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e0]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e1]; omega

/-- THE REGION'S OUTPUT ARRAY after the region: the whole product of the feature array and the weight array as the
    region finds them. -/
theorem lin2 (V : (c : Dev nD) → (b : Ref sig .tc) → Buf (Elt Ideal) ((c : Thread nD τ).loc b)) (c : Dev nD) :
    (dat2 (F := Ideal) V c).arrAt 2 cfg2.N = Cert.Gcn.lin64 (F := Ideal) (V c main_v42) (V c main_arg5) :=
  (dat2 V c).arrAt_eq_of_cover 2 (Cert.Gcn.lin64 (F := Ideal) (V c main_v42) (V c main_arg5))
    (fun t _ => lin2_flushed V c t) lin2_cover

end Cert.KernelIdeal.Regions

end
-- ==== Proof.RegionLin4.lean ====
/-
  The projection of the third layer, as one whole-array function of its two input arrays, at the exact extended reals.

  The region multiplies its first operand `X` — one row of 64 channels per node, 100000 nodes: the node features the region finds,
  which in the network are what the previous layer produced — by a weight array `W` (64 × 64). Its grid has
  ten points; point `t` reads rows `10000 t … 10000 t + 9999` of `X` and all of `W`, forms the 10000 × 64 product of that
  block of rows with `W` into a zero accumulator (after a reshape of the block to its own shape, which changes nothing), and writes it to rows `10000 t … 10000 t + 9999` of the output array.
  The narrowing of the factors to a shorter format before the product is the identity on the extended reals.

  Entry `(p, q)` of the block product is `Σ_e X (10000 t + p, e) · W (e, q)`, which is entry `(10000 t + p, q)` of the
  whole product `X · W`: what point `t` writes is the restriction of the ONE array `X · W` to its block of rows. Row `r`
  lies in the block of point `r / 10000`, so the ten blocks cover the output array, and the array ends holding `X · W`:
  the reference's `lin64` of the two arrays as the region finds them.
-/
import proofs.«112680_j2370821947637_1_alg».proof.Proof.Gen.KernelIdeal.Frame
import proofs.«112680_j2370821947637_1_alg».proof.Proof.Gen.ReferenceIdeal
import proofs.«112680_j2370821947637_1_alg».proof.Proof.Spec
import proofs.«112680_j2370821947637_1_alg».proof.Proof.LibDotNN
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## Where the blocks sit -/

/-- The index maps at point `t`: the feature block and the output block are block `t` along the rows and block 0 along
    the channels; the weight block is block (0, 0), the whole weight array. Decided over the ten points. -/
theorem lin4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block at point `t`, read at `(p, e)`, is the feature array at row `10000 t + p`, channel `e`. -/
theorem lin4_in0 (c : Dev nD) (t : Fin cfg4.N) (p : Fin 10000) (e : Fin 64) (r : Fin 100000)
    (hr : r.val = t.val * 10000 + p.val) :
    (iblk4 V c 0 t : Vec F S10000x64 .f32) (ix2 p e) = (V c main_v56 : Vec F S100000x64 .f32) (ix2 r e) := by
  obtain ⟨e0, e1, -⟩ := lin4_idx t
  unfold iblk4
  rw [View.read_apply]
  show V c main_v56 _ = V c main_v56 _
  congr 1
  funext a
  apply Fin.ext
  match a with
  | ⟨0, _⟩ => show win4_0.index t 0 * 10000 + 1 * p.val = r.val; rw [e0, hr]; omega
  | ⟨1, _⟩ => show win4_0.index t 1 * 64 + 1 * e.val = e.val; rw [e1]; omega

/-- The weight block at any point is the whole weight array. -/
theorem lin4_in1 (c : Dev nD) (t : Fin cfg4.N) (e : Fin 64) (q : Fin 64) :
    (iblk4 V c 1 t : Vec F S64x64 .f32) (ix2 e q) = (V c main_arg7 : Vec F S64x64 .f32) (ix2 e q) := by
  obtain ⟨-, -, e0, e1, -⟩ := lin4_idx t
  unfold iblk4
  rw [View.read_apply]
  show V c main_arg7 _ = V c main_arg7 _
  congr 1
  funext a
  apply Fin.ext
  match a with
  | ⟨0, _⟩ => show win4_1.index t 0 * 64 + 1 * e.val = e.val; rw [e0]; omega
  | ⟨1, _⟩ => show win4_1.index t 1 * 64 + 1 * q.val = q.val; rw [e1]; omega

/-- Entry `(p, q)` of the output block at point `t` sits in the output array at row `10000 t + p`, channel `q`. -/
theorem lin4_emb (t : Fin cfg4.N) (p : Fin 10000) (q : Fin 64) (r : Fin 100000) (hr : r.val = t.val * 10000 + p.val) :
    ((cfg4.win 2).blk t).view.emb (ix2 p q : S10000x64.Idx) = (ix2 r q : S100000x64.Idx) := by
  obtain ⟨-, -, -, -, e0, e1⟩ := lin4_idx t
  funext a
  apply Fin.ext
  match a with
  | ⟨0, _⟩ => show win4_2.index t 0 * 10000 + 1 * p.val = r.val; rw [e0, hr]; omega
  | ⟨1, _⟩ => show win4_2.index t 1 * 64 + 1 * q.val = q.val; rw [e1]; omega

/-! ## The two products at an entry -/

/-- Entry `(p, q)` of what the body computes from a block of rows `x` and the weights `w`: row `p` of `x` against
    column `q` of `w`. -/
theorem lin4_pay (x : Vec Ideal S10000x64 .f32) (w : Vec Ideal S64x64 .f32) (p : Fin 10000) (q : Fin 64) :
    k4_pay1 (F := Ideal) x w (ix2 p q) = ∑ e : Fin 64, x (ix2 p e) * w (ix2 e q) := by
  unfold k4_pay1
  refine (Cert.LibMatmulNN.matmul_zero_apply (dot_S10000x64_S64x64_S10000x64_1_0_0_1_n_n).wf none _ _ p q).trans ?_
  refine Finset.sum_congr rfl fun e _ => ?_
  show shapeCast S10000x64 x shapeCasts_S10000x64_S10000x64 (ix2 p e) * w (ix2 e q) = _
  rw [shapeCast_self]

/-- Entry `(r, q)` of the whole product: row `r` of `X` against column `q` of `W`. -/
theorem lin4_ref (X : Vec Ideal Cert.ReferenceIdeal.S100000x64 .f32) (W : Vec Ideal Cert.ReferenceIdeal.S64x64 .f32)
    (r : Fin 100000) (q : Fin 64) :
    Cert.Gcn.lin64 (F := Ideal) X W (ix2 r q) = ∑ e : Fin 64, X (ix2 r e) * W (ix2 e q) := by
  unfold Cert.Gcn.lin64
  exact Cert.LibDotNN.dotGeneral_apply (Cert.ReferenceIdeal.dot_S100000x64_S64x64_S100000x64_1_0_0_1_n_n).wf none _ X W r q

/-! ## From the blocks to the array -/

/-- The zero offsets of the body's loads and of its store. -/
theorem lin4_off : (![0, 0] : Fin 2 → Nat) = fun _ => 0 := funext fun a => by fin_cases a <;> rfl

/-- What point `t` writes back is block `t` of the whole product of the two arrays as the region finds them. -/
theorem lin4_flushed (V : (c : Dev nD) → (b : Ref sig .tc) → Buf (Elt Ideal) ((c : Thread nD τ).loc b)) (c : Dev nD)
    (t : Fin cfg4.N) :
    (dat4 V c).flushed 2 t = ((cfg4.win 2).blk t).view.read (Elt Ideal)
      (Cert.Gcn.lin64 (F := Ideal) (V c main_v56) (V c main_arg7)) := by
  show (cfg4.win 2).cut (grid4.coords t) ((dat4 V c).after 2 t) = _
  rw [after4_2]
  unfold out4_2
  rw [View.canon_unit_zero lin4_off]
  simp only [View.ld_unit_zero (S := S10000x64) lin4_off, View.ld_unit_zero (S := S64x64) lin4_off]
  funext j
  obtain ⟨p, q, rfl⟩ : ∃ (p : Fin 10000) (q : Fin 64), j = ix2 p q := ⟨j 0, j 1, eq_ix2 j⟩
  have hN : cfg4.N = 10 := N_4
  have ht : t.val < 10 := hN ▸ t.isLt
  rw [View.read_apply, lin4_emb t p q ⟨t.val * 10000 + p.val, by omega⟩ rfl, lin4_ref]
  show k4_pay1 (F := Ideal) (iblk4 V c 0 t) (iblk4 V c 1 t) (ix2 p q) = _
  rw [lin4_pay]
  refine Finset.sum_congr rfl fun e _ => ?_
  rw [lin4_in0 V c t p e ⟨t.val * 10000 + p.val, by omega⟩ rfl, lin4_in1 V c t e q]

/-- An index of the output array is in point `t`'s block iff each coordinate is in the block's range on its axis. -/
theorem lin4_mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v57).slice (win4_2.rect t)).set ↔ _
  rw [View.set_slice_whole, Rect.mem_set_unit]
  exact Iff.rfl

/-- Every index of the output array is in the block of the point `row / 10000`, which writes back. -/
theorem lin4_cover (i : S100000x64.Idx) :
    ∃ t : Fin cfg4.N, (cfg4.win 2).flush t = true ∧ i ∈ ((cfg4.win 2).blk t).view.set := by
  have hN : cfg4.N = 10 := N_4
  have hi0 : (i 0).val < 100000 := (i 0).isLt
  have hi1 : (i 1).val < 64 := (i 1).isLt
  refine ⟨⟨(i 0).val / 10000, by rw [hN]; omega⟩, flush4_2 _, ?_⟩
  rw [lin4_mem_blk]
  obtain ⟨-, -, -, -, e0, e1⟩ := lin4_idx ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e0]; show (i 0).val / 10000 * 10000 ≤ (i 0).val ∧ (i 0).val < (i 0).val / 10000 * 10000 + 10000; omega
  | ⟨1, _⟩ =>
    show win4_2.index _ (1 : Fin 2) * 64 ≤ (i 1).val ∧ (i 1).val < win4_2.index _ (1 : Fin 2) * 64 + 64
    rw [e1]; omega

/-- THE REGION'S OUTPUT ARRAY after the region: the whole product of the feature array and the weight array as the
    region finds them. -/
theorem lin4 (V : (c : Dev nD) → (b : Ref sig .tc) → Buf (Elt Ideal) ((c : Thread nD τ).loc b)) (c : Dev nD) :
    (dat4 (F := Ideal) V c).arrAt 2 cfg4.N = Cert.Gcn.lin64 (F := Ideal) (V c main_v56) (V c main_arg7) :=
  (dat4 V c).arrAt_eq_of_cover 2 (Cert.Gcn.lin64 (F := Ideal) (V c main_v56) (V c main_arg7))
    (fun t _ => lin4_flushed V c t) lin4_cover

end Cert.KernelIdeal.Regions

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.RegionComb1.lean ====
/-
  The combine step of a graph-convolution layer, region 1 of the kernel program, as one whole-array function.

  Each of the ten grid points takes rows 10000·t … 10000·t + 9999 of the message sums a, of the projected features h
  and of the self-loop scale column s, and the whole bias vector b, and writes the same rows of the output: at row r
  and channel q the value  leakyReLU((a(r,q) + s(r,0)·h(r,q)) + b(q)).  The ten row blocks tile the 100000 rows, so
  the output array after the region is that function of the whole input arrays, which is the reference's "combine".

  The kernel's leaky ReLU tests x > 0 where the reference's tests x ≥ 0; on the extended reals the two agree, since at
  x = 0 both branches are 0.
-/
import proofs.«112680_j2370821947637_1_alg».proof.Proof.Gen.KernelIdeal.Frame
import proofs.«112680_j2370821947637_1_alg».proof.Proof.Gen.ReferenceIdeal
import proofs.«112680_j2370821947637_1_alg».proof.Proof.Spec
import proofs.«112680_j2370821947637_1_alg».proof.Proof.LibBroadcastInDim
import proofs.«112680_j2370821947637_1_alg».proof.Proof.LibBiasRow
import proofs.«112680_j2370821947637_1_alg».proof.Proof.LibColumnBroadcast
import Idealize.ShloMosaic.Lib.ValueIdx
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat Cfg Window)

/-! ## The leaky ReLU on the extended reals -/

/-- The bit pattern of +0 denotes 0. -/
theorem zero_pat : Ideal.ofBits .f32 0x00000000#32 = 0 := by simp [Ideal.ofBits, Ideal.ieee]

/-- Testing x > 0 or x ≥ 0 selects the same value between x and s·x: they differ only at x = 0, where both are 0. -/
theorem lrelu_gt_eq_ge (s x : EReal) :
    Scalar.select (Ideal.cmp .ogt x 0) x (s * x) = Scalar.select (Ideal.cmp .oge x 0) x (s * x) := by
  unfold Scalar.select Ideal.cmp
  by_cases h : (0 : EReal) < x
  · simp [h, h.le]
  · by_cases h0 : x = 0
    · subst h0; simp
    · have hle : ¬ (0 : EReal) ≤ x := fun hle => h (lt_of_le_of_ne hle (Ne.symm h0))
      simp [h, hle]

/-- One entry of a combined layer: leakyReLU((a + s·h) + b), slope the binary32 nearest 0.01, the test x ≥ 0. -/
def combPt (a h s b : EReal) : EReal :=
  Scalar.select (Ideal.cmp .oge ((a + s * h) + b) (Ideal.ofBits .f32 0x00000000#32)) ((a + s * h) + b)
    (Ideal.ofBits .f32 0x3C23D70A#32 * ((a + s * h) + b))

/-- The same entry with the test x > 0. -/
theorem combPt_gt (a h s b : EReal) :
    Scalar.select (Ideal.cmp .ogt ((a + s * h) + b) (Ideal.ofBits .f32 0x00000000#32)) ((a + s * h) + b)
      (Ideal.ofBits .f32 0x3C23D70A#32 * ((a + s * h) + b)) = combPt a h s b := by
  unfold combPt; rw [zero_pat]; exact lrelu_gt_eq_ge _ _

/-! ## The kernel body's result at an index -/

/-- The body's payload at row p and channel q of a block, from the four loaded blocks. -/
theorem pay1_apply (x0 x1 : Vec Ideal S10000x64 .f32) (x2 : Vec Ideal S10000x1 .f32) (x3 : Vec Ideal S64 .f32)
    (p : Fin 10000) (q : Fin 64) :
    Gen.k1_pay1 (F := Ideal) x0 x1 x2 x3 (ix2 p q)
      = combPt (x0 (ix2 p q)) (x1 (ix2 p q)) (x2 (ix2 p (0 : Fin 1))) (x3 (ix1 q)) := by
  unfold Gen.k1_pay1
  rw [shapeCast_self x0, shapeCast_self x1, shapeCast_self x2]
  have hcol : broadcastTo S10000x64 x2 broadcasts_S10000x1_S10000x64 (ix2 p q) = x2 (ix2 p (0 : Fin 1)) :=
    Cert.Layout.broadcastTo_a1_ab_apply x2 _ p q
  have hrow : broadcastTo S10000x64 (shapeCast S1x64 x3 shapeCasts_S64_S1x64) broadcasts_S1x64_S10000x64 (ix2 p q)
      = x3 (ix1 q) := BiasRead.bias_rows_apply x3 _ _ p q
  simp only [select_apply, cmpf_apply, mulf_apply, addf_apply, broadcast_apply, hcol, hrow]
  exact combPt_gt _ _ _ _

/-! ## The reference's combine at an index -/

/-- The reference's combined layer at row r and channel q. -/
theorem combine_apply (a h : Cert.Gcn.Arr Ideal Cert.ReferenceIdeal.S100000x64 .f32)
    (scol : Cert.Gcn.Arr Ideal Cert.ReferenceIdeal.S100000x1 .f32) (b : Cert.Gcn.Arr Ideal Cert.ReferenceIdeal.S64 .f32)
    (r : Fin 100000) (q : Fin 64) :
    Cert.Gcn.combine (F := Ideal) a h scol b (ix2 r q)
      = combPt (a (ix2 r q)) (h (ix2 r q)) (scol (ix2 r (0 : Fin 1))) (b (ix1 q)) := by
  unfold Cert.Gcn.combine Cert.Gcn.lrelu
  have hcol : ∀ hb, broadcastInDim Cert.ReferenceIdeal.S100000x64 ![0, 1] hb scol (ix2 r q) = scol (ix2 r (0 : Fin 1)) :=
    fun hb => BroadcastRead.column_apply scol hb r q
  have hrow : ∀ hb hv, broadcastInDim Cert.ReferenceIdeal.S100000x64 ![0, 1] hb
      (broadcastInDim Cert.ReferenceIdeal.S1x64 ![1] hv b) (ix2 r q) = b (ix1 q) :=
    fun hb hv => (BroadcastRead.row_apply _ hb r q).trans (BroadcastRead.vector_row_apply b hv 0 q)
  have hcst : ∀ hb (x : Cert.Gcn.Arr Ideal Cert.ReferenceIdeal.S_ .f32),
      broadcastInDim Cert.ReferenceIdeal.S100000x64 ![] hb x (ix2 r q) = x ix0 :=
    fun hb x => BiasRead.scalar_apply x hb (ix2 r q) ix0
  simp only [select_apply, cmpf_apply, mulf_apply, addf_apply, hcol, hrow, hcst, id, constant_apply]
  rfl

/-! ## A block of rows -/

/-- Row p of the k-th block of 10000 rows, as a row of the whole array. -/
def rowAt (k : ℕ) (hk : k < 10) (p : Fin 10000) : Fin 100000 := ⟨k * 10000 + p.val, by have := p.isLt; omega⟩

/-- When the loaded blocks are the k-th row blocks of whole arrays a, h, s (and the whole bias b), the body's result
    at row p of the block is the combined layer of the whole arrays at row 10000·k + p. -/
theorem block_combine (x0 x1 : Vec Ideal S10000x64 .f32) (x2 : Vec Ideal S10000x1 .f32) (x3 : Vec Ideal S64 .f32)
    (a h : Cert.Gcn.Arr Ideal Cert.ReferenceIdeal.S100000x64 .f32)
    (scol : Cert.Gcn.Arr Ideal Cert.ReferenceIdeal.S100000x1 .f32) (b : Cert.Gcn.Arr Ideal Cert.ReferenceIdeal.S64 .f32)
    (k : ℕ) (hk : k < 10)
    (h0 : ∀ p q, x0 (ix2 p q) = a (ix2 (rowAt k hk p) q))
    (h1 : ∀ p q, x1 (ix2 p q) = h (ix2 (rowAt k hk p) q))
    (h2 : ∀ p, x2 (ix2 p (0 : Fin 1)) = scol (ix2 (rowAt k hk p) (0 : Fin 1)))
    (h3 : ∀ q, x3 (ix1 q) = b (ix1 q)) (p : Fin 10000) (q : Fin 64) :
    Gen.k1_pay1 (F := Ideal) x0 x1 x2 x3 (ix2 p q) = Cert.Gcn.combine (F := Ideal) a h scol b (ix2 (rowAt k hk p) q) := by
  rw [pay1_apply, combine_apply, h0, h1, h2, h3]

/-! ## Region 1: from the blocks to the array -/

section Region1

variable (V : (c : Dev nD) → (b : Ref sig .tc) → Buf (Elt Ideal) ((c : Thread nD τ).loc b)) (c : Dev nD)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: point t takes row block t of each row-blocked window, and the whole bias. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem lt_ten1 (t : Fin cfg1.N) : t.val < 10 := lt_of_lt_of_eq t.isLt N_1

/-- Where an element of point t's block of window 0 sits in the array. -/
theorem emb1_0 (t : Fin cfg1.N) (p : Fin 10000) (q : Fin 64) :
    ((cfg1.win 0).blk t).view.emb (ix2 p q : S10000x64.Idx) = (ix2 (rowAt t.val (lt_ten1 t) p) q : S100000x64.Idx) := by
  obtain ⟨e00, e01, e10, e11, e20, e21, e30, e40, e41⟩ := idx_facts1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * q.val = q.val; omega

/-- Where an element of point t's block of window 1 sits in the array. -/
theorem emb1_1 (t : Fin cfg1.N) (p : Fin 10000) (q : Fin 64) :
    ((cfg1.win 1).blk t).view.emb (ix2 p q : S10000x64.Idx) = (ix2 (rowAt t.val (lt_ten1 t) p) q : S100000x64.Idx) := by
  obtain ⟨e00, e01, e10, e11, e20, e21, e30, e40, e41⟩ := idx_facts1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * q.val = q.val; omega

/-- Where an element of point t's block of the scale column sits in the array. -/
theorem emb1_2 (t : Fin cfg1.N) (p : Fin 10000) :
    ((cfg1.win 2).blk t).view.emb (ix2 p (0 : Fin 1) : S10000x1.Idx)
      = (ix2 (rowAt t.val (lt_ten1 t) p) (0 : Fin 1) : S100000x1.Idx) := by
  obtain ⟨e00, e01, e10, e11, e20, e21, e30, e40, e41⟩ := idx_facts1 t
  funext a; apply Fin.ext
  match a with
  | ⟨0, _⟩ => show win1_2.index t (0 : Fin 2) * 10000 + 1 * p.val = t.val * 10000 + p.val; omega
  | ⟨1, _⟩ => show win1_2.index t (1 : Fin 2) * 1 + 1 * 0 = 0; omega

/-- The bias window's one block is the whole vector. -/
theorem emb1_3 (t : Fin cfg1.N) (q : Fin 64) :
    ((cfg1.win 3).blk t).view.emb (ix1 q : S64.Idx) = (ix1 q : S64.Idx) := by
  obtain ⟨e00, e01, e10, e11, e20, e21, e30, e40, e41⟩ := idx_facts1 t
  funext a; apply Fin.ext
  match a with
  | ⟨0, _⟩ => show win1_3.index t (0 : Fin 1) * 64 + 1 * q.val = q.val; omega

/-- Where an element of point t's block of the output window sits in the array. -/
theorem emb1_4 (t : Fin cfg1.N) (p : Fin 10000) (q : Fin 64) :
    ((cfg1.win 4).blk t).view.emb (ix2 p q : S10000x64.Idx) = (ix2 (rowAt t.val (lt_ten1 t) p) q : S100000x64.Idx) := by
  obtain ⟨e00, e01, e10, e11, e20, e21, e30, e40, e41⟩ := idx_facts1 t
  funext a; apply Fin.ext
  match a with
  | ⟨0, _⟩ => show win1_4.index t (0 : Fin 2) * 10000 + 1 * p.val = t.val * 10000 + p.val; omega
  | ⟨1, _⟩ => show win1_4.index t (1 : Fin 2) * 64 + 1 * q.val = q.val; omega

/-- What point t writes back is block t of the combined layer of the arrays the region finds. -/
theorem flushed1_eq (t : Fin cfg1.N) :
    (Gen.dat1 (F := Ideal) V c).flushed 4 t = ((cfg1.win 4).blk t).view.read (Elt Ideal)
      (Cert.Gcn.combine (F := Ideal) (V c main_v41) (V c main_v29) (V c main_v12) (V c main_arg4)) := by
  show (cfg1.win 4).cut (grid1.coords t) ((Gen.dat1 (F := Ideal) V c).after 4 t) = _
  rw [Gen.after1_4]
  unfold Gen.out1_4
  rw [View.canon_unit_zero zeros2]
  simp only [View.ld_unit_zero (S := S10000x64) zeros2, View.ld_unit_zero (S := S10000x1) zeros2,
    View.ld_unit_zero (S := S64) zeros1]
  funext j
  obtain ⟨p, q, rfl⟩ : ∃ (p : Fin 10000) (q : Fin 64), j = ix2 p q := ⟨j 0, j 1, eq_ix2 j⟩
  show Gen.k1_pay1 (F := Ideal) (Gen.iblk1 V c 0 t) (Gen.iblk1 V c 1 t) (Gen.iblk1 V c 2 t) (Gen.iblk1 V c 3 t) (ix2 p q)
    = Cert.Gcn.combine (F := Ideal) (V c main_v41) (V c main_v29) (V c main_v12) (V c main_arg4)
        (((cfg1.win 4).blk t).view.emb (ix2 p q : S10000x64.Idx))
  rw [emb1_4 t p q]
  refine block_combine (Gen.iblk1 V c 0 t) (Gen.iblk1 V c 1 t) (Gen.iblk1 V c 2 t) (Gen.iblk1 V c 3 t)
    (V c main_v41) (V c main_v29) (V c main_v12) (V c main_arg4) t.val (lt_ten1 t) ?_ ?_ ?_ ?_ p q
  · intro p q
    show V c main_v41 (((cfg1.win 0).blk t).view.emb (ix2 p q : S10000x64.Idx)) = _
    rw [emb1_0 t p q]
  · intro p q
    show V c main_v29 (((cfg1.win 1).blk t).view.emb (ix2 p q : S10000x64.Idx)) = _
    rw [emb1_1 t p q]
  · intro p
    show V c main_v12 (((cfg1.win 2).blk t).view.emb (ix2 p (0 : Fin 1) : S10000x1.Idx)) = _
    rw [emb1_2 t p]
  · intro q
    show V c main_arg4 (((cfg1.win 3).blk t).view.emb (ix1 q : S64.Idx)) = _
    rw [emb1_3 t q]

/-- An index of the output array is in point t's block iff each coordinate is in the block's range on its axis. -/
theorem mem_blk1 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v42).slice (win1_4.rect t)).set ↔ _
  rw [View.set_slice_whole, Rect.mem_set_unit]
  exact Iff.rfl

/-- The ten row blocks cover the output array: row r is in block r / 10000. -/
theorem cover1 (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  let t : Fin cfg1.N := ⟨(i 0).val / 10000, lt_of_lt_of_eq (by omega : (i 0).val / 10000 < 10) N_1.symm⟩
  obtain ⟨e00, e01, e10, e11, e20, e21, e30, e40, e41⟩ := idx_facts1 t
  have ht : t.val = (i 0).val / 10000 := rfl
  refine ⟨t, Gen.flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- THE OUTPUT ARRAY after region 1: the combined layer of the message sums, the projected features, the self-loop
    scale column and the bias, as the region finds them. -/
theorem comb1 : (Gen.dat1 (F := Ideal) V c).arrAt 4 cfg1.N
    = Cert.Gcn.combine (F := Ideal) (V c main_v41) (V c main_v29) (V c main_v12) (V c main_arg4) :=
  (Gen.dat1 (F := Ideal) V c).arrAt_eq_of_cover 4 _ (fun t _ => flushed1_eq V c t) cover1

end Region1

end Cert.KernelIdeal.Regions

end
-- ==== Proof.RegionComb3.lean ====
/-
  The combine step of the second graph-convolution layer, region 3 of the kernel program, as one whole-array function.

  The region's body is the same arithmetic as the first combine region's, on the same block shapes: each of the ten
  grid points takes rows 10000·t … 10000·t + 9999 of the message sums a, of the projected features h and of the
  self-loop scale column s, and the whole bias vector b, and writes at row r and channel q of the output
  leakyReLU((a(r,q) + s(r,0)·h(r,q)) + b(q)). The ten row blocks tile the 100000 rows, so the output array after the
  region is the reference's "combine" of the whole input arrays. The entrywise facts (the payload at an index, the
  reference's combine at an index, the two leaky ReLU tests agreeing) are those of the first combine region.
-/
import proofs.«112680_j2370821947637_1_alg».proof.Proof.RegionComb1

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat Cfg Window)

/-- This region's payload is, term for term, the first combine region's. -/
theorem pay3_eq : @Gen.k3_pay1 Ideal _ = @Gen.k1_pay1 Ideal _ := rfl

section Region3

variable (V : (c : Dev nD) → (b : Ref sig .tc) → Buf (Elt Ideal) ((c : Thread nD τ).loc b)) (c : Dev nD)

/-- The printed index maps over the grid: point t takes row block t of each row-blocked window, and the whole bias. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

theorem lt_ten3 (t : Fin cfg3.N) : t.val < 10 := lt_of_lt_of_eq t.isLt N_3

/-- Where an element of point t's block of window 0 sits in the array. -/
theorem emb3_0 (t : Fin cfg3.N) (p : Fin 10000) (q : Fin 64) :
    ((cfg3.win 0).blk t).view.emb (ix2 p q : S10000x64.Idx) = (ix2 (rowAt t.val (lt_ten3 t) p) q : S100000x64.Idx) := by
  obtain ⟨e00, e01, e10, e11, e20, e21, e30, e40, e41⟩ := idx_facts3 t
  funext a; apply Fin.ext
  match a with
  | ⟨0, _⟩ => show win3_0.index t (0 : Fin 2) * 10000 + 1 * p.val = t.val * 10000 + p.val; omega
  | ⟨1, _⟩ => show win3_0.index t (1 : Fin 2) * 64 + 1 * q.val = q.val; omega
/-- Where an element of point t's block of window 1 sits in the array. -/
theorem emb3_1 (t : Fin cfg3.N) (p : Fin 10000) (q : Fin 64) :
    ((cfg3.win 1).blk t).view.emb (ix2 p q : S10000x64.Idx) = (ix2 (rowAt t.val (lt_ten3 t) p) q : S100000x64.Idx) := by
  obtain ⟨e00, e01, e10, e11, e20, e21, e30, e40, e41⟩ := idx_facts3 t
  funext a; apply Fin.ext
  match a with
  | ⟨0, _⟩ => show win3_1.index t (0 : Fin 2) * 10000 + 1 * p.val = t.val * 10000 + p.val; omega
  | ⟨1, _⟩ => show win3_1.index t (1 : Fin 2) * 64 + 1 * q.val = q.val; omega

/-- Where an element of point t's block of the scale column sits in the array. -/
theorem emb3_2 (t : Fin cfg3.N) (p : Fin 10000) :
    ((cfg3.win 2).blk t).view.emb (ix2 p (0 : Fin 1) : S10000x1.Idx)
      = (ix2 (rowAt t.val (lt_ten3 t) p) (0 : Fin 1) : S100000x1.Idx) := by
  obtain ⟨e00, e01, e10, e11, e20, e21, e30, e40, e41⟩ := idx_facts3 t
  funext a; apply Fin.ext
  match a with
  | ⟨0, _⟩ => show win3_2.index t (0 : Fin 2) * 10000 + 1 * p.val = t.val * 10000 + p.val; omega
  | ⟨1, _⟩ => show win3_2.index t (1 : Fin 2) * 1 + 1 * 0 = 0; omega

/-- The bias window's one block is the whole vector. -/
theorem emb3_3 (t : Fin cfg3.N) (q : Fin 64) :
    ((cfg3.win 3).blk t).view.emb (ix1 q : S64.Idx) = (ix1 q : S64.Idx) := by
  obtain ⟨e00, e01, e10, e11, e20, e21, e30, e40, e41⟩ := idx_facts3 t
  funext a; apply Fin.ext
  match a with
  | ⟨0, _⟩ => show win3_3.index t (0 : Fin 1) * 64 + 1 * q.val = q.val; omega

/-- Where an element of point t's block of the output window sits in the array. -/
theorem emb3_4 (t : Fin cfg3.N) (p : Fin 10000) (q : Fin 64) :
    ((cfg3.win 4).blk t).view.emb (ix2 p q : S10000x64.Idx) = (ix2 (rowAt t.val (lt_ten3 t) p) q : S100000x64.Idx) := by
  obtain ⟨e00, e01, e10, e11, e20, e21, e30, e40, e41⟩ := idx_facts3 t
  funext a; apply Fin.ext
  match a with
  | ⟨0, _⟩ => show win3_4.index t (0 : Fin 2) * 10000 + 1 * p.val = t.val * 10000 + p.val; omega
  | ⟨1, _⟩ => show win3_4.index t (1 : Fin 2) * 64 + 1 * q.val = q.val; omega

/-- What point t writes back is block t of the combined layer of the arrays the region finds. -/
theorem flushed3_eq (t : Fin cfg3.N) :
    (Gen.dat3 (F := Ideal) V c).flushed 4 t = ((cfg3.win 4).blk t).view.read (Elt Ideal)
      (Cert.Gcn.combine (F := Ideal) (V c main_v55) (V c main_v43) (V c main_v12) (V c main_arg6)) := by
  show (cfg3.win 4).cut (grid3.coords t) ((Gen.dat3 (F := Ideal) V c).after 4 t) = _
  rw [Gen.after3_4]
  unfold Gen.out3_4
  rw [View.canon_unit_zero zeros2]
  simp only [View.ld_unit_zero (S := S10000x64) zeros2, View.ld_unit_zero (S := S10000x1) zeros2,
    View.ld_unit_zero (S := S64) zeros1]
  funext j
  obtain ⟨p, q, rfl⟩ : ∃ (p : Fin 10000) (q : Fin 64), j = ix2 p q := ⟨j 0, j 1, eq_ix2 j⟩
  show Gen.k3_pay1 (F := Ideal) (Gen.iblk3 V c 0 t) (Gen.iblk3 V c 1 t) (Gen.iblk3 V c 2 t) (Gen.iblk3 V c 3 t) (ix2 p q)
    = Cert.Gcn.combine (F := Ideal) (V c main_v55) (V c main_v43) (V c main_v12) (V c main_arg6)
        (((cfg3.win 4).blk t).view.emb (ix2 p q : S10000x64.Idx))
  rw [emb3_4 t p q, pay3_eq]
  refine block_combine (Gen.iblk3 V c 0 t) (Gen.iblk3 V c 1 t) (Gen.iblk3 V c 2 t) (Gen.iblk3 V c 3 t)
    (V c main_v55) (V c main_v43) (V c main_v12) (V c main_arg6) t.val (lt_ten3 t) ?_ ?_ ?_ ?_ p q
  · intro p q
    show V c main_v55 (((cfg3.win 0).blk t).view.emb (ix2 p q : S10000x64.Idx)) = _
    rw [emb3_0 t p q]
  · intro p q
    show V c main_v43 (((cfg3.win 1).blk t).view.emb (ix2 p q : S10000x64.Idx)) = _
    rw [emb3_1 t p q]
  · intro p
    show V c main_v12 (((cfg3.win 2).blk t).view.emb (ix2 p (0 : Fin 1) : S10000x1.Idx)) = _
    rw [emb3_2 t p]
  · intro q
    show V c main_arg6 (((cfg3.win 3).blk t).view.emb (ix1 q : S64.Idx)) = _
    rw [emb3_3 t q]

/-- An index of the output array is in point t's block iff each coordinate is in the block's range on its axis. -/
theorem mem_blk3 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v56).slice (win3_4.rect t)).set ↔ _
  rw [View.set_slice_whole, Rect.mem_set_unit]
  exact Iff.rfl

/-- The ten row blocks cover the output array: row r is in block r / 10000. -/
theorem cover3 (i : S100000x64.Idx) :
    ∃ t : Fin cfg3.N, (cfg3.win 4).flush t = true ∧ i ∈ ((cfg3.win 4).blk t).view.set := by
  have hi0 : (i 0).val < 100000 := idx2_lt0 i
  have hi1 : (i 1).val < 64 := idx2_lt1 i
  let t : Fin cfg3.N := ⟨(i 0).val / 10000, lt_of_lt_of_eq (by omega : (i 0).val / 10000 < 10) N_3.symm⟩
  obtain ⟨e00, e01, e10, e11, e20, e21, e30, e40, e41⟩ := idx_facts3 t
  have ht : t.val = (i 0).val / 10000 := rfl
  refine ⟨t, Gen.flush3_4 t, ?_⟩
  rw [mem_blk3]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- THE OUTPUT ARRAY after region 3: the combined layer of the message sums, the projected features, the self-loop
    scale column and the bias, as the region finds them. -/
theorem comb3 : (Gen.dat3 (F := Ideal) V c).arrAt 4 cfg3.N
    = Cert.Gcn.combine (F := Ideal) (V c main_v55) (V c main_v43) (V c main_v12) (V c main_arg6) :=
  (Gen.dat3 (F := Ideal) V c).arrAt_eq_of_cover 4 _ (fun t _ => flushed3_eq V c t) cover3

end Region3

end Cert.KernelIdeal.Regions

end
-- ==== Proof.RegionComb5.lean ====
/-
  The combine step of the third graph-convolution layer, region 5 of the kernel program, as one whole-array function.

  The region's body is the same arithmetic as the first combine region's, on the same block shapes: each of the ten
  grid points takes rows 10000·t … 10000·t + 9999 of the message sums a, of the projected features h and of the
  self-loop scale column s, and the whole bias vector b, and writes at row r and channel q of the output
  leakyReLU((a(r,q) + s(r,0)·h(r,q)) + b(q)). The ten row blocks tile the 100000 rows, so the output array after the
  region is the reference's "combine" of the whole input arrays. The entrywise facts (the payload at an index, the
  reference's combine at an index, the two leaky ReLU tests agreeing) are those of the first combine region.
-/
import proofs.«112680_j2370821947637_1_alg».proof.Proof.RegionComb1

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat Cfg Window)

/-- This region's payload is, term for term, the first combine region's. -/
theorem pay5_eq : @Gen.k5_pay1 Ideal _ = @Gen.k1_pay1 Ideal _ := rfl

section Region5

variable (V : (c : Dev nD) → (b : Ref sig .tc) → Buf (Elt Ideal) ((c : Thread nD τ).loc b)) (c : Dev nD)

/-- The printed index maps over the grid: point t takes row block t of each row-blocked window, and the whole bias. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

theorem lt_ten5 (t : Fin cfg5.N) : t.val < 10 := lt_of_lt_of_eq t.isLt N_5

/-- Where an element of point t's block of window 0 sits in the array. -/
theorem emb5_0 (t : Fin cfg5.N) (p : Fin 10000) (q : Fin 64) :
    ((cfg5.win 0).blk t).view.emb (ix2 p q : S10000x64.Idx) = (ix2 (rowAt t.val (lt_ten5 t) p) q : S100000x64.Idx) := by
  obtain ⟨e00, e01, e10, e11, e20, e21, e30, e40, e41⟩ := idx_facts5 t
  funext a; apply Fin.ext
  match a with
  | ⟨0, _⟩ => show win5_0.index t (0 : Fin 2) * 10000 + 1 * p.val = t.val * 10000 + p.val; omega
  | ⟨1, _⟩ => show win5_0.index t (1 : Fin 2) * 64 + 1 * q.val = q.val; omega
/-- Where an element of point t's block of window 1 sits in the array. -/
theorem emb5_1 (t : Fin cfg5.N) (p : Fin 10000) (q : Fin 64) :
    ((cfg5.win 1).blk t).view.emb (ix2 p q : S10000x64.Idx) = (ix2 (rowAt t.val (lt_ten5 t) p) q : S100000x64.Idx) := by
  obtain ⟨e00, e01, e10, e11, e20, e21, e30, e40, e41⟩ := idx_facts5 t
  funext a; apply Fin.ext
  match a with
  | ⟨0, _⟩ => show win5_1.index t (0 : Fin 2) * 10000 + 1 * p.val = t.val * 10000 + p.val; omega
  | ⟨1, _⟩ => show win5_1.index t (1 : Fin 2) * 64 + 1 * q.val = q.val; omega

/-- Where an element of point t's block of the scale column sits in the array. -/
theorem emb5_2 (t : Fin cfg5.N) (p : Fin 10000) :
    ((cfg5.win 2).blk t).view.emb (ix2 p (0 : Fin 1) : S10000x1.Idx)
      = (ix2 (rowAt t.val (lt_ten5 t) p) (0 : Fin 1) : S100000x1.Idx) := by
  obtain ⟨e00, e01, e10, e11, e20, e21, e30, e40, e41⟩ := idx_facts5 t
  funext a; apply Fin.ext
  match a with
  | ⟨0, _⟩ => show win5_2.index t (0 : Fin 2) * 10000 + 1 * p.val = t.val * 10000 + p.val; omega
  | ⟨1, _⟩ => show win5_2.index t (1 : Fin 2) * 1 + 1 * 0 = 0; omega

/-- The bias window's one block is the whole vector. -/
theorem emb5_3 (t : Fin cfg5.N) (q : Fin 64) :
    ((cfg5.win 3).blk t).view.emb (ix1 q : S64.Idx) = (ix1 q : S64.Idx) := by
  obtain ⟨e00, e01, e10, e11, e20, e21, e30, e40, e41⟩ := idx_facts5 t
  funext a; apply Fin.ext
  match a with
  | ⟨0, _⟩ => show win5_3.index t (0 : Fin 1) * 64 + 1 * q.val = q.val; omega

/-- Where an element of point t's block of the output window sits in the array. -/
theorem emb5_4 (t : Fin cfg5.N) (p : Fin 10000) (q : Fin 64) :
    ((cfg5.win 4).blk t).view.emb (ix2 p q : S10000x64.Idx) = (ix2 (rowAt t.val (lt_ten5 t) p) q : S100000x64.Idx) := by
  obtain ⟨e00, e01, e10, e11, e20, e21, e30, e40, e41⟩ := idx_facts5 t
  funext a; apply Fin.ext
  match a with
  | ⟨0, _⟩ => show win5_4.index t (0 : Fin 2) * 10000 + 1 * p.val = t.val * 10000 + p.val; omega
  | ⟨1, _⟩ => show win5_4.index t (1 : Fin 2) * 64 + 1 * q.val = q.val; omega

/-- What point t writes back is block t of the combined layer of the arrays the region finds. -/
theorem flushed5_eq (t : Fin cfg5.N) :
    (Gen.dat5 (F := Ideal) V c).flushed 4 t = ((cfg5.win 4).blk t).view.read (Elt Ideal)
      (Cert.Gcn.combine (F := Ideal) (V c main_v69) (V c main_v57) (V c main_v12) (V c main_arg8)) := by
  show (cfg5.win 4).cut (grid5.coords t) ((Gen.dat5 (F := Ideal) V c).after 4 t) = _
  rw [Gen.after5_4]
  unfold Gen.out5_4
  rw [View.canon_unit_zero zeros2]
  simp only [View.ld_unit_zero (S := S10000x64) zeros2, View.ld_unit_zero (S := S10000x1) zeros2,
    View.ld_unit_zero (S := S64) zeros1]
  funext j
  obtain ⟨p, q, rfl⟩ : ∃ (p : Fin 10000) (q : Fin 64), j = ix2 p q := ⟨j 0, j 1, eq_ix2 j⟩
  show Gen.k5_pay1 (F := Ideal) (Gen.iblk5 V c 0 t) (Gen.iblk5 V c 1 t) (Gen.iblk5 V c 2 t) (Gen.iblk5 V c 3 t) (ix2 p q)
    = Cert.Gcn.combine (F := Ideal) (V c main_v69) (V c main_v57) (V c main_v12) (V c main_arg8)
        (((cfg5.win 4).blk t).view.emb (ix2 p q : S10000x64.Idx))
  rw [emb5_4 t p q, pay5_eq]
  refine block_combine (Gen.iblk5 V c 0 t) (Gen.iblk5 V c 1 t) (Gen.iblk5 V c 2 t) (Gen.iblk5 V c 3 t)
    (V c main_v69) (V c main_v57) (V c main_v12) (V c main_arg8) t.val (lt_ten5 t) ?_ ?_ ?_ ?_ p q
  · intro p q
    show V c main_v69 (((cfg5.win 0).blk t).view.emb (ix2 p q : S10000x64.Idx)) = _
    rw [emb5_0 t p q]
  · intro p q
    show V c main_v57 (((cfg5.win 1).blk t).view.emb (ix2 p q : S10000x64.Idx)) = _
    rw [emb5_1 t p q]
  · intro p
    show V c main_v12 (((cfg5.win 2).blk t).view.emb (ix2 p (0 : Fin 1) : S10000x1.Idx)) = _
    rw [emb5_2 t p]
  · intro q
    show V c main_arg8 (((cfg5.win 3).blk t).view.emb (ix1 q : S64.Idx)) = _
    rw [emb5_3 t q]

/-- An index of the output array is in point t's block iff each coordinate is in the block's range on its axis. -/
theorem mem_blk5 (t : Fin cfg5.N) (i : S100000x64.Idx) :
    i ∈ ((cfg5.win 4).blk t).view.set ↔ ∀ a : Fin 2, win5_4.index t a * S10000x64.size a ≤ (i a).val
      ∧ (i a).val < win5_4.index t a * S10000x64.size a + S10000x64.size a := by
  show i ∈ ((View.whole main_v70).slice (win5_4.rect t)).set ↔ _
  rw [View.set_slice_whole, Rect.mem_set_unit]
  exact Iff.rfl

/-- The ten row blocks cover the output array: row r is in block r / 10000. -/
theorem cover5 (i : S100000x64.Idx) :
    ∃ t : Fin cfg5.N, (cfg5.win 4).flush t = true ∧ i ∈ ((cfg5.win 4).blk t).view.set := by
  have hi0 : (i 0).val < 100000 := idx2_lt0 i
  have hi1 : (i 1).val < 64 := idx2_lt1 i
  let t : Fin cfg5.N := ⟨(i 0).val / 10000, lt_of_lt_of_eq (by omega : (i 0).val / 10000 < 10) N_5.symm⟩
  obtain ⟨e00, e01, e10, e11, e20, e21, e30, e40, e41⟩ := idx_facts5 t
  have ht : t.val = (i 0).val / 10000 := rfl
  refine ⟨t, Gen.flush5_4 t, ?_⟩
  rw [mem_blk5]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- THE OUTPUT ARRAY after region 5: the combined layer of the message sums, the projected features, the self-loop
    scale column and the bias, as the region finds them. -/
theorem comb5 : (Gen.dat5 (F := Ideal) V c).arrAt 4 cfg5.N
    = Cert.Gcn.combine (F := Ideal) (V c main_v69) (V c main_v57) (V c main_v12) (V c main_arg8) :=
  (Gen.dat5 (F := Ideal) V c).arrAt_eq_of_cover 4 _ (fun t _ => flushed5_eq V c t) cover5

end Region5

end Cert.KernelIdeal.Regions

end
-- ==== Proof.RegionHead.lean ====
/-
  The read-out head, region 6 of the kernel program, as one whole-array function.

  The region has one grid point, whose blocks are the whole arrays: the pooled features p [2000,64], the weights
  w1 [64,64] and w2 [64,1], the biases c1 [64] and c2 [1]. Its body computes  leakyReLU(p·w1 + c1)·w2 + c2  with two
  matrix products into zero accumulators, the biases laid along the rows, and the leaky ReLU testing x > 0. On the
  extended reals a change of format is the identity, a product into a zero accumulator is the host's product, and the
  test x > 0 selects what the reference's test x ≥ 0 selects (at x = 0 both branches are 0); so the body's result is
  the reference's "head" of the same arrays, and the one block is the whole output array.
-/
import proofs.«112680_j2370821947637_1_alg».proof.Proof.RegionComb1
import Idealize.ShloMosaic.Lib.KernelVsHost

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.ShloMosaic.Pipeline (Dat Cfg Window)

/-! ## The pieces of the body and of the reference's head -/

/-- The hidden layer before its activation, as the body forms it: a product into a zero accumulator plus the bias
    cast to a row and broadcast down the rows. -/
def preK (x0 : Vec Ideal S2000x64 .f32) (x1 : Vec Ideal S64x64 .f32) (x2 : Vec Ideal S64 .f32) : FVec Ideal S2000x64 .f32 :=
  addf (matmul (φ₁ := .f32) (φ₂ := .f32) dot_S2000x64_S64x64_S2000x64_1_0_0_1_n_n none x0 x1 (constant S2000x64 .f32 0x00000000#32))
    (broadcastTo S2000x64 (shapeCast S1x64 x2 shapeCasts_S64_S1x64) broadcasts_S1x64_S2000x64)

/-- The same as the reference forms it: the host's product plus the bias broadcast to a row and then down the rows. -/
def preR (x0 : Vec Ideal S2000x64 .f32) (x1 : Vec Ideal S64x64 .f32) (x2 : Vec Ideal S64 .f32) : FVec Ideal S2000x64 .f32 :=
  addf (Host.dotGeneral (φ₁ := .f32) (φ₂ := .f32) Cert.ReferenceIdeal.dot_S2000x64_S64x64_S2000x64_1_0_0_1_n_n none x0 x1)
    (broadcastInDim Cert.ReferenceIdeal.S2000x64 ![0, 1] Cert.ReferenceIdeal.Gen.bcast_S1x64_S2000x64_0_1
      (broadcastInDim Cert.ReferenceIdeal.S1x64 ![1] Cert.ReferenceIdeal.Gen.bcast_S64_S1x64_1 x2))

/-- The body's leaky ReLU: the test x > 0, the constants broadcast from scalars. -/
def actK (y : FVec Ideal S2000x64 .f32) : FVec Ideal S2000x64 .f32 :=
  select (cmpf .ogt y (broadcast S2000x64 (FloatOps.ofBits .f32 0x00000000#32))) y
    (mulf (broadcast S2000x64 (FloatOps.ofBits .f32 0x3C23D70A#32)) y)

/-- The two ways of laying the hidden bias along the rows agree. -/
theorem bias1_eq (x2 : Vec Ideal S64 .f32) :
    broadcastTo S2000x64 (shapeCast S1x64 x2 shapeCasts_S64_S1x64) broadcasts_S1x64_S2000x64
      = broadcastInDim Cert.ReferenceIdeal.S2000x64 ![0, 1] Cert.ReferenceIdeal.Gen.bcast_S1x64_S2000x64_0_1
          (broadcastInDim Cert.ReferenceIdeal.S1x64 ![1] Cert.ReferenceIdeal.Gen.bcast_S64_S1x64_1 x2) := by
  funext j
  obtain ⟨r, e, rfl⟩ : ∃ (r : Fin 2000) (e : Fin 64), j = ix2 r e := ⟨j 0, j 1, eq_ix2 j⟩
  exact (BiasRead.bias_rows_apply x2 _ _ r e).trans
    ((BroadcastRead.row_apply _ _ r e).trans (BroadcastRead.vector_row_apply x2 _ 0 e)).symm

/-- The two ways of laying the output bias along the rows agree. -/
theorem bias2_eq (x4 : Vec Ideal S1 .f32) :
    broadcastTo S2000x1 (shapeCast S1x1 x4 shapeCasts_S1_S1x1) broadcasts_S1x1_S2000x1
      = broadcastInDim Cert.ReferenceIdeal.S2000x1 ![0, 1] Cert.ReferenceIdeal.Gen.bcast_S1x1_S2000x1_0_1
          (broadcastInDim Cert.ReferenceIdeal.S1x1 ![1] Cert.ReferenceIdeal.Gen.bcast_S1_S1x1_1 x4) := by
  funext j
  obtain ⟨r, u, rfl⟩ : ∃ (r : Fin 2000) (u : Fin 1), j = ix2 r u := ⟨j 0, j 1, eq_ix2 j⟩
  exact (BiasRead.bias_rows_apply x4 _ _ r u).trans
    ((BroadcastRead.row_apply _ _ r u).trans (BroadcastRead.vector_row_apply x4 _ 0 u)).symm

/-- The hidden layer before its activation is the same array either way: a product into a zero accumulator is the
    host's product, and the two sets of dimension numbers are the same record. -/
theorem pre_eq (x0 : Vec Ideal S2000x64 .f32) (x1 : Vec Ideal S64x64 .f32) (x2 : Vec Ideal S64 .f32) :
    preK x0 x1 x2 = preR x0 x1 x2 := by
  unfold preK preR
  rw [matmul_zero_eq_dotGeneral, bias1_eq]
  rfl

/-- The body's leaky ReLU of an array is the reference's. -/
theorem act_eq (y : FVec Ideal S2000x64 .f32) : actK y = Cert.Gcn.lreluG (F := Ideal) y := by
  unfold actK Cert.Gcn.lreluG
  funext j
  have hcst : ∀ hb (x : Cert.Gcn.Arr Ideal Cert.ReferenceIdeal.S_ .f32),
      broadcastInDim Cert.ReferenceIdeal.S2000x64 ![] hb x j = x ix0 :=
    fun hb x => BiasRead.scalar_apply x hb j ix0
  simp only [select_apply, cmpf_apply, mulf_apply, broadcast_apply, hcst, id, constant_apply]
  show Scalar.select (Ideal.cmp .ogt (y j) (Ideal.ofBits .f32 0x00000000#32)) (y j) (Ideal.ofBits .f32 0x3C23D70A#32 * y j)
    = Scalar.select (Ideal.cmp .oge (y j) (Ideal.ofBits .f32 0x00000000#32)) (y j) (Ideal.ofBits .f32 0x3C23D70A#32 * y j)
  rw [zero_pat]
  exact lrelu_gt_eq_ge _ _

/-! ## The body's result is the reference's head of the loaded blocks -/

theorem pay6_eq_head (x0 : Vec Ideal S2000x64 .f32) (x1 : Vec Ideal S64x64 .f32) (x2 : Vec Ideal S64 .f32)
    (x3 : Vec Ideal S64x1 .f32) (x4 : Vec Ideal S1 .f32) :
    Gen.k6_pay1 (F := Ideal) x0 x1 x2 x3 x4 = Cert.Gcn.head (F := Ideal) x0 x1 x2 x3 x4 := by
  have e : Gen.k6_pay1 (F := Ideal) x0 x1 x2 x3 x4
      = addf (matmul (φ₁ := .f32) (φ₂ := .f32) dot_S2000x64_S64x1_S2000x1_1_0_0_1_n_n none (actK (preK (shapeCast S2000x64 x0 shapeCasts_S2000x64_S2000x64) x1 x2)) x3 (constant S2000x1 .f32 0x00000000#32))
          (broadcastTo S2000x1 (shapeCast S1x1 x4 shapeCasts_S1_S1x1) broadcasts_S1x1_S2000x1) := rfl
  rw [e, shapeCast_self x0, matmul_zero_eq_dotGeneral, pre_eq, act_eq, bias2_eq]
  rfl

/-! ## Region 6: the one block is the whole array -/

section Region6

variable (V : (c : Dev nD) → (b : Ref sig .tc) → Buf (Elt Ideal) ((c : Thread nD τ).loc b)) (c : Dev nD)

/-- The printed index maps over the grid: every window's block index is zero on every axis. -/
theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0 :=
  (by decide +kernel : ∀ t : Fin grid6.N, _)

/-- The pooled features' block is the array. -/
theorem iblk6_0 (t : Fin cfg6.N) : (Gen.iblk6 V c 0 t : Vec Ideal S2000x64 .f32) = V c main_v82 := by
  obtain ⟨e00, e01, e10, e11, e20, e30, e31, e40, e50, e51⟩ := idx_facts6 t
  funext j
  obtain ⟨p, q, rfl⟩ : ∃ (p : Fin 2000) (q : Fin 64), j = ix2 p q := ⟨j 0, j 1, eq_ix2 j⟩
  show V c main_v82 (((cfg6.win 0).blk t).view.emb (ix2 p q : S2000x64.Idx)) = V c main_v82 (ix2 p q : S2000x64.Idx)
  refine congrArg (V c main_v82) ?_
  funext a; apply Fin.ext
  match a with
  | ⟨0, _⟩ => show win6_0.index t (0 : Fin 2) * 2000 + 1 * p.val = p.val; omega
  | ⟨1, _⟩ => show win6_0.index t (1 : Fin 2) * 64 + 1 * q.val = q.val; omega

/-- The first weights' block is the array. -/
theorem iblk6_1 (t : Fin cfg6.N) : (Gen.iblk6 V c 1 t : Vec Ideal S64x64 .f32) = V c main_arg9 := by
  obtain ⟨e00, e01, e10, e11, e20, e30, e31, e40, e50, e51⟩ := idx_facts6 t
  funext j
  obtain ⟨p, q, rfl⟩ : ∃ (p : Fin 64) (q : Fin 64), j = ix2 p q := ⟨j 0, j 1, eq_ix2 j⟩
  show V c main_arg9 (((cfg6.win 1).blk t).view.emb (ix2 p q : S64x64.Idx)) = V c main_arg9 (ix2 p q : S64x64.Idx)
  refine congrArg (V c main_arg9) ?_
  funext a; apply Fin.ext
  match a with
  | ⟨0, _⟩ => show win6_1.index t (0 : Fin 2) * 64 + 1 * p.val = p.val; omega
  | ⟨1, _⟩ => show win6_1.index t (1 : Fin 2) * 64 + 1 * q.val = q.val; omega

/-- The hidden bias's block is the vector. -/
theorem iblk6_2 (t : Fin cfg6.N) : (Gen.iblk6 V c 2 t : Vec Ideal S64 .f32) = V c main_arg10 := by
  obtain ⟨e00, e01, e10, e11, e20, e30, e31, e40, e50, e51⟩ := idx_facts6 t
  funext j
  obtain ⟨q, rfl⟩ : ∃ (q : Fin 64), j = ix1 q := ⟨j 0, eq_ix1 j⟩
  show V c main_arg10 (((cfg6.win 2).blk t).view.emb (ix1 q : S64.Idx)) = V c main_arg10 (ix1 q : S64.Idx)
  refine congrArg (V c main_arg10) ?_
  funext a; apply Fin.ext
  match a with
  | ⟨0, _⟩ => show win6_2.index t (0 : Fin 1) * 64 + 1 * q.val = q.val; omega

/-- The second weights' block is the array. -/
theorem iblk6_3 (t : Fin cfg6.N) : (Gen.iblk6 V c 3 t : Vec Ideal S64x1 .f32) = V c main_arg11 := by
  obtain ⟨e00, e01, e10, e11, e20, e30, e31, e40, e50, e51⟩ := idx_facts6 t
  funext j
  obtain ⟨p, u, rfl⟩ : ∃ (p : Fin 64) (u : Fin 1), j = ix2 p u := ⟨j 0, j 1, eq_ix2 j⟩
  show V c main_arg11 (((cfg6.win 3).blk t).view.emb (ix2 p u : S64x1.Idx)) = V c main_arg11 (ix2 p u : S64x1.Idx)
  refine congrArg (V c main_arg11) ?_
  funext a; apply Fin.ext
  match a with
  | ⟨0, _⟩ => show win6_3.index t (0 : Fin 2) * 64 + 1 * p.val = p.val; omega
  | ⟨1, _⟩ => show win6_3.index t (1 : Fin 2) * 1 + 1 * u.val = u.val; omega

/-- The output bias's block is the vector. -/
theorem iblk6_4 (t : Fin cfg6.N) : (Gen.iblk6 V c 4 t : Vec Ideal S1 .f32) = V c main_arg12 := by
  obtain ⟨e00, e01, e10, e11, e20, e30, e31, e40, e50, e51⟩ := idx_facts6 t
  funext j
  obtain ⟨u, rfl⟩ : ∃ (u : Fin 1), j = ix1 u := ⟨j 0, eq_ix1 j⟩
  show V c main_arg12 (((cfg6.win 4).blk t).view.emb (ix1 u : S1.Idx)) = V c main_arg12 (ix1 u : S1.Idx)
  refine congrArg (V c main_arg12) ?_
  funext a; apply Fin.ext
  match a with
  | ⟨0, _⟩ => show win6_4.index t (0 : Fin 1) * 1 + 1 * u.val = u.val; omega

/-- An element of the output window's block sits at itself in the array. -/
theorem emb6_5 (t : Fin cfg6.N) (p : Fin 2000) (u : Fin 1) :
    ((cfg6.win 5).blk t).view.emb (ix2 p u : S2000x1.Idx) = (ix2 p u : S2000x1.Idx) := by
  obtain ⟨e00, e01, e10, e11, e20, e30, e31, e40, e50, e51⟩ := idx_facts6 t
  funext a; apply Fin.ext
  match a with
  | ⟨0, _⟩ => show win6_5.index t (0 : Fin 2) * 2000 + 1 * p.val = p.val; omega
  | ⟨1, _⟩ => show win6_5.index t (1 : Fin 2) * 1 + 1 * u.val = u.val; omega

/-- What the one point writes back is its block of the head of the arrays the region finds. -/
theorem flushed6_eq (t : Fin cfg6.N) :
    (Gen.dat6 (F := Ideal) V c).flushed 5 t = ((cfg6.win 5).blk t).view.read (Elt Ideal)
      (Cert.Gcn.head (F := Ideal) (V c main_v82) (V c main_arg9) (V c main_arg10) (V c main_arg11) (V c main_arg12)) := by
  show (cfg6.win 5).cut (grid6.coords t) ((Gen.dat6 (F := Ideal) V c).after 5 t) = _
  rw [Gen.after6_5]
  unfold Gen.out6_5
  rw [View.canon_unit_zero zeros2]
  simp only [View.ld_unit_zero (S := S2000x64) zeros2, View.ld_unit_zero (S := S64x64) zeros2,
    View.ld_unit_zero (S := S64) zeros1, View.ld_unit_zero (S := S64x1) zeros2, View.ld_unit_zero (S := S1) zeros1]
  funext j
  obtain ⟨p, u, rfl⟩ : ∃ (p : Fin 2000) (u : Fin 1), j = ix2 p u := ⟨j 0, j 1, eq_ix2 j⟩
  show Gen.k6_pay1 (F := Ideal) (Gen.iblk6 V c 0 t) (Gen.iblk6 V c 1 t) (Gen.iblk6 V c 2 t) (Gen.iblk6 V c 3 t)
      (Gen.iblk6 V c 4 t) (ix2 p u)
    = Cert.Gcn.head (F := Ideal) (V c main_v82) (V c main_arg9) (V c main_arg10) (V c main_arg11) (V c main_arg12)
        (((cfg6.win 5).blk t).view.emb (ix2 p u : S2000x1.Idx))
  rw [emb6_5 t p u]
  refine (congrFun (pay6_eq_head (Gen.iblk6 V c 0 t) (Gen.iblk6 V c 1 t) (Gen.iblk6 V c 2 t) (Gen.iblk6 V c 3 t)
    (Gen.iblk6 V c 4 t)) (ix2 p u)).trans ?_
  rw [iblk6_0 V c t, iblk6_1 V c t, iblk6_2 V c t, iblk6_3 V c t, iblk6_4 V c t]

/-- An index of the output array is in the point's block iff each coordinate is in the block's range on its axis. -/
theorem mem_blk6 (t : Fin cfg6.N) (i : S2000x1.Idx) :
    i ∈ ((cfg6.win 5).blk t).view.set ↔ ∀ a : Fin 2, win6_5.index t a * S2000x1.size a ≤ (i a).val
      ∧ (i a).val < win6_5.index t a * S2000x1.size a + S2000x1.size a := by
  show i ∈ ((View.whole main_v83).slice (win6_5.rect t)).set ↔ _
  rw [View.set_slice_whole, Rect.mem_set_unit]
  exact Iff.rfl

/-- The one block covers the output array. -/
theorem cover6 (i : S2000x1.Idx) :
    ∃ t : Fin cfg6.N, (cfg6.win 5).flush t = true ∧ i ∈ ((cfg6.win 5).blk t).view.set := by
  have hi0 : (i 0).val < 2000 := idx2_lt0 i
  have hi1 : (i 1).val < 1 := idx2_lt1 i
  let t : Fin cfg6.N := ⟨0, lt_of_lt_of_eq (by omega : 0 < 1) N_6.symm⟩
  obtain ⟨e00, e01, e10, e11, e20, e30, e31, e40, e50, e51⟩ := idx_facts6 t
  refine ⟨t, Gen.flush6_5 t, ?_⟩
  rw [mem_blk6]
  intro a
  match a with
  | ⟨0, _⟩ => show win6_5.index t (0 : Fin 2) * 2000 ≤ (i 0).val ∧ (i 0).val < win6_5.index t (0 : Fin 2) * 2000 + 2000; omega
  | ⟨1, _⟩ => show win6_5.index t (1 : Fin 2) * 1 ≤ (i 1).val ∧ (i 1).val < win6_5.index t (1 : Fin 2) * 1 + 1; omega

/-- THE OUTPUT ARRAY after region 6: the head of the pooled features, the two weight matrices and the two biases, as
    the region finds them. -/
theorem head6 : (Gen.dat6 (F := Ideal) V c).arrAt 5 cfg6.N
    = Cert.Gcn.head (F := Ideal) (V c main_v82) (V c main_arg9) (V c main_arg10) (V c main_arg11) (V c main_arg12) :=
  (Gen.dat6 (F := Ideal) V c).arrAt_eq_of_cover 5 _ (fun t _ => flushed6_eq V c t) cover6

end Region6

end Cert.KernelIdeal.Regions

end
-- ==== Proof.RefRun.lean ====
/-
  The reference program's @main as a straight line of host operations, and its run.

  The reference computes, over node features `x` (100000 × 163), an edge table (2 × 1000000: a row of source
  and a row of destination node indices) and a graph index per node, a graph convolutional network:

  * degree normalisation — `dis = rsqrt (deg + 1)`, where `deg n` counts the edges whose destination is `n`;
  * three GCN layers — each a projection `h · W`, then for every node the sum over its incoming edges
    `s → n` of `dis s · dis n · (h · W) s`, plus the self-loop term `dis n · dis n · (h · W) n`, plus the bias,
    through leaky ReLU (its slope the single-precision constant nearest 0.01);
  * mean pooling per graph — the sum of the rows of a graph's nodes divided by `max (count, 1)`;
  * the two-layer head — projection, bias, leaky ReLU, projection to one column, bias, reshaped to a vector.

  @main calls the module's functions (leaky ReLU, which calls the select function); a call executes the callee's
  body on the operands, each value of the body in a buffer of its own, so the program is one straight line once
  the definitions are unfolded at their calls. The line is listed below in six consecutive chunks, cut where the
  mathematics is: `opsDeg`, `opsL1`, `opsL2`, `opsL3`, `opsPool`, `opsHead`; `ops` is their concatenation.
  `main_eq` says @main is that line, `run_main` that every weakly fair execution of it terminates with each
  buffer at the fold of the operations' results over the launch contents, and `after_append` splits that
  fold chunk by chunk.
-/
import proofs.«112680_j2370821947637_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Degree normalisation: the source row and the destination row of the edge table as index vectors; the in-degree of every node as a scatter-sum of ones over the destination indices; plus one (the self loop); the reciprocal square root. (14 operations.) -/
abbrev opsDeg : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_cst (constant S_ .f32 0x3F800000#32),
    unary main_cst main_v4 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1000000x1 ![0] bcast_S1000000_S1000000x1_0 : (⟨S1000000, .i32⟩ : BufTy).Contents (Elt F) → (⟨S1000000x1, .i32⟩ : BufTy).Contents (Elt F)),
    ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]

/-- First GCN layer: the projection of the node features (163 → 64); the edge weight, the product of the two end points' normalisations, gathered at the wrapped source and destination indices; the weighted messages gathered at the source and summed over incoming edges at the destination; the self-loop term (the squared normalisation times the projected row); the bias; leaky ReLU, its slope the single-precision constant nearest 0.01 (comparison with zero, the scaled copy, the select). (52 operations.) -/
abbrev opsL1 : List (HloOp τ sig (Elt F)) :=
  [ binary main_arg0 main_arg3 main_v11 ((fun l r => Host.dotGeneral dot_S100000x163_S163x64_S100000x64_1_0_0_1_n_n none l r) : (⟨S100000x163, .f32⟩ : BufTy).Contents (Elt F) → (⟨S163x64, .f32⟩ : BufTy).Contents (Elt F) → (⟨S100000x64, .f32⟩ : BufTy).Contents (Elt F)),
    nullary main_c (constantI S_ 32 0#32),
    unary main_c main_v12 (broadcastInDim S1000000 ![] bcast_S_S1000000 : (⟨S_, .i32⟩ : BufTy).Contents (Elt F) → (⟨S1000000, .i32⟩ : BufTy).Contents (Elt F)),
    binary main_v1 main_v12 main_v13 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 100000#32),
    unary main_c_2 main_v14 (broadcastInDim S1000000 ![] bcast_S_S1000000 : (⟨S_, .i32⟩ : BufTy).Contents (Elt F) → (⟨S1000000, .i32⟩ : BufTy).Contents (Elt F)),
    binary main_v1 main_v14 main_v15 (addi : (⟨S1000000, .i32⟩ : BufTy).Contents (Elt F) → (⟨S1000000, .i32⟩ : BufTy).Contents (Elt F) → (⟨S1000000, .i32⟩ : BufTy).Contents (Elt F)),
    ternary main_v13 main_v15 main_v1 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v16 main_v17 (broadcastInDim S1000000x1 ![0] bcast_S1000000_S1000000x1_0 : (⟨S1000000, .i32⟩ : BufTy).Contents (Elt F) → (⟨S1000000x1, .i32⟩ : BufTy).Contents (Elt F)),
    binary main_v10 main_v17 main_v18 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_3 (constantI S_ 32 0#32),
    unary main_c_3 main_v19 (broadcastInDim S1000000 ![] bcast_S_S1000000 : (⟨S_, .i32⟩ : BufTy).Contents (Elt F) → (⟨S1000000, .i32⟩ : BufTy).Contents (Elt F)),
    binary main_v3 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v21 (broadcastInDim S1000000 ![] bcast_S_S1000000 : (⟨S_, .i32⟩ : BufTy).Contents (Elt F) → (⟨S1000000, .i32⟩ : BufTy).Contents (Elt F)),
    binary main_v3 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_v3 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v23 main_v24 (broadcastInDim S1000000x1 ![0] bcast_S1000000_S1000000x1_0 : (⟨S1000000, .i32⟩ : BufTy).Contents (Elt F) → (⟨S1000000x1, .i32⟩ : BufTy).Contents (Elt F)),
    binary main_v10 main_v24 main_v25 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v18 main_v25 main_v26 (mulf : (⟨S1000000, .f32⟩ : BufTy).Contents (Elt F) → (⟨S1000000, .f32⟩ : BufTy).Contents (Elt F) → (⟨S1000000, .f32⟩ : BufTy).Contents (Elt F)),
    unary main_v26 main_v27 (broadcastInDim S1000000x1 ![0] bcast_S1000000_S1000000x1_0 : (⟨S1000000, .f32⟩ : BufTy).Contents (Elt F) → (⟨S1000000x1, .f32⟩ : BufTy).Contents (Elt F)),
    nullary main_c_5 (constantI S_ 32 0#32),
    unary main_c_5 main_v28 (broadcastInDim S1000000 ![] bcast_S_S1000000 : (⟨S_, .i32⟩ : BufTy).Contents (Elt F) → (⟨S1000000, .i32⟩ : BufTy).Contents (Elt F)),
    binary main_v1 main_v28 main_v29 (cmpi .slt : (⟨S1000000, .i32⟩ : BufTy).Contents (Elt F) → (⟨S1000000, .i32⟩ : BufTy).Contents (Elt F) → (⟨S1000000, .i1⟩ : BufTy).Contents (Elt F)),
    nullary main_c_6 (constantI S_ 32 100000#32),
    unary main_c_6 main_v30 (broadcastInDim S1000000 ![] bcast_S_S1000000 : (⟨S_, .i32⟩ : BufTy).Contents (Elt F) → (⟨S1000000, .i32⟩ : BufTy).Contents (Elt F)),
    binary main_v1 main_v30 main_v31 (addi : (⟨S1000000, .i32⟩ : BufTy).Contents (Elt F) → (⟨S1000000, .i32⟩ : BufTy).Contents (Elt F) → (⟨S1000000, .i32⟩ : BufTy).Contents (Elt F)),
    ternary main_v29 main_v31 main_v1 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v32 main_v33 (broadcastInDim S1000000x1 ![0] bcast_S1000000_S1000000x1_0 : (⟨S1000000, .i32⟩ : BufTy).Contents (Elt F) → (⟨S1000000x1, .i32⟩ : BufTy).Contents (Elt F)),
    binary main_v11 main_v33 main_v34 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v27 main_v35 (broadcastInDim S1000000x64 ![0, 1] bcast_S1000000x1_S1000000x64_0_1 : (⟨S1000000x1, .f32⟩ : BufTy).Contents (Elt F) → (⟨S1000000x64, .f32⟩ : BufTy).Contents (Elt F)),
    binary main_v35 main_v34 main_v36 (mulf : (⟨S1000000x64, .f32⟩ : BufTy).Contents (Elt F) → (⟨S1000000x64, .f32⟩ : BufTy).Contents (Elt F) → (⟨S1000000x64, .f32⟩ : BufTy).Contents (Elt F)),
    nullary main_cst_7 (constant S_ .f32 0x00000000#32),
    unary main_cst_7 main_v37 (broadcastInDim S100000x64 ![] bcast_S_S100000x64 : (⟨S_, .f32⟩ : BufTy).Contents (Elt F) → (⟨S100000x64, .f32⟩ : BufTy).Contents (Elt F)),
    unary main_v3 main_v38 (broadcastInDim S1000000x1 ![0] bcast_S1000000_S1000000x1_0 : (⟨S1000000, .i32⟩ : BufTy).Contents (Elt F) → (⟨S1000000x1, .i32⟩ : BufTy).Contents (Elt F)),
    ternary main_v37 main_v38 main_v36 main_v39 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v10 main_v10 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v42 main_v11 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    TRef.nullary main_call0.cst (constant S_ .f32 0x00000000#32),
    TRef.unary main_call0.cst main_call0.v0 (broadcastInDim S100000x64 ![] bcast_S_S100000x64),
    TRef.binary (.of main_v47 : TRef sig ⟨S100000x64, .f32⟩) main_call0.v0 main_call0.v1 (cmpf .oge),
    TRef.unary (.of main_cst_8 : TRef sig ⟨S_, .f32⟩) main_call0.v2 id,
    TRef.unary main_call0.v2 main_call0.v3 (broadcastInDim S100000x64 ![] bcast_S_S100000x64),
    TRef.binary main_call0.v3 (.of main_v47 : TRef sig ⟨S100000x64, .f32⟩) main_call0.v4 mulf,
    TRef.ternary main_call0.v1 (.of main_v47 : TRef sig ⟨S100000x64, .f32⟩) main_call0.v4 main_call0.call0.v0 select ]

/-- Second GCN layer (64 → 64): projection, normalised message sum over incoming edges, self-loop term, bias, leaky ReLU. (52 operations.) -/
abbrev opsL2 : List (HloOp τ sig (Elt F)) :=
  [ binary main_v48 main_arg5 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v50 (broadcastInDim S1000000 ![] bcast_S_S1000000 : (⟨S_, .i32⟩ : BufTy).Contents (Elt F) → (⟨S1000000, .i32⟩ : BufTy).Contents (Elt F)),
    binary main_v1 main_v50 main_v51 (cmpi .slt : (⟨S1000000, .i32⟩ : BufTy).Contents (Elt F) → (⟨S1000000, .i32⟩ : BufTy).Contents (Elt F) → (⟨S1000000, .i1⟩ : BufTy).Contents (Elt F)),
    nullary main_c_10 (constantI S_ 32 100000#32),
    unary main_c_10 main_v52 (broadcastInDim S1000000 ![] bcast_S_S1000000 : (⟨S_, .i32⟩ : BufTy).Contents (Elt F) → (⟨S1000000, .i32⟩ : BufTy).Contents (Elt F)),
    binary main_v1 main_v52 main_v53 (addi : (⟨S1000000, .i32⟩ : BufTy).Contents (Elt F) → (⟨S1000000, .i32⟩ : BufTy).Contents (Elt F) → (⟨S1000000, .i32⟩ : BufTy).Contents (Elt F)),
    ternary main_v51 main_v53 main_v1 main_v54 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v54 main_v55 (broadcastInDim S1000000x1 ![0] bcast_S1000000_S1000000x1_0 : (⟨S1000000, .i32⟩ : BufTy).Contents (Elt F) → (⟨S1000000x1, .i32⟩ : BufTy).Contents (Elt F)),
    binary main_v10 main_v55 main_v56 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_11 (constantI S_ 32 0#32),
    unary main_c_11 main_v57 (broadcastInDim S1000000 ![] bcast_S_S1000000 : (⟨S_, .i32⟩ : BufTy).Contents (Elt F) → (⟨S1000000, .i32⟩ : BufTy).Contents (Elt F)),
    binary main_v3 main_v57 main_v58 (cmpi .slt : (⟨S1000000, .i32⟩ : BufTy).Contents (Elt F) → (⟨S1000000, .i32⟩ : BufTy).Contents (Elt F) → (⟨S1000000, .i1⟩ : BufTy).Contents (Elt F)),
    nullary main_c_12 (constantI S_ 32 100000#32),
    unary main_c_12 main_v59 (broadcastInDim S1000000 ![] bcast_S_S1000000 : (⟨S_, .i32⟩ : BufTy).Contents (Elt F) → (⟨S1000000, .i32⟩ : BufTy).Contents (Elt F)),
    binary main_v3 main_v59 main_v60 (addi : (⟨S1000000, .i32⟩ : BufTy).Contents (Elt F) → (⟨S1000000, .i32⟩ : BufTy).Contents (Elt F) → (⟨S1000000, .i32⟩ : BufTy).Contents (Elt F)),
    ternary main_v58 main_v60 main_v3 main_v61 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v61 main_v62 (broadcastInDim S1000000x1 ![0] bcast_S1000000_S1000000x1_0 : (⟨S1000000, .i32⟩ : BufTy).Contents (Elt F) → (⟨S1000000x1, .i32⟩ : BufTy).Contents (Elt F)),
    binary main_v10 main_v62 main_v63 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v56 main_v63 main_v64 (mulf : (⟨S1000000, .f32⟩ : BufTy).Contents (Elt F) → (⟨S1000000, .f32⟩ : BufTy).Contents (Elt F) → (⟨S1000000, .f32⟩ : BufTy).Contents (Elt F)),
    unary main_v64 main_v65 (broadcastInDim S1000000x1 ![0] bcast_S1000000_S1000000x1_0 : (⟨S1000000, .f32⟩ : BufTy).Contents (Elt F) → (⟨S1000000x1, .f32⟩ : BufTy).Contents (Elt F)),
    nullary main_c_13 (constantI S_ 32 0#32),
    unary main_c_13 main_v66 (broadcastInDim S1000000 ![] bcast_S_S1000000 : (⟨S_, .i32⟩ : BufTy).Contents (Elt F) → (⟨S1000000, .i32⟩ : BufTy).Contents (Elt F)),
    binary main_v1 main_v66 main_v67 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 100000#32),
    unary main_c_14 main_v68 (broadcastInDim S1000000 ![] bcast_S_S1000000 : (⟨S_, .i32⟩ : BufTy).Contents (Elt F) → (⟨S1000000, .i32⟩ : BufTy).Contents (Elt F)),
    binary main_v1 main_v68 main_v69 (addi : (⟨S1000000, .i32⟩ : BufTy).Contents (Elt F) → (⟨S1000000, .i32⟩ : BufTy).Contents (Elt F) → (⟨S1000000, .i32⟩ : BufTy).Contents (Elt F)),
    ternary main_v67 main_v69 main_v1 main_v70 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v70 main_v71 (broadcastInDim S1000000x1 ![0] bcast_S1000000_S1000000x1_0 : (⟨S1000000, .i32⟩ : BufTy).Contents (Elt F) → (⟨S1000000x1, .i32⟩ : BufTy).Contents (Elt F)),
    binary main_v49 main_v71 main_v72 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v65 main_v73 (broadcastInDim S1000000x64 ![0, 1] bcast_S1000000x1_S1000000x64_0_1 : (⟨S1000000x1, .f32⟩ : BufTy).Contents (Elt F) → (⟨S1000000x64, .f32⟩ : BufTy).Contents (Elt F)),
    binary main_v73 main_v72 main_v74 (mulf : (⟨S1000000x64, .f32⟩ : BufTy).Contents (Elt F) → (⟨S1000000x64, .f32⟩ : BufTy).Contents (Elt F) → (⟨S1000000x64, .f32⟩ : BufTy).Contents (Elt F)),
    nullary main_cst_15 (constant S_ .f32 0x00000000#32),
    unary main_cst_15 main_v75 (broadcastInDim S100000x64 ![] bcast_S_S100000x64 : (⟨S_, .f32⟩ : BufTy).Contents (Elt F) → (⟨S100000x64, .f32⟩ : BufTy).Contents (Elt F)),
    unary main_v3 main_v76 (broadcastInDim S1000000x1 ![0] bcast_S1000000_S1000000x1_0 : (⟨S1000000, .i32⟩ : BufTy).Contents (Elt F) → (⟨S1000000x1, .i32⟩ : BufTy).Contents (Elt F)),
    ternary main_v75 main_v76 main_v74 main_v77 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v10 main_v10 main_v78 (mulf : (⟨S100000, .f32⟩ : BufTy).Contents (Elt F) → (⟨S100000, .f32⟩ : BufTy).Contents (Elt F) → (⟨S100000, .f32⟩ : BufTy).Contents (Elt F)),
    unary main_v78 main_v79 (broadcastInDim S100000x1 ![0] bcast_S100000_S100000x1_0 : (⟨S100000, .f32⟩ : BufTy).Contents (Elt F) → (⟨S100000x1, .f32⟩ : BufTy).Contents (Elt F)),
    unary main_v79 main_v80 (broadcastInDim S100000x64 ![0, 1] bcast_S100000x1_S100000x64_0_1 : (⟨S100000x1, .f32⟩ : BufTy).Contents (Elt F) → (⟨S100000x64, .f32⟩ : BufTy).Contents (Elt F)),
    binary main_v80 main_v49 main_v81 (mulf : (⟨S100000x64, .f32⟩ : BufTy).Contents (Elt F) → (⟨S100000x64, .f32⟩ : BufTy).Contents (Elt F) → (⟨S100000x64, .f32⟩ : BufTy).Contents (Elt F)),
    binary main_v77 main_v81 main_v82 (addf : (⟨S100000x64, .f32⟩ : BufTy).Contents (Elt F) → (⟨S100000x64, .f32⟩ : BufTy).Contents (Elt F) → (⟨S100000x64, .f32⟩ : BufTy).Contents (Elt F)),
    unary main_arg6 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v82 main_v84 main_v85 (addf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x3C23D70A#32),
    TRef.nullary main_call1.cst (constant S_ .f32 0x00000000#32),
    TRef.unary main_call1.cst main_call1.v0 (broadcastInDim S100000x64 ![] bcast_S_S100000x64),
    TRef.binary (.of main_v85 : TRef sig ⟨S100000x64, .f32⟩) main_call1.v0 main_call1.v1 (cmpf .oge),
    TRef.unary (.of main_cst_16 : TRef sig ⟨S_, .f32⟩) main_call1.v2 id,
    TRef.unary main_call1.v2 main_call1.v3 (broadcastInDim S100000x64 ![] bcast_S_S100000x64),
    TRef.binary main_call1.v3 (.of main_v85 : TRef sig ⟨S100000x64, .f32⟩) main_call1.v4 mulf,
    TRef.ternary main_call1.v1 (.of main_v85 : TRef sig ⟨S100000x64, .f32⟩) main_call1.v4 main_call1.call0.v0 select ]

/-- Third GCN layer (64 → 64): projection, normalised message sum over incoming edges, self-loop term, bias, leaky ReLU. (52 operations.) -/
abbrev opsL3 : List (HloOp τ sig (Elt F)) :=
  [ binary main_v86 main_arg7 main_v87 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_17 (constantI S_ 32 0#32),
    unary main_c_17 main_v88 (broadcastInDim S1000000 ![] bcast_S_S1000000 : (⟨S_, .i32⟩ : BufTy).Contents (Elt F) → (⟨S1000000, .i32⟩ : BufTy).Contents (Elt F)),
    binary main_v1 main_v88 main_v89 (cmpi .slt : (⟨S1000000, .i32⟩ : BufTy).Contents (Elt F) → (⟨S1000000, .i32⟩ : BufTy).Contents (Elt F) → (⟨S1000000, .i1⟩ : BufTy).Contents (Elt F)),
    nullary main_c_18 (constantI S_ 32 100000#32),
    unary main_c_18 main_v90 (broadcastInDim S1000000 ![] bcast_S_S1000000 : (⟨S_, .i32⟩ : BufTy).Contents (Elt F) → (⟨S1000000, .i32⟩ : BufTy).Contents (Elt F)),
    binary main_v1 main_v90 main_v91 (addi : (⟨S1000000, .i32⟩ : BufTy).Contents (Elt F) → (⟨S1000000, .i32⟩ : BufTy).Contents (Elt F) → (⟨S1000000, .i32⟩ : BufTy).Contents (Elt F)),
    ternary main_v89 main_v91 main_v1 main_v92 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v92 main_v93 (broadcastInDim S1000000x1 ![0] bcast_S1000000_S1000000x1_0 : (⟨S1000000, .i32⟩ : BufTy).Contents (Elt F) → (⟨S1000000x1, .i32⟩ : BufTy).Contents (Elt F)),
    binary main_v10 main_v93 main_v94 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_19 (constantI S_ 32 0#32),
    unary main_c_19 main_v95 (broadcastInDim S1000000 ![] bcast_S_S1000000 : (⟨S_, .i32⟩ : BufTy).Contents (Elt F) → (⟨S1000000, .i32⟩ : BufTy).Contents (Elt F)),
    binary main_v3 main_v95 main_v96 (cmpi .slt : (⟨S1000000, .i32⟩ : BufTy).Contents (Elt F) → (⟨S1000000, .i32⟩ : BufTy).Contents (Elt F) → (⟨S1000000, .i1⟩ : BufTy).Contents (Elt F)),
    nullary main_c_20 (constantI S_ 32 100000#32),
    unary main_c_20 main_v97 (broadcastInDim S1000000 ![] bcast_S_S1000000 : (⟨S_, .i32⟩ : BufTy).Contents (Elt F) → (⟨S1000000, .i32⟩ : BufTy).Contents (Elt F)),
    binary main_v3 main_v97 main_v98 (addi : (⟨S1000000, .i32⟩ : BufTy).Contents (Elt F) → (⟨S1000000, .i32⟩ : BufTy).Contents (Elt F) → (⟨S1000000, .i32⟩ : BufTy).Contents (Elt F)),
    ternary main_v96 main_v98 main_v3 main_v99 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v99 main_v100 (broadcastInDim S1000000x1 ![0] bcast_S1000000_S1000000x1_0 : (⟨S1000000, .i32⟩ : BufTy).Contents (Elt F) → (⟨S1000000x1, .i32⟩ : BufTy).Contents (Elt F)),
    binary main_v10 main_v100 main_v101 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v94 main_v101 main_v102 (mulf : (⟨S1000000, .f32⟩ : BufTy).Contents (Elt F) → (⟨S1000000, .f32⟩ : BufTy).Contents (Elt F) → (⟨S1000000, .f32⟩ : BufTy).Contents (Elt F)),
    unary main_v102 main_v103 (broadcastInDim S1000000x1 ![0] bcast_S1000000_S1000000x1_0 : (⟨S1000000, .f32⟩ : BufTy).Contents (Elt F) → (⟨S1000000x1, .f32⟩ : BufTy).Contents (Elt F)),
    nullary main_c_21 (constantI S_ 32 0#32),
    unary main_c_21 main_v104 (broadcastInDim S1000000 ![] bcast_S_S1000000 : (⟨S_, .i32⟩ : BufTy).Contents (Elt F) → (⟨S1000000, .i32⟩ : BufTy).Contents (Elt F)),
    binary main_v1 main_v104 main_v105 (cmpi .slt : (⟨S1000000, .i32⟩ : BufTy).Contents (Elt F) → (⟨S1000000, .i32⟩ : BufTy).Contents (Elt F) → (⟨S1000000, .i1⟩ : BufTy).Contents (Elt F)),
    nullary main_c_22 (constantI S_ 32 100000#32),
    unary main_c_22 main_v106 (broadcastInDim S1000000 ![] bcast_S_S1000000 : (⟨S_, .i32⟩ : BufTy).Contents (Elt F) → (⟨S1000000, .i32⟩ : BufTy).Contents (Elt F)),
    binary main_v1 main_v106 main_v107 (addi : (⟨S1000000, .i32⟩ : BufTy).Contents (Elt F) → (⟨S1000000, .i32⟩ : BufTy).Contents (Elt F) → (⟨S1000000, .i32⟩ : BufTy).Contents (Elt F)),
    ternary main_v105 main_v107 main_v1 main_v108 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v108 main_v109 (broadcastInDim S1000000x1 ![0] bcast_S1000000_S1000000x1_0 : (⟨S1000000, .i32⟩ : BufTy).Contents (Elt F) → (⟨S1000000x1, .i32⟩ : BufTy).Contents (Elt F)),
    binary main_v87 main_v109 main_v110 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v103 main_v111 (broadcastInDim S1000000x64 ![0, 1] bcast_S1000000x1_S1000000x64_0_1 : (⟨S1000000x1, .f32⟩ : BufTy).Contents (Elt F) → (⟨S1000000x64, .f32⟩ : BufTy).Contents (Elt F)),
    binary main_v111 main_v110 main_v112 (mulf : (⟨S1000000x64, .f32⟩ : BufTy).Contents (Elt F) → (⟨S1000000x64, .f32⟩ : BufTy).Contents (Elt F) → (⟨S1000000x64, .f32⟩ : BufTy).Contents (Elt F)),
    nullary main_cst_23 (constant S_ .f32 0x00000000#32),
    unary main_cst_23 main_v113 (broadcastInDim S100000x64 ![] bcast_S_S100000x64 : (⟨S_, .f32⟩ : BufTy).Contents (Elt F) → (⟨S100000x64, .f32⟩ : BufTy).Contents (Elt F)),
    unary main_v3 main_v114 (broadcastInDim S1000000x1 ![0] bcast_S1000000_S1000000x1_0 : (⟨S1000000, .i32⟩ : BufTy).Contents (Elt F) → (⟨S1000000x1, .i32⟩ : BufTy).Contents (Elt F)),
    ternary main_v113 main_v114 main_v112 main_v115 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    binary main_v10 main_v10 main_v116 (mulf : (⟨S100000, .f32⟩ : BufTy).Contents (Elt F) → (⟨S100000, .f32⟩ : BufTy).Contents (Elt F) → (⟨S100000, .f32⟩ : BufTy).Contents (Elt F)),
    unary main_v116 main_v117 (broadcastInDim S100000x1 ![0] bcast_S100000_S100000x1_0 : (⟨S100000, .f32⟩ : BufTy).Contents (Elt F) → (⟨S100000x1, .f32⟩ : BufTy).Contents (Elt F)),
    unary main_v117 main_v118 (broadcastInDim S100000x64 ![0, 1] bcast_S100000x1_S100000x64_0_1 : (⟨S100000x1, .f32⟩ : BufTy).Contents (Elt F) → (⟨S100000x64, .f32⟩ : BufTy).Contents (Elt F)),
    binary main_v118 main_v87 main_v119 (mulf : (⟨S100000x64, .f32⟩ : BufTy).Contents (Elt F) → (⟨S100000x64, .f32⟩ : BufTy).Contents (Elt F) → (⟨S100000x64, .f32⟩ : BufTy).Contents (Elt F)),
    binary main_v115 main_v119 main_v120 (addf : (⟨S100000x64, .f32⟩ : BufTy).Contents (Elt F) → (⟨S100000x64, .f32⟩ : BufTy).Contents (Elt F) → (⟨S100000x64, .f32⟩ : BufTy).Contents (Elt F)),
    unary main_arg8 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v120 main_v122 main_v123 (addf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3C23D70A#32),
    TRef.nullary main_call2.cst (constant S_ .f32 0x00000000#32),
    TRef.unary main_call2.cst main_call2.v0 (broadcastInDim S100000x64 ![] bcast_S_S100000x64),
    TRef.binary (.of main_v123 : TRef sig ⟨S100000x64, .f32⟩) main_call2.v0 main_call2.v1 (cmpf .oge),
    TRef.unary (.of main_cst_24 : TRef sig ⟨S_, .f32⟩) main_call2.v2 id,
    TRef.unary main_call2.v2 main_call2.v3 (broadcastInDim S100000x64 ![] bcast_S_S100000x64),
    TRef.binary main_call2.v3 (.of main_v123 : TRef sig ⟨S100000x64, .f32⟩) main_call2.v4 mulf,
    TRef.ternary main_call2.v1 (.of main_v123 : TRef sig ⟨S100000x64, .f32⟩) main_call2.v4 main_call2.call0.v0 select ]

/-- Mean pooling per graph: the sum of the node rows of each graph (scatter-sum over the graph index), the node count of each graph (scatter-sum of ones), clamped below by one, and the quotient. (16 operations.) -/
abbrev opsPool : List (HloOp τ sig (Elt F)) :=
  [ nullary main_cst_25 (constant S_ .f32 0x00000000#32),
    unary main_cst_25 main_v125 (broadcastInDim S2000x64 ![] bcast_S_S2000x64 : (⟨S_, .f32⟩ : BufTy).Contents (Elt F) → (⟨S2000x64, .f32⟩ : BufTy).Contents (Elt F)),
    unary main_arg2 main_v126 (broadcastInDim S100000x1 ![0] bcast_S100000_S100000x1_0 : (⟨S100000, .i32⟩ : BufTy).Contents (Elt F) → (⟨S100000x1, .i32⟩ : BufTy).Contents (Elt F)),
    ternary main_v125 main_v126 main_v124 main_v127 ((fun x i u => Host.scatterAdd scatter_S2000x64_S100000x1_S100000x64_1_0_0_1 x i u) : (⟨S2000x64, .f32⟩ : BufTy).Contents (Elt F) → (⟨S100000x1, .i32⟩ : BufTy).Contents (Elt F) → (⟨S100000x64, .f32⟩ : BufTy).Contents (Elt F) → (⟨S2000x64, .f32⟩ : BufTy).Contents (Elt F)),
    nullary main_cst_26 (constant S_ .f32 0x3F800000#32),
    unary main_cst_26 main_v128 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v129 (broadcastInDim S2000 ![] bcast_S_S2000 : (⟨S_, .f32⟩ : BufTy).Contents (Elt F) → (⟨S2000, .f32⟩ : BufTy).Contents (Elt F)),
    unary main_arg2 main_v130 (broadcastInDim S100000x1 ![0] bcast_S100000_S100000x1_0 : (⟨S100000, .i32⟩ : BufTy).Contents (Elt F) → (⟨S100000x1, .i32⟩ : BufTy).Contents (Elt F)),
    ternary main_v129 main_v130 main_v128 main_v131 ((fun x i u => Host.scatterAdd scatter_S2000_S100000x1_S100000_n_0_0_1 x i u) : (⟨S2000, .f32⟩ : BufTy).Contents (Elt F) → (⟨S100000x1, .i32⟩ : BufTy).Contents (Elt F) → (⟨S100000, .f32⟩ : BufTy).Contents (Elt F) → (⟨S2000, .f32⟩ : BufTy).Contents (Elt F)),
    nullary main_cst_28 (constant S_ .f32 0x3F800000#32),
    unary main_cst_28 main_v132 (broadcastInDim S2000 ![] bcast_S_S2000 : (⟨S_, .f32⟩ : BufTy).Contents (Elt F) → (⟨S2000, .f32⟩ : BufTy).Contents (Elt F)),
    binary main_v131 main_v132 main_v133 (maximumf : (⟨S2000, .f32⟩ : BufTy).Contents (Elt F) → (⟨S2000, .f32⟩ : BufTy).Contents (Elt F) → (⟨S2000, .f32⟩ : BufTy).Contents (Elt F)),
    unary main_v133 main_v134 (broadcastInDim S2000x1 ![0] bcast_S2000_S2000x1_0 : (⟨S2000, .f32⟩ : BufTy).Contents (Elt F) → (⟨S2000x1, .f32⟩ : BufTy).Contents (Elt F)),
    unary main_v134 main_v135 (broadcastInDim S2000x64 ![0, 1] bcast_S2000x1_S2000x64_0_1 : (⟨S2000x1, .f32⟩ : BufTy).Contents (Elt F) → (⟨S2000x64, .f32⟩ : BufTy).Contents (Elt F)),
    binary main_v127 main_v135 main_v136 (Host.divf : (⟨S2000x64, .f32⟩ : BufTy).Contents (Elt F) → (⟨S2000x64, .f32⟩ : BufTy).Contents (Elt F) → (⟨S2000x64, .f32⟩ : BufTy).Contents (Elt F)) ]

/-- The two-layer head: a 64 → 64 projection with bias, leaky ReLU, the 64 → 1 projection with bias, and the result reshaped to one value per graph. (17 operations.) -/
abbrev opsHead : List (HloOp τ sig (Elt F)) :=
  [ binary main_v136 main_arg9 main_v137 ((fun l r => Host.dotGeneral dot_S2000x64_S64x64_S2000x64_1_0_0_1_n_n none l r) : (⟨S2000x64, .f32⟩ : BufTy).Contents (Elt F) → (⟨S64x64, .f32⟩ : BufTy).Contents (Elt F) → (⟨S2000x64, .f32⟩ : BufTy).Contents (Elt F)),
    unary main_arg10 main_v138 (broadcastInDim S1x64 ![1] bcast_S64_S1x64_1 : (⟨S64, .f32⟩ : BufTy).Contents (Elt F) → (⟨S1x64, .f32⟩ : BufTy).Contents (Elt F)),
    unary main_v138 main_v139 (broadcastInDim S2000x64 ![0, 1] bcast_S1x64_S2000x64_0_1 : (⟨S1x64, .f32⟩ : BufTy).Contents (Elt F) → (⟨S2000x64, .f32⟩ : BufTy).Contents (Elt F)),
    binary main_v137 main_v139 main_v140 (addf : (⟨S2000x64, .f32⟩ : BufTy).Contents (Elt F) → (⟨S2000x64, .f32⟩ : BufTy).Contents (Elt F) → (⟨S2000x64, .f32⟩ : BufTy).Contents (Elt F)),
    nullary main_cst_29 (constant S_ .f32 0x3C23D70A#32),
    TRef.nullary main_call3.cst (constant S_ .f32 0x00000000#32),
    TRef.unary main_call3.cst main_call3.v0 (broadcastInDim S2000x64 ![] bcast_S_S2000x64),
    TRef.binary (.of main_v140 : TRef sig ⟨S2000x64, .f32⟩) main_call3.v0 main_call3.v1 (cmpf .oge),
    TRef.unary (.of main_cst_29 : TRef sig ⟨S_, .f32⟩) main_call3.v2 id,
    TRef.unary main_call3.v2 main_call3.v3 (broadcastInDim S2000x64 ![] bcast_S_S2000x64),
    TRef.binary main_call3.v3 (.of main_v140 : TRef sig ⟨S2000x64, .f32⟩) main_call3.v4 mulf,
    TRef.ternary main_call3.v1 (.of main_v140 : TRef sig ⟨S2000x64, .f32⟩) main_call3.v4 main_call3.call0.v0 select,
    binary main_v141 main_arg11 main_v142 ((fun l r => Host.dotGeneral dot_S2000x64_S64x1_S2000x1_1_0_0_1_n_n none l r) : (⟨S2000x64, .f32⟩ : BufTy).Contents (Elt F) → (⟨S64x1, .f32⟩ : BufTy).Contents (Elt F) → (⟨S2000x1, .f32⟩ : BufTy).Contents (Elt F)),
    unary main_arg12 main_v143 (broadcastInDim S1x1 ![1] bcast_S1_S1x1_1 : (⟨S1, .f32⟩ : BufTy).Contents (Elt F) → (⟨S1x1, .f32⟩ : BufTy).Contents (Elt F)),
    unary main_v143 main_v144 (broadcastInDim S2000x1 ![0, 1] bcast_S1x1_S2000x1_0_1 : (⟨S1x1, .f32⟩ : BufTy).Contents (Elt F) → (⟨S2000x1, .f32⟩ : BufTy).Contents (Elt F)),
    binary main_v142 main_v144 main_v145 (addf : (⟨S2000x1, .f32⟩ : BufTy).Contents (Elt F) → (⟨S2000x1, .f32⟩ : BufTy).Contents (Elt F) → (⟨S2000x1, .f32⟩ : BufTy).Contents (Elt F)),
    reshape main_v145 main_v146 rfl shapeCasts_S2000x1_S2000 ]

/-- @main's operations in order, the calls unfolded: the six chunks one after the other. -/
abbrev ops : List (HloOp τ sig (Elt F)) := opsDeg ++ opsL1 ++ opsL2 ++ opsL3 ++ opsPool ++ opsHead

/-- The fold over a concatenation is the fold over the second line from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- two hundred and three binds re-associated: the rewrite under the chain recurses once per statement
set_option maxRecDepth 8192 in
set_option maxHeartbeats 4000000 in
/-- @main is that straight line: its three windows in order, the functions' definitions unfolded at their calls
    and the records at their fields; the line of the concatenated chunks is the chunks' lines in order
    (`seq_append`), and both sides are one chain of `hlo` steps once sequencing is reassociated. -/
theorem main_eq (c : Dev nD) : main (F := F) c = seq ops := by
  simp only [main, main_part0, main_part1, main_part2, fn_leaky_relu.body, fn_where.body, fn_leaky_relu_0.body,
    fn_where_1.body, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and determines its results: chunk by chunk, one fact
    per operation in order, then for the concatenation. -/

theorem opsDeg_sub : (opsDeg : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub ..⟩
theorem opsDeg_fresh : (opsDeg : List (HloOp τ sig (Elt F))).Forall fun op => op.fresh = ∅ :=
  ⟨rfl, rfl, rfl, rfl, rfl, rfl, rfl, rfl, rfl, rfl, rfl, rfl, rfl, rfl⟩

theorem opsL1_sub : (opsL1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    binary_bufs_sub .., unary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem opsL2_sub : (opsL2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    binary_bufs_sub .., unary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem opsL3_sub : (opsL3 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    binary_bufs_sub .., unary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem opsPool_sub : (opsPool : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..⟩
theorem opsPool_fresh : (opsPool : List (HloOp τ sig (Elt F))).Forall fun op => op.fresh = ∅ :=
  ⟨rfl, rfl, rfl, rfl, rfl, rfl, rfl, rfl, rfl, rfl, rfl, rfl, rfl, rfl, rfl, rfl⟩

theorem opsHead_sub : (opsHead : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., reshape_bufs_sub ..⟩
theorem opsHead_fresh : (opsHead : List (HloOp τ sig (Elt F))).Forall fun op => op.fresh = ∅ :=
  ⟨rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.2 ⟨List.forall_append.2 ⟨List.forall_append.2 ⟨List.forall_append.2 ⟨List.forall_append.2
    ⟨opsDeg_sub, opsL1_sub⟩, opsL2_sub⟩, opsL3_sub⟩, opsPool_sub⟩, opsHead_sub⟩

theorem ops_fresh : (ops : List (HloOp τ sig (Elt F))).Forall fun op => op.fresh = ∅ :=
  List.forall_append.2 ⟨List.forall_append.2 ⟨List.forall_append.2 ⟨List.forall_append.2 ⟨List.forall_append.2
    ⟨opsDeg_fresh, opsL1_fresh⟩, opsL2_fresh⟩, opsL3_fresh⟩, opsPool_fresh⟩, opsHead_fresh⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RefRun

end
-- ==== Proof.RefValue.lean ====
/-
  The reference's run, read back: what each chunk of the reference's line leaves in the buffers later chunks and
  the result read, as the network's definitions (degree normalisation, three graph-convolution layers, mean
  pooling, the head) of the contents before the chunk; that a chunk leaves every buffer it does not write as it
  was; and, assembled chunk by chunk, the result buffer after the whole line as the network of the arguments,
  the arguments unchanged.
-/
import proofs.«112680_j2370821947637_1_alg».proof.Proof.RefRun
import proofs.«112680_j2370821947637_1_alg».proof.Proof.Spec

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## What a chunk does not write, it keeps -/

/-- An operation that writes the one buffer `y`, a member of the list `W`, writes within `W`. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers `opsDeg` writes, in order. -/
abbrev wDeg : List (Ref sig .tc) :=
  [main_v0, main_v1, main_v2, main_v3, main_cst, main_v4, main_cst_0, main_v5, main_v6, main_v7,
   main_cst_1, main_v8, main_v9, main_v10]

/-- The buffers `opsL1` writes, in order. -/
abbrev wL1 : List (Ref sig .tc) :=
  [main_v11, main_c, main_v12, main_v13, main_c_2, main_v14, main_v15, main_v16, main_v17, main_v18,
   main_c_3, main_v19, main_v20, main_c_4, main_v21, main_v22, main_v23, main_v24, main_v25, main_v26,
   main_v27, main_c_5, main_v28, main_v29, main_c_6, main_v30, main_v31, main_v32, main_v33, main_v34,
   main_v35, main_v36, main_cst_7, main_v37, main_v38, main_v39, main_v40, main_v41, main_v42, main_v43,
   main_v44, main_v45, main_v46, main_v47, main_cst_8, main_call0_cst, main_call0_v0, main_call0_v1, main_call0_v2, main_call0_v3,
   main_call0_v4, main_v48]

/-- The buffers `opsL2` writes, in order. -/
abbrev wL2 : List (Ref sig .tc) :=
  [main_v49, main_c_9, main_v50, main_v51, main_c_10, main_v52, main_v53, main_v54, main_v55, main_v56,
   main_c_11, main_v57, main_v58, main_c_12, main_v59, main_v60, main_v61, main_v62, main_v63, main_v64,
   main_v65, main_c_13, main_v66, main_v67, main_c_14, main_v68, main_v69, main_v70, main_v71, main_v72,
   main_v73, main_v74, main_cst_15, main_v75, main_v76, main_v77, main_v78, main_v79, main_v80, main_v81,
   main_v82, main_v83, main_v84, main_v85, main_cst_16, main_call1_cst, main_call1_v0, main_call1_v1, main_call1_v2, main_call1_v3,
   main_call1_v4, main_v86]

/-- The buffers `opsL3` writes, in order. -/
abbrev wL3 : List (Ref sig .tc) :=
  [main_v87, main_c_17, main_v88, main_v89, main_c_18, main_v90, main_v91, main_v92, main_v93, main_v94,
   main_c_19, main_v95, main_v96, main_c_20, main_v97, main_v98, main_v99, main_v100, main_v101, main_v102,
   main_v103, main_c_21, main_v104, main_v105, main_c_22, main_v106, main_v107, main_v108, main_v109, main_v110,
   main_v111, main_v112, main_cst_23, main_v113, main_v114, main_v115, main_v116, main_v117, main_v118, main_v119,
   main_v120, main_v121, main_v122, main_v123, main_cst_24, main_call2_cst, main_call2_v0, main_call2_v1, main_call2_v2, main_call2_v3,
   main_call2_v4, main_v124]

/-- The buffers `opsPool` writes, in order. -/
abbrev wPool : List (Ref sig .tc) :=
  [main_cst_25, main_v125, main_v126, main_v127, main_cst_26, main_v128, main_cst_27, main_v129, main_v130, main_v131,
   main_cst_28, main_v132, main_v133, main_v134, main_v135, main_v136]

/-- The buffers `opsHead` writes, in order. -/
abbrev wHead : List (Ref sig .tc) :=
  [main_v137, main_v138, main_v139, main_v140, main_cst_29, main_call3_cst, main_call3_v0, main_call3_v1, main_call3_v2, main_call3_v3,
   main_call3_v4, main_v141, main_v142, main_v143, main_v144, main_v145, main_v146]

theorem wDeg_sub : (opsDeg : List (HloOp τ sig (Elt F))).Forall fun op => op.writes ⊆ ((wDeg).map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

/-- `opsDeg` leaves a buffer it does not write as it was. -/
theorem keep_opsDeg {r : Ref sig .tc} (hr : r ∉ wDeg) (V : Valuation τ sig (Elt F)) :
    after opsDeg V (r : DevRef τ sig) = V (r : DevRef τ sig) :=
  after_of_writes_sub opsDeg V wDeg_sub hr

theorem wL1_sub : (opsL1 : List (HloOp τ sig (Elt F))).Forall fun op => op.writes ⊆ ((wL1).map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

/-- `opsL1` leaves a buffer it does not write as it was. -/
theorem keep_opsL1 {r : Ref sig .tc} (hr : r ∉ wL1) (V : Valuation τ sig (Elt F)) :
    after opsL1 V (r : DevRef τ sig) = V (r : DevRef τ sig) :=
  after_of_writes_sub opsL1 V wL1_sub hr

theorem wL2_sub : (opsL2 : List (HloOp τ sig (Elt F))).Forall fun op => op.writes ⊆ ((wL2).map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

/-- `opsL2` leaves a buffer it does not write as it was. -/
theorem keep_opsL2 {r : Ref sig .tc} (hr : r ∉ wL2) (V : Valuation τ sig (Elt F)) :
    after opsL2 V (r : DevRef τ sig) = V (r : DevRef τ sig) :=
  after_of_writes_sub opsL2 V wL2_sub hr

theorem wL3_sub : (opsL3 : List (HloOp τ sig (Elt F))).Forall fun op => op.writes ⊆ ((wL3).map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

/-- `opsL3` leaves a buffer it does not write as it was. -/
theorem keep_opsL3 {r : Ref sig .tc} (hr : r ∉ wL3) (V : Valuation τ sig (Elt F)) :
    after opsL3 V (r : DevRef τ sig) = V (r : DevRef τ sig) :=
  after_of_writes_sub opsL3 V wL3_sub hr

theorem wPool_sub : (opsPool : List (HloOp τ sig (Elt F))).Forall fun op => op.writes ⊆ ((wPool).map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide)⟩

/-- `opsPool` leaves a buffer it does not write as it was. -/
theorem keep_opsPool {r : Ref sig .tc} (hr : r ∉ wPool) (V : Valuation τ sig (Elt F)) :
    after opsPool V (r : DevRef τ sig) = V (r : DevRef τ sig) :=
  after_of_writes_sub opsPool V wPool_sub hr

theorem wHead_sub : (opsHead : List (HloOp τ sig (Elt F))).Forall fun op => op.writes ⊆ ((wHead).map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

/-- `opsHead` leaves a buffer it does not write as it was. -/
theorem keep_opsHead {r : Ref sig .tc} (hr : r ∉ wHead) (V : Valuation τ sig (Elt F)) :
    after opsHead V (r : DevRef τ sig) = V (r : DevRef τ sig) :=
  after_of_writes_sub opsHead V wHead_sub hr

/-! ## The chunks, read

Each chunk's fold at the buffer later chunks read, over any contents `V` before it: the fold unrolled, each
operation's result at its own buffer its function's value and elsewhere what was there; what is left is the
network's definition at `V`'s buffers, by unfolding. -/

/-- The source indices: row 0 of the edge table, as a vector. -/
theorem deg_v1 (V : Valuation τ sig (Elt F)) :
    after opsDeg V (main_v1 : DevRef τ sig) = Cert.Gcn.srcOf (V (main_arg1 : DevRef τ sig)) := by
  after_results; rfl

/-- The destination indices: row 1 of the edge table, as a vector. -/
theorem deg_v3 (V : Valuation τ sig (Elt F)) :
    after opsDeg V (main_v3 : DevRef τ sig) = Cert.Gcn.dstOf (V (main_arg1 : DevRef τ sig)) := by
  after_results; rfl

/-- The degree normalisation: the reciprocal square root of one plus the in-degree. -/
theorem deg_v10 (V : Valuation τ sig (Elt F)) :
    after opsDeg V (main_v10 : DevRef τ sig) = Cert.Gcn.dis (Cert.Gcn.dstOf (V (main_arg1 : DevRef τ sig))) := by
  after_results; rfl

set_option maxRecDepth 8192 in
set_option maxHeartbeats 1000000 in
/-- The first layer, over the index vectors and the normalisation the chunk reads: the projection of the features, the messages weighted by the two end points' normalisations and summed over incoming edges, the self-loop term, the bias, leaky ReLU. -/
theorem L1_v48 (V : Valuation τ sig (Elt F)) :
    after opsL1 V (main_v48 : DevRef τ sig)
      = Cert.Gcn.layerWith (Cert.Gcn.colOfEdges (Cert.Gcn.normv (V (main_v1 : DevRef τ sig)) (V (main_v3 : DevRef τ sig)) (V (main_v10 : DevRef τ sig))))
          (Cert.Gcn.colOfNodes (mulf (V (main_v10 : DevRef τ sig)) (V (main_v10 : DevRef τ sig))))
          (Cert.Gcn.lin163 (V (main_arg0 : DevRef τ sig)) (V (main_arg3 : DevRef τ sig))) (V (main_v1 : DevRef τ sig)) (V (main_v3 : DevRef τ sig)) (V (main_arg4 : DevRef τ sig)) := by
  after_results_simp
  rfl

/-- The same with the normalisation recomputed from the destinations, where the buffer read holds it. -/
theorem L1_v48_layer (V : Valuation τ sig (Elt F)) (h10 : V (main_v10 : DevRef τ sig) = Cert.Gcn.dis (V (main_v3 : DevRef τ sig))) :
    after opsL1 V (main_v48 : DevRef τ sig) = Cert.Gcn.layer (Cert.Gcn.lin163 (V (main_arg0 : DevRef τ sig)) (V (main_arg3 : DevRef τ sig))) (V (main_v1 : DevRef τ sig)) (V (main_v3 : DevRef τ sig)) (V (main_arg4 : DevRef τ sig)) := by
  rw [L1_v48, h10]
  rfl

set_option maxRecDepth 8192 in
set_option maxHeartbeats 1000000 in
/-- The second layer, on the first layer's result. -/
theorem L2_v86 (V : Valuation τ sig (Elt F)) :
    after opsL2 V (main_v86 : DevRef τ sig)
      = Cert.Gcn.layerWith (Cert.Gcn.colOfEdges (Cert.Gcn.normv (V (main_v1 : DevRef τ sig)) (V (main_v3 : DevRef τ sig)) (V (main_v10 : DevRef τ sig))))
          (Cert.Gcn.colOfNodes (mulf (V (main_v10 : DevRef τ sig)) (V (main_v10 : DevRef τ sig))))
          (Cert.Gcn.lin64 (V (main_v48 : DevRef τ sig)) (V (main_arg5 : DevRef τ sig))) (V (main_v1 : DevRef τ sig)) (V (main_v3 : DevRef τ sig)) (V (main_arg6 : DevRef τ sig)) := by
  after_results_simp
  rfl

/-- The same with the normalisation recomputed from the destinations, where the buffer read holds it. -/
theorem L2_v86_layer (V : Valuation τ sig (Elt F)) (h10 : V (main_v10 : DevRef τ sig) = Cert.Gcn.dis (V (main_v3 : DevRef τ sig))) :
    after opsL2 V (main_v86 : DevRef τ sig) = Cert.Gcn.layer (Cert.Gcn.lin64 (V (main_v48 : DevRef τ sig)) (V (main_arg5 : DevRef τ sig))) (V (main_v1 : DevRef τ sig)) (V (main_v3 : DevRef τ sig)) (V (main_arg6 : DevRef τ sig)) := by
  rw [L2_v86, h10]
  rfl

set_option maxRecDepth 8192 in
set_option maxHeartbeats 1000000 in
/-- The third layer, on the second layer's result. -/
theorem L3_v124 (V : Valuation τ sig (Elt F)) :
    after opsL3 V (main_v124 : DevRef τ sig)
      = Cert.Gcn.layerWith (Cert.Gcn.colOfEdges (Cert.Gcn.normv (V (main_v1 : DevRef τ sig)) (V (main_v3 : DevRef τ sig)) (V (main_v10 : DevRef τ sig))))
          (Cert.Gcn.colOfNodes (mulf (V (main_v10 : DevRef τ sig)) (V (main_v10 : DevRef τ sig))))
          (Cert.Gcn.lin64 (V (main_v86 : DevRef τ sig)) (V (main_arg7 : DevRef τ sig))) (V (main_v1 : DevRef τ sig)) (V (main_v3 : DevRef τ sig)) (V (main_arg8 : DevRef τ sig)) := by
  after_results_simp
  rfl

/-- The same with the normalisation recomputed from the destinations, where the buffer read holds it. -/
theorem L3_v124_layer (V : Valuation τ sig (Elt F)) (h10 : V (main_v10 : DevRef τ sig) = Cert.Gcn.dis (V (main_v3 : DevRef τ sig))) :
    after opsL3 V (main_v124 : DevRef τ sig) = Cert.Gcn.layer (Cert.Gcn.lin64 (V (main_v86 : DevRef τ sig)) (V (main_arg7 : DevRef τ sig))) (V (main_v1 : DevRef τ sig)) (V (main_v3 : DevRef τ sig)) (V (main_arg8 : DevRef τ sig)) := by
  rw [L3_v124, h10]
  rfl

/-- Mean pooling: each graph's sum of node rows over its node count, the count at least one. -/
theorem pool_v136 (V : Valuation τ sig (Elt F)) :
    after opsPool V (main_v136 : DevRef τ sig) = Cert.Gcn.pooled (V (main_v124 : DevRef τ sig)) (V (main_arg2 : DevRef τ sig)) := by
  after_results; rfl

set_option maxRecDepth 8192 in
/-- The head on the pooled rows, as a vector over the graphs. -/
theorem head_v146 (V : Valuation τ sig (Elt F)) :
    after opsHead V (main_v146 : DevRef τ sig)
      = Cert.Gcn.flat (Cert.Gcn.head (V (main_v136 : DevRef τ sig)) (V (main_arg9 : DevRef τ sig)) (V (main_arg10 : DevRef τ sig)) (V (main_arg11 : DevRef τ sig)) (V (main_arg12 : DevRef τ sig))) := by
  after_results_simp
  rfl

/-! ## The whole line

The fold over the concatenation is the folds in order (`after_append`); each chunk's result is read by the
lemmas above and every other buffer a later chunk reads is carried back, chunk by chunk, to the contents at
launch. -/

/-- The line leaves a buffer none of its chunks writes as it was. -/
theorem keep_ops {r : Ref sig .tc} (h0 : r ∉ wDeg) (h1 : r ∉ wL1) (h2 : r ∉ wL2) (h3 : r ∉ wL3) (h4 : r ∉ wPool)
    (h5 : r ∉ wHead) (V : Valuation τ sig (Elt F)) :
    after ops V (r : DevRef τ sig) = V (r : DevRef τ sig) := by
  simp only [ops, after_append]
  rw [keep_opsHead h5, keep_opsPool h4, keep_opsL3 h3, keep_opsL2 h2, keep_opsL1 h1, keep_opsDeg h0]

theorem keep_arg0 (V : Valuation τ sig (Elt F)) : after ops V (main_arg0 : DevRef τ sig) = V (main_arg0 : DevRef τ sig) :=
  keep_ops (by decide) (by decide) (by decide) (by decide) (by decide) (by decide) V
theorem keep_arg1 (V : Valuation τ sig (Elt F)) : after ops V (main_arg1 : DevRef τ sig) = V (main_arg1 : DevRef τ sig) :=
  keep_ops (by decide) (by decide) (by decide) (by decide) (by decide) (by decide) V
theorem keep_arg2 (V : Valuation τ sig (Elt F)) : after ops V (main_arg2 : DevRef τ sig) = V (main_arg2 : DevRef τ sig) :=
  keep_ops (by decide) (by decide) (by decide) (by decide) (by decide) (by decide) V
theorem keep_arg3 (V : Valuation τ sig (Elt F)) : after ops V (main_arg3 : DevRef τ sig) = V (main_arg3 : DevRef τ sig) :=
  keep_ops (by decide) (by decide) (by decide) (by decide) (by decide) (by decide) V
theorem keep_arg4 (V : Valuation τ sig (Elt F)) : after ops V (main_arg4 : DevRef τ sig) = V (main_arg4 : DevRef τ sig) :=
  keep_ops (by decide) (by decide) (by decide) (by decide) (by decide) (by decide) V
theorem keep_arg5 (V : Valuation τ sig (Elt F)) : after ops V (main_arg5 : DevRef τ sig) = V (main_arg5 : DevRef τ sig) :=
  keep_ops (by decide) (by decide) (by decide) (by decide) (by decide) (by decide) V
theorem keep_arg6 (V : Valuation τ sig (Elt F)) : after ops V (main_arg6 : DevRef τ sig) = V (main_arg6 : DevRef τ sig) :=
  keep_ops (by decide) (by decide) (by decide) (by decide) (by decide) (by decide) V
theorem keep_arg7 (V : Valuation τ sig (Elt F)) : after ops V (main_arg7 : DevRef τ sig) = V (main_arg7 : DevRef τ sig) :=
  keep_ops (by decide) (by decide) (by decide) (by decide) (by decide) (by decide) V
theorem keep_arg8 (V : Valuation τ sig (Elt F)) : after ops V (main_arg8 : DevRef τ sig) = V (main_arg8 : DevRef τ sig) :=
  keep_ops (by decide) (by decide) (by decide) (by decide) (by decide) (by decide) V
theorem keep_arg9 (V : Valuation τ sig (Elt F)) : after ops V (main_arg9 : DevRef τ sig) = V (main_arg9 : DevRef τ sig) :=
  keep_ops (by decide) (by decide) (by decide) (by decide) (by decide) (by decide) V
theorem keep_arg10 (V : Valuation τ sig (Elt F)) : after ops V (main_arg10 : DevRef τ sig) = V (main_arg10 : DevRef τ sig) :=
  keep_ops (by decide) (by decide) (by decide) (by decide) (by decide) (by decide) V
theorem keep_arg11 (V : Valuation τ sig (Elt F)) : after ops V (main_arg11 : DevRef τ sig) = V (main_arg11 : DevRef τ sig) :=
  keep_ops (by decide) (by decide) (by decide) (by decide) (by decide) (by decide) V
theorem keep_arg12 (V : Valuation τ sig (Elt F)) : after ops V (main_arg12 : DevRef τ sig) = V (main_arg12 : DevRef τ sig) :=
  keep_ops (by decide) (by decide) (by decide) (by decide) (by decide) (by decide) V

/-- The result buffer after the whole line is the network of the arguments' contents at launch. -/
theorem value (V : Valuation τ sig (Elt F)) :
    after ops V (main_v146 : DevRef τ sig)
      = Cert.Gcn.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  simp only [ops, after_append]
  -- the head on the pooled rows; its weights carried back past the pooling
  rw [head_v146, pool_v136,
    keep_opsPool (r := main_arg9) (by decide),
    keep_opsPool (r := main_arg10) (by decide),
    keep_opsPool (r := main_arg11) (by decide),
    keep_opsPool (r := main_arg12) (by decide)]
  -- the third layer; the graph index and the head's weights carried back past it
  rw [L3_v124,
    keep_opsL3 (r := main_arg2) (by decide),
    keep_opsL3 (r := main_arg9) (by decide),
    keep_opsL3 (r := main_arg10) (by decide),
    keep_opsL3 (r := main_arg11) (by decide),
    keep_opsL3 (r := main_arg12) (by decide)]
  -- the second layer; the index vectors, the normalisation and the later weights carried back past it
  rw [L2_v86,
    keep_opsL2 (r := main_v1) (by decide),
    keep_opsL2 (r := main_v3) (by decide),
    keep_opsL2 (r := main_v10) (by decide),
    keep_opsL2 (r := main_arg7) (by decide),
    keep_opsL2 (r := main_arg8) (by decide),
    keep_opsL2 (r := main_arg2) (by decide),
    keep_opsL2 (r := main_arg9) (by decide),
    keep_opsL2 (r := main_arg10) (by decide),
    keep_opsL2 (r := main_arg11) (by decide),
    keep_opsL2 (r := main_arg12) (by decide)]
  -- the first layer, likewise
  rw [L1_v48,
    keep_opsL1 (r := main_v1) (by decide),
    keep_opsL1 (r := main_v3) (by decide),
    keep_opsL1 (r := main_v10) (by decide),
    keep_opsL1 (r := main_arg5) (by decide),
    keep_opsL1 (r := main_arg6) (by decide),
    keep_opsL1 (r := main_arg7) (by decide),
    keep_opsL1 (r := main_arg8) (by decide),
    keep_opsL1 (r := main_arg2) (by decide),
    keep_opsL1 (r := main_arg9) (by decide),
    keep_opsL1 (r := main_arg10) (by decide),
    keep_opsL1 (r := main_arg11) (by decide),
    keep_opsL1 (r := main_arg12) (by decide)]
  -- the index vectors and the normalisation of the edge table; every other argument untouched
  rw [deg_v1, deg_v3, deg_v10,
    keep_opsDeg (r := main_arg0) (by decide),
    keep_opsDeg (r := main_arg2) (by decide),
    keep_opsDeg (r := main_arg3) (by decide),
    keep_opsDeg (r := main_arg4) (by decide),
    keep_opsDeg (r := main_arg5) (by decide),
    keep_opsDeg (r := main_arg6) (by decide),
    keep_opsDeg (r := main_arg7) (by decide),
    keep_opsDeg (r := main_arg8) (by decide),
    keep_opsDeg (r := main_arg9) (by decide),
    keep_opsDeg (r := main_arg10) (by decide),
    keep_opsDeg (r := main_arg11) (by decide),
    keep_opsDeg (r := main_arg12) (by decide)]
  rfl

end Cert.ReferenceIdeal.RefValue

end
-- ==== Proof.lean ====
/-
  A three-layer graph-convolution network with mean pooling and a two-layer head, computed by a program of seven
  Pallas regions among host operations, against its plain-array reference, over the extended reals.

  Both programs compute, from the node features x, the edge list, the graph assignment and the weights,
      out = head(mean-pool(layer₃(layer₂(layer₁(x))))),
  where a layer projects the features (h = features · W), sums over each node's incoming edges the messages
  dis(src e) · dis(dst e) · h(src e, ·), adds the self-loop term dis(v)² · h(v, ·) and the bias, and applies a leaky
  ReLU (dis = (1 + in-degree)^(-1/2)). The function is `Cert.Gcn.out` (Proof/Spec.lean), spelt with the host
  operations themselves.
  * The reference is a straight line of host operations (its leaky ReLUs inlined calls); its run is read back stretch
    by stretch as the specification's functions (Proof/RefRun.lean, Proof/RefValue.lean).
  * The kernel program computes the gathers and scatter-adds on the host exactly as the reference does, and in
    regions: the three projections (a matrix product per block of 10000 rows: the sum over the contracted axis that the
    host's dot_general is, at the extended reals, whatever the blocking), the three "combine" steps (pointwise: the
    message sum plus the scaled projection plus the bias, under a leaky ReLU written with `>` where the reference's is
    written with `≥`: the two agree, both branches being 0 at 0), and the head. Each region's output array is a
    whole-array function of its input arrays (Proof/Region*.lean); the contents at the thirteen segment boundaries are
    chained in Proof/KVal.lean; the host's shape-cast columns are the specification's broadcast columns
    (Proof/KOut.lean).
  No law used needs finiteness (sums are only regrouped by the blocking of the rows, never distributed over), so the
  precondition is never opened. The frames are the generated ones; the reference's frame is its run with the result
  dropped; the idealization rewrote nothing, so `preserves` is trivial.
-/
import proofs.«112680_j2370821947637_1_alg».proof.Defs
import proofs.«112680_j2370821947637_1_alg».proof.Proof.Gen.Kernel
import proofs.«112680_j2370821947637_1_alg».proof.Proof.Gen.Kernel.Skeleton
import proofs.«112680_j2370821947637_1_alg».proof.Proof.Gen.Kernel.Launch
import proofs.«112680_j2370821947637_1_alg».proof.Proof.Gen.Kernel.Points
import proofs.«112680_j2370821947637_1_alg».proof.Proof.Gen.Kernel.Frame
import proofs.«112680_j2370821947637_1_alg».proof.Proof.Gen.KernelIdeal
import proofs.«112680_j2370821947637_1_alg».proof.Proof.Gen.KernelIdeal.Skeleton
import proofs.«112680_j2370821947637_1_alg».proof.Proof.Gen.KernelIdeal.Launch
import proofs.«112680_j2370821947637_1_alg».proof.Proof.Gen.KernelIdeal.Points
import proofs.«112680_j2370821947637_1_alg».proof.Proof.Gen.KernelIdeal.Frame
import proofs.«112680_j2370821947637_1_alg».proof.Proof.Gen.ReferenceIdeal
import proofs.«112680_j2370821947637_1_alg».proof.Proof.Gen.Pre_finite_inputs
import proofs.«112680_j2370821947637_1_alg».proof.Proof.KRun
import proofs.«112680_j2370821947637_1_alg».proof.Proof.KOut
import proofs.«112680_j2370821947637_1_alg».proof.Proof.RegionLin0
import proofs.«112680_j2370821947637_1_alg».proof.Proof.RegionLin2
import proofs.«112680_j2370821947637_1_alg».proof.Proof.RegionLin4
import proofs.«112680_j2370821947637_1_alg».proof.Proof.RegionComb1
import proofs.«112680_j2370821947637_1_alg».proof.Proof.RegionComb3
import proofs.«112680_j2370821947637_1_alg».proof.Proof.RegionComb5
import proofs.«112680_j2370821947637_1_alg».proof.Proof.RegionHead
import proofs.«112680_j2370821947637_1_alg».proof.Proof.RefRun
import proofs.«112680_j2370821947637_1_alg».proof.Proof.RefValue
import Idealize.ShloMosaic.Adequacy
import Idealize.ShloMosaic.Init

set_option maxRecDepth 16384

noncomputable section

namespace Cert.Proof

open Idealize.ShloMosaic Idealize.SL.Sem Idealize.ShloMosaic.StableHlo

/-- The seven regions' closed forms. -/
theorem regionForms : Cert.KernelIdeal.KVal.RegionForms where
  lin0 := Cert.KernelIdeal.Regions.lin0
  comb1 := Cert.KernelIdeal.Regions.comb1
  lin2 := Cert.KernelIdeal.Regions.lin2
  comb3 := Cert.KernelIdeal.Regions.comb3
  lin4 := Cert.KernelIdeal.Regions.lin4
  comb5 := Cert.KernelIdeal.Regions.comb5
  head6 := Cert.KernelIdeal.Regions.head6

theorem frame_k : Cert.frame_Kernel := fun m ρ _ => Cert.Kernel.Gen.frame m ρ

theorem frame_ki : Cert.frame_KernelIdeal := fun m ρ _ => Cert.KernelIdeal.Gen.frame m ρ

/-- The reference's frame: its run, the result dropped; no operation writes an argument. -/
theorem frame_ri : Cert.frame_ReferenceIdeal := fun m ρ _ =>
  (θ_run Cert.ReferenceIdeal.defs _ _).mono
    (fun _ h c => ⟨(h c _).trans (Cert.ReferenceIdeal.RefValue.keep_arg0 _),
      (h c _).trans (Cert.ReferenceIdeal.RefValue.keep_arg1 _),
      (h c _).trans (Cert.ReferenceIdeal.RefValue.keep_arg2 _),
      (h c _).trans (Cert.ReferenceIdeal.RefValue.keep_arg3 _),
      (h c _).trans (Cert.ReferenceIdeal.RefValue.keep_arg4 _),
      (h c _).trans (Cert.ReferenceIdeal.RefValue.keep_arg5 _),
      (h c _).trans (Cert.ReferenceIdeal.RefValue.keep_arg6 _),
      (h c _).trans (Cert.ReferenceIdeal.RefValue.keep_arg7 _),
      (h c _).trans (Cert.ReferenceIdeal.RefValue.keep_arg8 _),
      (h c _).trans (Cert.ReferenceIdeal.RefValue.keep_arg9 _),
      (h c _).trans (Cert.ReferenceIdeal.RefValue.keep_arg10 _),
      (h c _).trans (Cert.ReferenceIdeal.RefValue.keep_arg11 _),
      (h c _).trans (Cert.ReferenceIdeal.RefValue.keep_arg12 _)⟩)
    (Cert.ReferenceIdeal.RefRun.run_main (F := Ideal) m ρ)

/-- Both programs end with the network of the arguments in their result buffers. -/
theorem algebraic : Cert.algebraic_KernelIdeal_ReferenceIdeal := by
  intro m ρ m' ρ' _ hagree
  refine ⟨fun c => Cert.Gcn.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KVal.kernel_value m ρ c regionForms), (h c).2⟩)
      (Cert.KernelIdeal.KRun.run_main (F := Ideal) m ρ)
  · refine (θ_run Cert.ReferenceIdeal.defs _ _).mono
      (fun _ h c => ⟨(h c _).trans ?_,
        (h c _).trans (Cert.ReferenceIdeal.RefValue.keep_arg0 _),
        (h c _).trans (Cert.ReferenceIdeal.RefValue.keep_arg1 _),
        (h c _).trans (Cert.ReferenceIdeal.RefValue.keep_arg2 _),
        (h c _).trans (Cert.ReferenceIdeal.RefValue.keep_arg3 _),
        (h c _).trans (Cert.ReferenceIdeal.RefValue.keep_arg4 _),
        (h c _).trans (Cert.ReferenceIdeal.RefValue.keep_arg5 _),
        (h c _).trans (Cert.ReferenceIdeal.RefValue.keep_arg6 _),
        (h c _).trans (Cert.ReferenceIdeal.RefValue.keep_arg7 _),
        (h c _).trans (Cert.ReferenceIdeal.RefValue.keep_arg8 _),
        (h c _).trans (Cert.ReferenceIdeal.RefValue.keep_arg9 _),
        (h c _).trans (Cert.ReferenceIdeal.RefValue.keep_arg10 _),
        (h c _).trans (Cert.ReferenceIdeal.RefValue.keep_arg11 _),
        (h c _).trans (Cert.ReferenceIdeal.RefValue.keep_arg12 _)⟩)
      (Cert.ReferenceIdeal.RefRun.run_main (F := Ideal) m' ρ')
    obtain ⟨e0, e1, e2, e3, e4, e5, e6, e7, e8, e9, e10, e11, e12⟩ := hagree c
    rw [Cert.ReferenceIdeal.RefValue.value]
    exact congr (congr (congr (congr (congr (congr (congr (congr (congr (congr (congr (congr
      (congrArg (Cert.Gcn.out (F := Ideal)) e0) e1) e2) e3) e4) e5) e6) e7) e8) e9) e10) e11) e12

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
